-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v290)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v290) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v333) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x64x64x64 : Shape := ⟨5, ![4, 32, 64, 64, 64]⟩
abbrev S4x131072x3 : Shape := ⟨3, ![4, 131072, 3]⟩
abbrev S128x35 : Shape := ⟨2, ![128, 35]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S4x32x64x64x64 : S_.BroadcastsInDim S4x32x64x64x64 (![] : Fin 0 → Fin S4x32x64x64x64.rank)
  reducesTo_S4x32x64x64x64_S_d0_1_2_3_4 : S4x32x64x64x64.ReducesTo [0, 1, 2, 3, 4] S_
  h_S_ : 0 < S_.numel
  bcast_S_S4x131072x3 : S_.BroadcastsInDim S4x131072x3 (![] : Fin 0 → Fin S4x131072x3.rank)
  reducesTo_S4x131072x3_S_d0_1_2 : S4x131072x3.ReducesTo [0, 1, 2] S_
  bcast_S_S128x35 : S_.BroadcastsInDim S128x35 (![] : Fin 0 → Fin S128x35.rank)
  reducesTo_S128x35_S_d0_1 : S128x35.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S1x128 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_v33

def fn {F : FTy → Type} [FloatOps F] (main_arg0 : FVec F S4x32x64x64x64 .f32) (main_arg1 : FVec F S4x131072x3 .f32) (main_arg2 : FVec F S128x35 .f32) (main_arg3 : FVec F S128 .f32) (main_arg4 : FVec F S128x128 .f32) (main_arg5 : FVec F S128 .f32) (main_arg6 : FVec F S1x128 .f32) (main_arg7 : FVec F S1 .f32) : IVec S_ 1 :=
  let main_v0 : FVec F S4x32x64x64x64 .f32 := Host.absf main_arg0
  let main_cst : FVec F S_ .f32 := constant S_ .f32 0x7F800000#32
  let main_v1 : FVec F S4x32x64x64x64 .f32 := broadcastInDim S4x32x64x64x64 ![] bcast_S_S4x32x64x64x64 main_cst
  let main_v2 : IVec S4x32x64x64x64 1 := cmpf .olt main_v0 main_v1
  let main_c : IVec S_ 1 := constantI S_ 1 1#1
  let main_v3 : IVec S_ 1 := (fun x v => Host.reduce IntOp.andi x v reducesTo_S4x32x64x64x64_S_d0_1_2_3_4 h_S_) main_v2 main_c
  let main_v4 : FVec F S4x131072x3 .f32 := Host.absf main_arg1
  let main_cst_0 : FVec F S_ .f32 := constant S_ .f32 0x7F800000#32
  let main_v5 : FVec F S4x131072x3 .f32 := broadcastInDim S4x131072x3 ![] bcast_S_S4x131072x3 main_cst_0
  let main_v6 : IVec S4x131072x3 1 := cmpf .olt main_v4 main_v5
  let main_c_1 : IVec S_ 1 := constantI S_ 1 1#1
  let main_v7 : IVec S_ 1 := (fun x v => Host.reduce IntOp.andi x v reducesTo_S4x131072x3_S_d0_1_2 h_S_) main_v6 main_c_1
  let main_v8 : IVec S_ 1 := andi main_v3 main_v7
  let main_v9 : FVec F S128x35 .f32 := Host.absf main_arg2
  let main_cst_2 : FVec F S_ .f32 := constant S_ .f32 0x7F800000#32
  let main_v10 : FVec F S128x35 .f32 := broadcastInDim S128x35 ![] bcast_S_S128x35 main_cst_2
  let main_v11 : IVec S128x35 1 := cmpf .olt main_v9 main_v10
  let main_c_3 : IVec S_ 1 := constantI S_ 1 1#1
  let main_v12 : IVec S_ 1 := (fun x v => Host.reduce IntOp.andi x v reducesTo_S128x35_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S4x32x64x64x64 : Shape := ⟨5, ![4, 32, 64, 64, 64]⟩
abbrev S4x131072x3 : Shape := ⟨3, ![4, 131072, 3]⟩
abbrev S128x35 : Shape := ⟨2, ![128, 35]⟩
abbrev S128 : Shape := ⟨1, ![128]⟩
abbrev S128x128 : Shape := ⟨2, ![128, 128]⟩
abbrev S1x128 : Shape := ⟨2, ![1, 128]⟩
abbrev S1 : Shape := ⟨1, ![1]⟩
abbrev S4x64x64x64x32 : Shape := ⟨5, ![4, 64, 64, 64, 32]⟩
abbrev S4x262144x32 : Shape := ⟨3, ![4, 262144, 32]⟩
abbrev S_ : Shape := ⟨0, ![]⟩
abbrev S4x131072x1 : Shape := ⟨3, ![4, 131072, 1]⟩
abbrev S4x131072 : Shape := ⟨2, ![4, 131072]⟩
abbrev S4 : Shape := ⟨1, ![4]⟩
abbrev S4x1 : Shape := ⟨2, ![4, 1]⟩
abbrev S4x131072x2 : Shape := ⟨3, ![4, 131072, 2]⟩
abbrev S4x131072x32 : Shape := ⟨3, ![4, 131072, 32]⟩
abbrev S524288x3 : Shape := ⟨2, ![524288, 3]⟩
abbrev S524288x32 : Shape := ⟨2, ![524288, 32]⟩
abbrev S35x128 : Shape := ⟨2, ![35, 128]⟩
abbrev S3x128 : Shape := ⟨2, ![3, 128]⟩
abbrev S32x128 : Shape := ⟨2, ![32, 128]⟩
abbrev S128x1 : Shape := ⟨2, ![128, 1]⟩
abbrev S1x1 : Shape := ⟨2, ![1, 1]⟩
abbrev S524288x1 : Shape := ⟨2, ![524288, 1]⟩
abbrev S8192x3 : Shape := ⟨2, ![8192, 3]⟩
abbrev S8192x32 : Shape := ⟨2, ![8192, 32]⟩
abbrev S8192x1 : Shape := ⟨2, ![8192, 1]⟩
abbrev S8192x128 : Shape := ⟨2, ![8192, 128]⟩

abbrev nBuf : Space → Nat
  | .hbm => 410
  | .vmem => 13
  | .smem => 0
  | _ => 0

abbrev hbmTy0_0 (i : Nat) : BufTy := match i % 128 with
  | 0 => ⟨S4x32x64x64x64, .f32⟩
  | 1 => ⟨S4x131072x3, .f32⟩
  | 2 => ⟨S128x35, .f32⟩
  | 3 => ⟨S128, .f32⟩
  | 4 => ⟨S128x128, .f32⟩
  | 5 => ⟨S128, .f32⟩
  | 6 => ⟨S1x128, .f32⟩
  | 7 => ⟨S1, .f32⟩
  | 8 => ⟨S4x64x64x64x32, .f32⟩
  | 9 => ⟨S4x262144x32, .f32⟩
  | 10 => ⟨S_, .f32⟩
  | 11 => ⟨S4x131072x3, .f32⟩
  | 12 => ⟨S4x131072x3, .f32⟩
  | 13 => ⟨S_, .f32⟩
  | 14 => ⟨S4x131072x3, .f32⟩
  | 15 => ⟨S4x131072x3, .f32⟩
  | 16 => ⟨S4x131072x1, .f32⟩
  | 17 => ⟨S4x131072, .f32⟩
  | 18 => ⟨S_, .f32⟩
  | 19 => ⟨S4x131072, .f32⟩
  | 20 => ⟨S4x131072, .f32⟩
  | 21 => ⟨S_, .f32⟩
  | 22 => ⟨S4x131072, .f32⟩
  | 23 => ⟨S4x131072, .f32⟩
  | 24 => ⟨S_, .f32⟩
  | 25 => ⟨S4x131072, .f32⟩
  | 26 => ⟨S4x131072, .f32⟩
  | 27 => ⟨S4x131072x1, .f32⟩
  | 28 => ⟨S4x131072, .f32⟩
  | 29 => ⟨S_, .f32⟩
  | 30 => ⟨S4x131072, .f32⟩
  | 31 => ⟨S4x131072, .f32⟩
  | 32 => ⟨S_, .f32⟩
  | 33 => ⟨S4x131072, .f32⟩
  | 34 => ⟨S4x131072, .f32⟩
  | 35 => ⟨S_, .f32⟩
  | 36 => ⟨S4x131072, .f32⟩
  | 37 => ⟨S4x131072, .f32⟩
  | 38 => ⟨S4x131072x1, .f32⟩
  | 39 => ⟨S4x131072, .f32⟩
  | 40 => ⟨S_, .f32⟩
  | 41 => ⟨S4x131072, .f32⟩
  | 42 => ⟨S4x131072, .f32⟩
  | 43 => ⟨S_, .f32⟩
  | 44 => ⟨S4x131072, .f32⟩
  | 45 => ⟨S4x131072, .f32⟩
  | 46 => ⟨S_, .f32⟩
  | 47 => ⟨S4x131072, .f32⟩
  | 48 => ⟨S4x131072, .f32⟩
  | 49 => ⟨S4x131072, .f32⟩
  | 50 => ⟨S4x131072, .f32⟩
  | 51 => ⟨S4x131072, .f32⟩
  | 52 => ⟨S4x131072, .f32⟩
  | 53 => ⟨S4x131072x1, .f32⟩
  | 54 => ⟨S4x131072, .f32⟩
  | 55 => ⟨S4x131072x1, .f32⟩
  | 56 => ⟨S4x131072, .f32⟩
  | 57 => ⟨S4x131072x1, .f32⟩
  | 58 => ⟨S4x131072, .i32⟩
  | 59 => ⟨S_, .i32⟩
  | 60 => ⟨S_, .i32⟩
  | 61 => ⟨S_, .i32⟩
  | 62 => ⟨S4x131072, .i32⟩
  | 63 => ⟨S4x131072, .i32⟩
  | 64 => ⟨S_, .i32⟩
  | 65 => ⟨S4x131072, .i32⟩
  | 66 => ⟨S4x131072, .i32⟩
  | 67 => ⟨S_, .i32⟩
  | 68 => ⟨S4x131072, .i32⟩
  | 69 => ⟨S4x131072, .i32⟩
  | 70 => ⟨S_, .i32⟩
  | 71 => ⟨S_, .i32⟩
  | 72 => ⟨S_, .i32⟩
  | 73 => ⟨S4x131072, .i32⟩
  | 74 => ⟨S4x131072, .i32⟩
  | 75 => ⟨S_, .i32⟩
  | 76 => ⟨S4x131072, .i32⟩
  | 77 => ⟨S4x131072, .i32⟩
  | 78 => ⟨S4x131072, .i32⟩
  | 79 => ⟨S_, .i32⟩
  | 80 => ⟨S_, .i32⟩
  | 81 => ⟨S_, .i32⟩
  | 82 => ⟨S4x131072, .i32⟩
  | 83 => ⟨S4x131072, .i32⟩
  | 84 => ⟨S_, .i32⟩
  | 85 => ⟨S4x131072, .i32⟩
  | 86 => ⟨S4x131072, .i32⟩
  | 87 => ⟨S_, .i32⟩
  | 88 => ⟨S4x131072, .i32⟩
  | 89 => ⟨S4x131072, .i32⟩
  | 90 => ⟨S_, .i32⟩
  | 91 => ⟨S_, .i32⟩
  | 92 => ⟨S_, .i32⟩
  | 93 => ⟨S4x131072, .i32⟩
  | 94 => ⟨S4x131072, .i32⟩
  | 95 => ⟨S_, .i32⟩
  | 96 => ⟨S4x131072, .i32⟩
  | 97 => ⟨S4x131072, .i32⟩
  | 98 => ⟨S4x131072, .i32⟩
  | 99 => ⟨S_, .i32⟩
  | 100 => ⟨S_, .i32⟩
  | 101 => ⟨S_, .i32⟩
  | 102 => ⟨S4x131072, .i32⟩
  | 103 => ⟨S4x131072, .i32⟩
  | 104 => ⟨S_, .i32⟩
  | 105 => ⟨S4x131072, .i32⟩
  | 106 => ⟨S4x131072, .i32⟩
  | 107 => ⟨S_, .i32⟩
  | 108 => ⟨S4x131072, .i32⟩
  | 109 => ⟨S4x131072, .i32⟩
  | 110 => ⟨S_, .i32⟩
  | 111 => ⟨S_, .i32⟩
  | 112 => ⟨S_, .i32⟩
  | 113 => ⟨S4x131072, .i32⟩
  | 114 => ⟨S4x131072, .i32⟩
  | 115 => ⟨S_, .i32⟩
  | 116 => ⟨S4x131072, .i32⟩
  | 117 => ⟨S4x131072, .i32⟩
  | 118 => ⟨S4, .i32⟩
  | 119 => ⟨S4x1, .i32⟩
  | 120 => ⟨S_, .i32⟩
  | 121 => ⟨S4x131072, .i32⟩
  | 122 => ⟨S4x131072, .i32⟩
  | 123 => ⟨S_, .i32⟩
  | 124 => ⟨S4x131072, .i32⟩
  | 125 => ⟨S4x131072, .i32⟩
  | 126 => ⟨S4x131072, .i32⟩
  | 127 => ⟨S4x131072, .i32⟩
  | _ => ⟨S4x32x64x64x64, .f32⟩

abbrev hbmTy0_1 (i : Nat) : BufTy := match i % 128 with
  | 0 => ⟨S_, .i32⟩
  | 1 => ⟨S4x1, .i32⟩
  | 2 => ⟨S4x1, .i1⟩
  | 3 => ⟨S_, .i32⟩
  | 4 => ⟨S4x1, .i32⟩
  | 5 => ⟨S4x1, .i32⟩
  | 6 => ⟨S4x1, .i32⟩
  | 7 => ⟨S_, .i32⟩
  | 8 => ⟨S4x131072, .i32⟩
  | 9 => ⟨S4x131072, .i1⟩
  | 10 => ⟨S_, .i32⟩
  | 11 => ⟨S4x131072, .i32⟩
  | 12 => ⟨S4x131072, .i32⟩
  | 13 => ⟨S4x131072, .i32⟩
  | 14 => ⟨S4x131072, .i32⟩
  | 15 => ⟨S4x131072x1, .i32⟩
  | 16 => ⟨S4x131072x1, .i32⟩
  | 17 => ⟨S4x131072x2, .i32⟩
  | 18 => ⟨S4x131072x32, .f32⟩
  | 19 => ⟨S_, .f32⟩
  | 20 => ⟨S4x131072x1, .f32⟩
  | 21 => ⟨S4x131072x1, .f32⟩
  | 22 => ⟨S4x131072x32, .f32⟩
  | 23 => ⟨S4x131072x32, .f32⟩
  | 24 => ⟨S_, .i32⟩
  | 25 => ⟨S4x131072, .i32⟩
  | 26 => ⟨S4x131072, .i32⟩
  | 27 => ⟨S_, .i32⟩
  | 28 => ⟨S4x131072, .i32⟩
  | 29 => ⟨S4x131072, .i32⟩
  | 30 => ⟨S4x131072, .i32⟩
  | 31 => ⟨S4x131072, .i32⟩
  | 32 => ⟨S_, .i32⟩
  | 33 => ⟨S4x1, .i32⟩
  | 34 => ⟨S4x1, .i1⟩
  | 35 => ⟨S_, .i32⟩
  | 36 => ⟨S4x1, .i32⟩
  | 37 => ⟨S4x1, .i32⟩
  | 38 => ⟨S4x1, .i32⟩
  | 39 => ⟨S_, .i32⟩
  | 40 => ⟨S4x131072, .i32⟩
  | 41 => ⟨S4x131072, .i1⟩
  | 42 => ⟨S_, .i32⟩
  | 43 => ⟨S4x131072, .i32⟩
  | 44 => ⟨S4x131072, .i32⟩
  | 45 => ⟨S4x131072, .i32⟩
  | 46 => ⟨S4x131072, .i32⟩
  | 47 => ⟨S4x131072x1, .i32⟩
  | 48 => ⟨S4x131072x1, .i32⟩
  | 49 => ⟨S4x131072x2, .i32⟩
  | 50 => ⟨S4x131072x32, .f32⟩
  | 51 => ⟨S4x131072x32, .f32⟩
  | 52 => ⟨S4x131072x32, .f32⟩
  | 53 => ⟨S4x131072x32, .f32⟩
  | 54 => ⟨S_, .i32⟩
  | 55 => ⟨S4x131072, .i32⟩
  | 56 => ⟨S4x131072, .i32⟩
  | 57 => ⟨S_, .i32⟩
  | 58 => ⟨S4x131072, .i32⟩
  | 59 => ⟨S4x131072, .i32⟩
  | 60 => ⟨S4x131072, .i32⟩
  | 61 => ⟨S4x131072, .i32⟩
  | 62 => ⟨S_, .i32⟩
  | 63 => ⟨S4x1, .i32⟩
  | 64 => ⟨S4x1, .i1⟩
  | 65 => ⟨S_, .i32⟩
  | 66 => ⟨S4x1, .i32⟩
  | 67 => ⟨S4x1, .i32⟩
  | 68 => ⟨S4x1, .i32⟩
  | 69 => ⟨S_, .i32⟩
  | 70 => ⟨S4x131072, .i32⟩
  | 71 => ⟨S4x131072, .i1⟩
  | 72 => ⟨S_, .i32⟩
  | 73 => ⟨S4x131072, .i32⟩
  | 74 => ⟨S4x131072, .i32⟩
  | 75 => ⟨S4x131072, .i32⟩
  | 76 => ⟨S4x131072, .i32⟩
  | 77 => ⟨S4x131072x1, .i32⟩
  | 78 => ⟨S4x131072x1, .i32⟩
  | 79 => ⟨S4x131072x2, .i32⟩
  | 80 => ⟨S4x131072x32, .f32⟩
  | 81 => ⟨S_, .f32⟩
  | 82 => ⟨S4x131072x1, .f32⟩
  | 83 => ⟨S4x131072x1, .f32⟩
  | 84 => ⟨S4x131072x32, .f32⟩
  | 85 => ⟨S4x131072x32, .f32⟩
  | 86 => ⟨S_, .i32⟩
  | 87 => ⟨S4x131072, .i32⟩
  | 88 => ⟨S4x131072, .i32⟩
  | 89 => ⟨S_, .i32⟩
  | 90 => ⟨S4x131072, .i32⟩
  | 91 => ⟨S4x131072, .i32⟩
  | 92 => ⟨S4x131072, .i32⟩
  | 93 => ⟨S4x131072, .i32⟩
  | 94 => ⟨S_, .i32⟩
  | 95 => ⟨S4x1, .i32⟩
  | 96 => ⟨S4x1, .i1⟩
  | 97 => ⟨S_, .i32⟩
  | 98 => ⟨S4x1, .i32⟩
  | 99 => ⟨S4x1, .i32⟩
  | 100 => ⟨S4x1, .i32⟩
  | 101 => ⟨S_, .i32⟩
  | 102 => ⟨S4x131072, .i32⟩
  | 103 => ⟨S4x131072, .i1⟩
  | 104 => ⟨S_, .i32⟩
  | 105 => ⟨S4x131072, .i32⟩
  | 106 => ⟨S4x131072, .i32⟩
  | 107 => ⟨S4x131072, .i32⟩
  | 108 => ⟨S4x131072, .i32⟩
  | 109 => ⟨S4x131072x1, .i32⟩
  | 110 => ⟨S4x131072x1, .i32⟩
  | 111 => ⟨S4x131072x2, .i32⟩
  | 112 => ⟨S4x131072x32, .f32⟩
  | 113 => ⟨S4x131072x32, .f32⟩
  | 114 => ⟨S4x131072x32, .f32⟩
  | 115 => ⟨S4x131072x32, .f32⟩
  | 116 => ⟨S_, .i32⟩
  | 117 => ⟨S4x131072, .i32⟩
  | 118 => ⟨S4x131072, .i32⟩
  | 119 => ⟨S_, .i32⟩
  | 120 => ⟨S4x131072, .i32⟩
  | 121 => ⟨S4x131072, .i32⟩
  | 122 => ⟨S4x131072, .i32⟩
  | 123 => ⟨S4x131072, .i32⟩
  | 124 => ⟨S_, .i32⟩
  | 125 => ⟨S4x1, .i32⟩
  | 126 => ⟨S4x1, .i1⟩
  | 127 => ⟨S_, .i32⟩
  | _ => ⟨S4x32x64x64x64, .f32⟩

abbrev hbmTy0_2 (i : Nat) : BufTy := match i % 128 with
  | 0 => ⟨S4x1, .i32⟩
  | 1 => ⟨S4x1, .i32⟩
  | 2 => ⟨S4x1, .i32⟩
  | 3 => ⟨S_, .i32⟩
  | 4 => ⟨S4x131072, .i32⟩
  | 5 => ⟨S4x131072, .i1⟩
  | 6 => ⟨S_, .i32⟩
  | 7 => ⟨S4x131072, .i32⟩
  | 8 => ⟨S4x131072, .i32⟩
  | 9 => ⟨S4x131072, .i32⟩
  | 10 => ⟨S4x131072, .i32⟩
  | 11 => ⟨S4x131072x1, .i32⟩
  | 12 => ⟨S4x131072x1, .i32⟩
  | 13 => ⟨S4x131072x2, .i32⟩
  | 14 => ⟨S4x131072x32, .f32⟩
  | 15 => ⟨S_, .f32⟩
  | 16 => ⟨S4x131072x1, .f32⟩
  | 17 => ⟨S4x131072x1, .f32⟩
  | 18 => ⟨S4x131072x32, .f32⟩
  | 19 => ⟨S4x131072x32, .f32⟩
  | 20 => ⟨S_, .i32⟩
  | 21 => ⟨S4x131072, .i32⟩
  | 22 => ⟨S4x131072, .i32⟩
  | 23 => ⟨S_, .i32⟩
  | 24 => ⟨S4x131072, .i32⟩
  | 25 => ⟨S4x131072, .i32⟩
  | 26 => ⟨S4x131072, .i32⟩
  | 27 => ⟨S4x131072, .i32⟩
  | 28 => ⟨S_, .i32⟩
  | 29 => ⟨S4x1, .i32⟩
  | 30 => ⟨S4x1, .i1⟩
  | 31 => ⟨S_, .i32⟩
  | 32 => ⟨S4x1, .i32⟩
  | 33 => ⟨S4x1, .i32⟩
  | 34 => ⟨S4x1, .i32⟩
  | 35 => ⟨S_, .i32⟩
  | 36 => ⟨S4x131072, .i32⟩
  | 37 => ⟨S4x131072, .i1⟩
  | 38 => ⟨S_, .i32⟩
  | 39 => ⟨S4x131072, .i32⟩
  | 40 => ⟨S4x131072, .i32⟩
  | 41 => ⟨S4x131072, .i32⟩
  | 42 => ⟨S4x131072, .i32⟩
  | 43 => ⟨S4x131072x1, .i32⟩
  | 44 => ⟨S4x131072x1, .i32⟩
  | 45 => ⟨S4x131072x2, .i32⟩
  | 46 => ⟨S4x131072x32, .f32⟩
  | 47 => ⟨S4x131072x32, .f32⟩
  | 48 => ⟨S4x131072x32, .f32⟩
  | 49 => ⟨S4x131072x32, .f32⟩
  | 50 => ⟨S_, .i32⟩
  | 51 => ⟨S4x131072, .i32⟩
  | 52 => ⟨S4x131072, .i32⟩
  | 53 => ⟨S_, .i32⟩
  | 54 => ⟨S4x131072, .i32⟩
  | 55 => ⟨S4x131072, .i32⟩
  | 56 => ⟨S4x131072, .i32⟩
  | 57 => ⟨S4x131072, .i32⟩
  | 58 => ⟨S_, .i32⟩
  | 59 => ⟨S4x1, .i32⟩
  | 60 => ⟨S4x1, .i1⟩
  | 61 => ⟨S_, .i32⟩
  | 62 => ⟨S4x1, .i32⟩
  | 63 => ⟨S4x1, .i32⟩
  | 64 => ⟨S4x1, .i32⟩
  | 65 => ⟨S_, .i32⟩
  | 66 => ⟨S4x131072, .i32⟩
  | 67 => ⟨S4x131072, .i1⟩
  | 68 => ⟨S_, .i32⟩
  | 69 => ⟨S4x131072, .i32⟩
  | 70 => ⟨S4x131072, .i32⟩
  | 71 => ⟨S4x131072, .i32⟩
  | 72 => ⟨S4x131072, .i32⟩
  | 73 => ⟨S4x131072x1, .i32⟩
  | 74 => ⟨S4x131072x1, .i32⟩
  | 75 => ⟨S4x131072x2, .i32⟩
  | 76 => ⟨S4x131072x32, .f32⟩
  | 77 => ⟨S_, .f32⟩
  | 78 => ⟨S4x131072x1, .f32⟩
  | 79 => ⟨S4x131072x1, .f32⟩
  | 80 => ⟨S4x131072x32, .f32⟩
  | 81 => ⟨S4x131072x32, .f32⟩
  | 82 => ⟨S_, .i32⟩
  | 83 => ⟨S4x131072, .i32⟩
  | 84 => ⟨S4x131072, .i32⟩
  | 85 => ⟨S_, .i32⟩
  | 86 => ⟨S4x131072, .i32⟩
  | 87 => ⟨S4x131072, .i32⟩
  | 88 => ⟨S4x131072, .i32⟩
  | 89 => ⟨S4x131072, .i32⟩
  | 90 => ⟨S_, .i32⟩
  | 91 => ⟨S4x1, .i32⟩
  | 92 => ⟨S4x1, .i1⟩
  | 93 => ⟨S_, .i32⟩
  | 94 => ⟨S4x1, .i32⟩
  | 95 => ⟨S4x1, .i32⟩
  | 96 => ⟨S4x1, .i32⟩
  | 97 => ⟨S_, .i32⟩
  | 98 => ⟨S4x131072, .i32⟩
  | 99 => ⟨S4x131072, .i1⟩
  | 100 => ⟨S_, .i32⟩
  | 101 => ⟨S4x131072, .i32⟩
  | 102 => ⟨S4x131072, .i32⟩
  | 103 => ⟨S4x131072, .i32⟩
  | 104 => ⟨S4x131072, .i32⟩
  | 105 => ⟨S4x131072x1, .i32⟩
  | 106 => ⟨S4x131072x1, .i32⟩
  | 107 => ⟨S4x131072x2, .i32⟩
  | 108 => ⟨S4x131072x32, .f32⟩
  | 109 => ⟨S4x131072x32, .f32⟩
  | 110 => ⟨S4x131072x32, .f32⟩
  | 111 => ⟨S4x131072x32, .f32⟩
  | 112 => ⟨S_, .f32⟩
  | 113 => ⟨S4x131072x1, .f32⟩
  | 114 => ⟨S4x131072x1, .f32⟩
  | 115 => ⟨S4x131072x32, .f32⟩
  | 116 => ⟨S4x131072x32, .f32⟩
  | 117 => ⟨S4x131072x32, .f32⟩
  | 118 => ⟨S4x131072x32, .f32⟩
  | 119 => ⟨S4x131072x32, .f32⟩
  | 120 => ⟨S_, .f32⟩
  | 121 => ⟨S4x131072x1, .f32⟩
  | 122 => ⟨S4x131072x1, .f32⟩
  | 123 => ⟨S4x131072x32, .f32⟩
  | 124 => ⟨S4x131072x32, .f32⟩
  | 125 => ⟨S4x131072x32, .f32⟩
  | 126 => ⟨S4x131072x32, .f32⟩
  | 127 => ⟨S4x131072x32, .f32⟩
  | _ => ⟨S4x32x64x64x64, .f32⟩

abbrev hbmTy0_3 (i : Nat) : BufTy := match i % 128 with
  | 0 => ⟨S_, .f32⟩
  | 1 => ⟨S4x131072x1, .f32⟩
  | 2 => ⟨S4x131072x1, .f32⟩
  | 3 => ⟨S4x131072x32, .f32⟩
  | 4 => ⟨S4x131072x32, .f32⟩
  | 5 => ⟨S4x131072x32, .f32⟩
  | 6 => ⟨S4x131072x32, .f32⟩
  | 7 => ⟨S4x131072x32, .f32⟩
  | 8 => ⟨S4x131072x3, .bf16⟩
  | 9 => ⟨S524288x3, .bf16⟩
  | 10 => ⟨S4x131072x32, .bf16⟩
  | 11 => ⟨S524288x32, .bf16⟩
  | 12 => ⟨S35x128, .f32⟩
  | 13 => ⟨S3x128, .f32⟩
  | 14 => ⟨S3x128, .bf16⟩
  | 15 => ⟨S32x128, .f32⟩
  | 16 => ⟨S32x128, .bf16⟩
  | 17 => ⟨S128x128, .f32⟩
  | 18 => ⟨S128x128, .bf16⟩
  | 19 => ⟨S128x1, .f32⟩
  | 20 => ⟨S128x1, .bf16⟩
  | 21 => ⟨S1x128, .f32⟩
  | 22 => ⟨S1x128, .f32⟩
  | 23 => ⟨S1x1, .f32⟩
  | 24 => ⟨S524288x1, .f32⟩
  | 25 => ⟨S4x131072x1, .f32⟩
  | _ => ⟨S4x32x64x64x64, .f32⟩

abbrev hbmTy (i : Nat) : BufTy := match i / 128 with
  | 0 => hbmTy0_0 i
  | 1 => hbmTy0_1 i
  | 2 => hbmTy0_2 i
  | 3 => hbmTy0_3 i
  | _ => ⟨S4x32x64x64x64, .f32⟩

abbrev bufTy : (tb : Table) → Fin (tcTables nBuf tb) → BufTy
  | .hbm, ⟨i, _⟩ => hbmTy i
  | .local _ .vmem, ⟨0, _⟩ => ⟨S8192x3, .bf16⟩
  | .local _ .vmem, ⟨1, _⟩ => ⟨S8192x3, .bf16⟩
  | .local _ .vmem, ⟨2, _⟩ => ⟨S8192x32, .bf16⟩
  | .local _ .vmem, ⟨3, _⟩ => ⟨S8192x32, .bf16⟩
  | .local _ .vmem, ⟨4, _⟩ => ⟨S3x128, .bf16⟩
  | .local _ .vmem, ⟨5, _⟩ => ⟨S32x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x1, .bf16⟩
  | .local _ .vmem, ⟨10, _⟩ => ⟨S1x1, .f32⟩
  | .local _ .vmem, ⟨11, _⟩ => ⟨S8192x1, .f32⟩
  | .local _ .vmem, ⟨12, _⟩ => ⟨S8192x1, .f32⟩
  | _, _ => ⟨S4x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_c_10 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_c_13 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v43 : Ref sig .tc := ⟨.hbm, 77, rfl⟩
abbrev main_v44 : Ref sig .tc := ⟨.hbm, 78, rfl⟩
abbrev main_c_14 : Ref sig .tc := ⟨.hbm, 79, rfl⟩
abbrev main_c_15 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v45 : Ref sig .tc := ⟨.hbm, 86, rfl⟩
abbrev main_c_16 : Ref sig .tc := ⟨.hbm, 87, rfl⟩
abbrev main_v46 : Ref sig .tc := ⟨.hbm, 88, rfl⟩
abbrev main_v47 : Ref sig .tc := ⟨.hbm, 89, rfl⟩
abbrev main_c_17 : Ref sig .tc := ⟨.hbm, 90, rfl⟩
abbrev main_c_18 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v48 : Ref sig .tc := ⟨.hbm, 97, rfl⟩
abbrev main_v49 : Ref sig .tc := ⟨.hbm, 98, rfl⟩
abbrev main_c_19 : Ref sig .tc := ⟨.hbm, 99, rfl⟩
abbrev main_c_20 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_v50 : Ref sig .tc := ⟨.hbm, 106, rfl⟩
abbrev main_c_21 : Ref sig .tc := ⟨.hbm, 107, rfl⟩
abbrev main_v51 : Ref sig .tc := ⟨.hbm, 108, rfl⟩
abbrev main_v52 : Ref sig .tc := ⟨.hbm, 109, rfl⟩
abbrev main_c_22 : Ref sig .tc := ⟨.hbm, 110, rfl⟩
abbrev main_c_23 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_c_24 : Ref sig .tc := ⟨.hbm, 120, rfl⟩
abbrev main_v56 : Ref sig .tc := ⟨.hbm, 121, rfl⟩
abbrev main_v57 : Ref sig .tc := ⟨.hbm, 122, rfl⟩
abbrev main_c_25 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_c_26 : Ref sig .tc := ⟨.hbm, 128, rfl⟩
abbrev main_v62 : Ref sig .tc := ⟨.hbm, 129, rfl⟩
abbrev main_v63 : Ref sig .tc := ⟨.hbm, 130, rfl⟩
abbrev main_c_27 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_c_28 : Ref sig .tc := ⟨.hbm, 135, rfl⟩
abbrev main_v67 : Ref sig .tc := ⟨.hbm, 136, rfl⟩
abbrev main_v68 : Ref sig .tc := ⟨.hbm, 137, rfl⟩
abbrev main_c_29 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_cst_30 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_c_31 : Ref sig .tc := ⟨.hbm, 152, rfl⟩
abbrev main_v81 : Ref sig .tc := ⟨.hbm, 153, rfl⟩
abbrev main_v82 : Ref sig .tc := ⟨.hbm, 154, rfl⟩
abbrev main_c_32 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_c_33 : Ref sig .tc := ⟨.hbm, 160, rfl⟩
abbrev main_v87 : Ref sig .tc := ⟨.hbm, 161, rfl⟩
abbrev main_v88 : Ref sig .tc := ⟨.hbm, 162, rfl⟩
abbrev main_c_34 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_c_35 : Ref sig .tc := ⟨.hbm, 167, rfl⟩
abbrev main_v92 : Ref sig .tc := ⟨.hbm, 168, rfl⟩
abbrev main_v93 : Ref sig .tc := ⟨.hbm, 169, rfl⟩
abbrev main_c_36 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_c_37 : Ref sig .tc := ⟨.hbm, 182, rfl⟩
abbrev main_v105 : Ref sig .tc := ⟨.hbm, 183, rfl⟩
abbrev main_v106 : Ref sig .tc := ⟨.hbm, 184, rfl⟩
abbrev main_c_38 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_c_39 : Ref sig .tc := ⟨.hbm, 190, rfl⟩
abbrev main_v111 : Ref sig .tc := ⟨.hbm, 191, rfl⟩
abbrev main_v112 : Ref sig .tc := ⟨.hbm, 192, rfl⟩
abbrev main_c_40 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_c_41 : Ref sig .tc := ⟨.hbm, 197, rfl⟩
abbrev main_v116 : Ref sig .tc := ⟨.hbm, 198, rfl⟩
abbrev main_v117 : Ref sig .tc := ⟨.hbm, 199, rfl⟩
abbrev main_c_42 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_cst_43 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_c_44 : Ref sig .tc := ⟨.hbm, 214, rfl⟩
abbrev main_v130 : Ref sig .tc := ⟨.hbm, 215, rfl⟩
abbrev main_v131 : Ref sig .tc := ⟨.hbm, 216, rfl⟩
abbrev main_c_45 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_c_46 : Ref sig .tc := ⟨.hbm, 222, rfl⟩
abbrev main_v136 : Ref sig .tc := ⟨.hbm, 223, rfl⟩
abbrev main_v137 : Ref sig .tc := ⟨.hbm, 224, rfl⟩
abbrev main_c_47 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_c_48 : Ref sig .tc := ⟨.hbm, 229, rfl⟩
abbrev main_v141 : Ref sig .tc := ⟨.hbm, 230, rfl⟩
abbrev main_v142 : Ref sig .tc := ⟨.hbm, 231, rfl⟩
abbrev main_c_49 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_c_50 : Ref sig .tc := ⟨.hbm, 244, rfl⟩
abbrev main_v154 : Ref sig .tc := ⟨.hbm, 245, rfl⟩
abbrev main_v155 : Ref sig .tc := ⟨.hbm, 246, rfl⟩
abbrev main_c_51 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_c_52 : Ref sig .tc := ⟨.hbm, 252, rfl⟩
abbrev main_v160 : Ref sig .tc := ⟨.hbm, 253, rfl⟩
abbrev main_v161 : Ref sig .tc := ⟨.hbm, 254, rfl⟩
abbrev main_c_53 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_c_54 : Ref sig .tc := ⟨.hbm, 259, rfl⟩
abbrev main_v165 : Ref sig .tc := ⟨.hbm, 260, rfl⟩
abbrev main_v166 : Ref sig .tc := ⟨.hbm, 261, rfl⟩
abbrev main_c_55 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_cst_56 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_c_57 : Ref sig .tc := ⟨.hbm, 276, rfl⟩
abbrev main_v179 : Ref sig .tc := ⟨.hbm, 277, rfl⟩
abbrev main_v180 : Ref sig .tc := ⟨.hbm, 278, rfl⟩
abbrev main_c_58 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_c_59 : Ref sig .tc := ⟨.hbm, 284, rfl⟩
abbrev main_v185 : Ref sig .tc := ⟨.hbm, 285, rfl⟩
abbrev main_v186 : Ref sig .tc := ⟨.hbm, 286, rfl⟩
abbrev main_c_60 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_c_61 : Ref sig .tc := ⟨.hbm, 291, rfl⟩
abbrev main_v190 : Ref sig .tc := ⟨.hbm, 292, rfl⟩
abbrev main_v191 : Ref sig .tc := ⟨.hbm, 293, rfl⟩
abbrev main_c_62 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_c_63 : Ref sig .tc := ⟨.hbm, 306, rfl⟩
abbrev main_v203 : Ref sig .tc := ⟨.hbm, 307, rfl⟩
abbrev main_v204 : Ref sig .tc := ⟨.hbm, 308, rfl⟩
abbrev main_c_64 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_c_65 : Ref sig .tc := ⟨.hbm, 314, rfl⟩
abbrev main_v209 : Ref sig .tc := ⟨.hbm, 315, rfl⟩
abbrev main_v210 : Ref sig .tc := ⟨.hbm, 316, rfl⟩
abbrev main_c_66 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_c_67 : Ref sig .tc := ⟨.hbm, 321, rfl⟩
abbrev main_v214 : Ref sig .tc := ⟨.hbm, 322, rfl⟩
abbrev main_v215 : Ref sig .tc := ⟨.hbm, 323, rfl⟩
abbrev main_c_68 : Ref sig .tc := ⟨.hbm, 324, rfl⟩
abbrev main_v216 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_cst_69 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_c_70 : Ref sig .tc := ⟨.hbm, 338, rfl⟩
abbrev main_v228 : Ref sig .tc := ⟨.hbm, 339, rfl⟩
abbrev main_v229 : Ref sig .tc := ⟨.hbm, 340, rfl⟩
abbrev main_c_71 : Ref sig .tc := ⟨.hbm, 341, rfl⟩
abbrev main_v230 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_c_72 : Ref sig .tc := ⟨.hbm, 346, rfl⟩
abbrev main_v234 : Ref sig .tc := ⟨.hbm, 347, rfl⟩
abbrev main_v235 : Ref sig .tc := ⟨.hbm, 348, rfl⟩
abbrev main_c_73 : Ref sig .tc := ⟨.hbm, 349, rfl⟩
abbrev main_v236 : Ref sig .tc := ⟨.hbm, 350, rfl⟩
abbrev main_v237 : Ref sig .tc := ⟨.hbm, 351, rfl⟩
abbrev main_v238 : Ref sig .tc := ⟨.hbm, 352, rfl⟩
abbrev main_c_74 : Ref sig .tc := ⟨.hbm, 353, rfl⟩
abbrev main_v239 : Ref sig .tc := ⟨.hbm, 354, rfl⟩
abbrev main_v240 : Ref sig .tc := ⟨.hbm, 355, rfl⟩
abbrev main_c_75 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_cst_76 : Ref sig .tc := ⟨.hbm, 368, rfl⟩
abbrev main_v252 : Ref sig .tc := ⟨.hbm, 369, rfl⟩
abbrev main_v253 : Ref sig .tc := ⟨.hbm, 370, rfl⟩
abbrev main_v254 : Ref sig .tc := ⟨.hbm, 371, rfl⟩
abbrev main_v255 : Ref sig .tc := ⟨.hbm, 372, rfl⟩
abbrev main_v256 : Ref sig .tc := ⟨.hbm, 373, rfl⟩
abbrev main_v257 : Ref sig .tc := ⟨.hbm, 374, rfl⟩
abbrev main_v258 : Ref sig .tc := ⟨.hbm, 375, rfl⟩
abbrev main_cst_77 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_cst_78 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_v273 : Ref sig .tc := ⟨.hbm, 392, rfl⟩
abbrev main_v274 : Ref sig .tc := ⟨.hbm, 393, rfl⟩
abbrev main_v275 : Ref sig .tc := ⟨.hbm, 394, rfl⟩
abbrev main_v276 : Ref sig .tc := ⟨.hbm, 395, rfl⟩
abbrev main_v277 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩
abbrev main_v282 : Ref sig .tc := ⟨.hbm, 401, rfl⟩
abbrev main_v283 : Ref sig .tc := ⟨.hbm, 402, rfl⟩
abbrev main_v284 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_v288 : Ref sig .tc := ⟨.hbm, 407, rfl⟩
abbrev main_v289 : Ref sig .tc := ⟨.hbm, 408, rfl⟩
abbrev main_v290 : Ref sig .tc := ⟨.hbm, 409, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S4x32x64x64x64_S4x64x64x64x32_0_2_3_4_1 : S4x32x64x64x64.Transposes [0, 2, 3, 4, 1] S4x64x64x64x32
  shapeCasts_S4x64x64x64x32_S4x262144x32 : S4x64x64x64x32.ShapeCasts S4x262144x32
  bcast_S_S4x131072x3 : S_.BroadcastsInDim S4x131072x3 (![] : Fin 0 → Fin S4x131072x3.rank)
  slices_S4x131072x3_S4x131072x1_0_0_0 : S4x131072x3.Slices ![0, 0, 0] S4x131072x1
  shapeCasts_S4x131072x1_S4x131072 : S4x131072x1.ShapeCasts S4x131072
  bcast_S_S4x131072 : S_.BroadcastsInDim S4x131072 (![] : Fin 0 → Fin S4x131072.rank)
  slices_S4x131072x3_S4x131072x1_0_0_1 : S4x131072x3.Slices ![0, 0, 1] S4x131072x1
  slices_S4x131072x3_S4x131072x1_0_0_2 : S4x131072x3.Slices ![0, 0, 2] S4x131072x1
  bcast_S4x131072_S4x131072x1_0_1 : S4x131072.BroadcastsInDim S4x131072x1 (![0, 1] : Fin 2 → Fin S4x131072x1.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x131072_0_1 : S4x1.BroadcastsInDim S4x131072 (![0, 1] : Fin 2 → Fin S4x131072.rank)
  concatenates_S4x131072x1_S4x131072x1_S4x131072x2_d2 : Shape.Concatenates [S4x131072x1, S4x131072x1] S4x131072x2 2
  bcast_S_S4x131072x1 : S_.BroadcastsInDim S4x131072x1 (![] : Fin 0 → Fin S4x131072x1.rank)
  bcast_S4x131072x1_S4x131072x32_0_1_2 : S4x131072x1.BroadcastsInDim S4x131072x32 (![0, 1, 2] : Fin 3 → Fin S4x131072x32.rank)
  bitsLt_bf16_f32 : FTy.bits .bf16 < FTy.bits .f32
  shapeCasts_S4x131072x3_S524288x3 : S4x131072x3.ShapeCasts S524288x3
  shapeCasts_S4x131072x32_S524288x32 : S4x131072x32.ShapeCasts S524288x32
  transposes_S128x35_S35x128_1_0 : S128x35.Transposes [1, 0] S35x128
  slices_S35x128_S3x128_0_0 : S35x128.Slices ![0, 0] S3x128
  slices_S35x128_S32x128_3_0 : S35x128.Slices ![3, 0] S32x128
  transposes_S128x128_S128x128_1_0 : S128x128.Transposes [1, 0] S128x128
  transposes_S1x128_S128x1_1_0 : S1x128.Transposes [1, 0] S128x1
  shapeCasts_S128_S1x128 : S128.ShapeCasts S1x128
  shapeCasts_S1_S1x1 : S1.ShapeCasts S1x1
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S524288x1_S4x131072x1 : S524288x1.ShapeCasts S4x131072x1
  gather_S4x262144x32_S4x131072x2_S4x131072x32_2_01_n_n_01_2_1132_wf : GatherDims.WF S4x262144x32 S4x131072x2 S4x131072x32 [2] [0, 1] [] [0, 1] [] 2 ![1, 1, 32]
  dot_S8192x3_S3x128_S8192x128_1_0_0_1_n_n_wf : DotDims.WF S8192x3 S3x128 S8192x128 [1] [0] [0] [1] [] []
  dot_S8192x32_S32x128_S8192x128_1_0_0_1_n_n_wf : DotDims.WF S8192x32 S32x128 S8192x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S524288x3.size a
  hwx0_0 : ∀ i : grid0.Coords, EltTy.bits .bf16 = 32 ∨ (Rect.block (s := S524288x3) S8192x3.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S524288x32.size a
  hwx0_1 : ∀ i : grid0.Coords, EltTy.bits .bf16 = 32 ∨ (Rect.block (s := S524288x32) S8192x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .bf16 = 32 ∨ (Rect.block (s := S3x128) S3x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .bf16 = 32 ∨ (Rect.block (s := S32x128) S32x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .bf16 = 32 ∨ (Rect.block (s := S128x1) S128x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x1.size a ≤ S524288x1.size a
  hwx0_9 : ∀ i : grid0.Coords, EltTy.bits .f32 = 32 ∨ (Rect.block (s := S524288x1) S8192x1.size (cc0_transform_9 i) (hinb0_9 i)).WholeWords (EltTy.packing .f32)

variable [Facts₀]

def gather_S4x262144x32_S4x131072x2_S4x131072x32_2_01_n_n_01_2_1132 : GatherDims S4x262144x32 S4x131072x2 S4x131072x32 where
  offsetDims := [2]
  collapsedSliceDims := [0, 1]
  operandBatchingDims := []
  startIndicesBatchingDims := []
  startIndexMap := [0, 1]
  indexVectorDim := 2
  sliceSizes := ![1, 1, 32]
  wf := gather_S4x262144x32_S4x131072x2_S4x131072x32_2_01_n_n_01_2_1132_wf
def dot_S8192x3_S3x128_S8192x128_1_0_0_1_n_n : DotDims S8192x3 S3x128 S8192x128 where
  lhsContracting := [1]
  rhsContracting := [0]
  lhsNonContracting := [0]
  rhsNonContracting := [1]
  lhsBatch := []
  rhsBatch := []
  wf := dot_S8192x3_S3x128_S8192x128_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_v274) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v276) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v279) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v281) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v286) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v283) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v287) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v285) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v288) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v289) S8192x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x32x64x64x64 : Shape := ⟨5, ![4, 32, 64, 64, 64]⟩
abbrev S4x131072x3 : Shape := ⟨3, ![4, 131072, 3]⟩
abbrev S128x35 : Shape := ⟨2, ![128, 35]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S4x131072x1 : Shape := ⟨3, ![4, 131072, 1]⟩
abbrev S4x131072 : Shape := ⟨2, ![4, 131072]⟩
abbrev S4 : Shape := ⟨1, ![4]⟩
abbrev S4x1 : Shape := ⟨2, ![4, 1]⟩
abbrev S4x131072x4 : Shape := ⟨3, ![4, 131072, 4]⟩
abbrev S4x131072x32 : Shape := ⟨3, ![4, 131072, 32]⟩
abbrev S4x131072x35 : Shape := ⟨3, ![4, 131072, 35]⟩
abbrev S4x131072x128 : Shape := ⟨3, ![4, 131072, 128]⟩
abbrev S1x1x128 : Shape := ⟨3, ![1, 1, 128]⟩
abbrev S1x1x1 : Shape := ⟨3, ![1, 1, 1]⟩

abbrev nBuf : Space → Nat
  | .hbm => 473
  | .vmem => 0
  | .smem => 0
  | _ => 0

abbrev hbmTy0_0 (i : Nat) : BufTy := match i % 128 with
  | 0 => ⟨S4x32x64x64x64, .f32⟩
  | 1 => ⟨S4x131072x3, .f32⟩
  | 2 => ⟨S128x35, .f32⟩
  | 3 => ⟨S128, .f32⟩
  | 4 => ⟨S128x128, .f32⟩
  | 5 => ⟨S128, .f32⟩
  | 6 => ⟨S1x128, .f32⟩
  | 7 => ⟨S1, .f32⟩
  | 8 => ⟨S_, .f32⟩
  | 9 => ⟨S4x131072x3, .f32⟩
  | 10 => ⟨S4x131072x3, .f32⟩
  | 11 => ⟨S_, .f32⟩
  | 12 => ⟨S4x131072x3, .f32⟩
  | 13 => ⟨S4x131072x3, .f32⟩
  | 14 => ⟨S4x131072x1, .f32⟩
  | 15 => ⟨S4x131072, .f32⟩
  | 16 => ⟨S_, .f32⟩
  | 17 => ⟨S4x131072, .f32⟩
  | 18 => ⟨S4x131072, .f32⟩
  | 19 => ⟨S_, .f32⟩
  | 20 => ⟨S4x131072, .f32⟩
  | 21 => ⟨S4x131072, .f32⟩
  | 22 => ⟨S_, .f32⟩
  | 23 => ⟨S4x131072, .f32⟩
  | 24 => ⟨S4x131072, .f32⟩
  | 25 => ⟨S4x131072x1, .f32⟩
  | 26 => ⟨S4x131072, .f32⟩
  | 27 => ⟨S_, .f32⟩
  | 28 => ⟨S4x131072, .f32⟩
  | 29 => ⟨S4x131072, .f32⟩
  | 30 => ⟨S_, .f32⟩
  | 31 => ⟨S4x131072, .f32⟩
  | 32 => ⟨S4x131072, .f32⟩
  | 33 => ⟨S_, .f32⟩
  | 34 => ⟨S4x131072, .f32⟩
  | 35 => ⟨S4x131072, .f32⟩
  | 36 => ⟨S4x131072x1, .f32⟩
  | 37 => ⟨S4x131072, .f32⟩
  | 38 => ⟨S_, .f32⟩
  | 39 => ⟨S4x131072, .f32⟩
  | 40 => ⟨S4x131072, .f32⟩
  | 41 => ⟨S_, .f32⟩
  | 42 => ⟨S4x131072, .f32⟩
  | 43 => ⟨S4x131072, .f32⟩
  | 44 => ⟨S_, .f32⟩
  | 45 => ⟨S4x131072, .f32⟩
  | 46 => ⟨S4x131072, .f32⟩
  | 47 => ⟨S4x131072, .f32⟩
  | 48 => ⟨S4x131072, .f32⟩
  | 49 => ⟨S4x131072, .f32⟩
  | 50 => ⟨S4x131072, .f32⟩
  | 51 => ⟨S4x131072x1, .f32⟩
  | 52 => ⟨S4x131072, .f32⟩
  | 53 => ⟨S4x131072x1, .f32⟩
  | 54 => ⟨S4x131072, .f32⟩
  | 55 => ⟨S4x131072x1, .f32⟩
  | 56 => ⟨S4x131072, .i32⟩
  | 57 => ⟨S_, .i32⟩
  | 58 => ⟨S_, .i32⟩
  | 59 => ⟨S_, .i32⟩
  | 60 => ⟨S4x131072, .i32⟩
  | 61 => ⟨S4x131072, .i32⟩
  | 62 => ⟨S_, .i32⟩
  | 63 => ⟨S4x131072, .i32⟩
  | 64 => ⟨S4x131072, .i32⟩
  | 65 => ⟨S_, .i32⟩
  | 66 => ⟨S4x131072, .i32⟩
  | 67 => ⟨S4x131072, .i32⟩
  | 68 => ⟨S_, .i32⟩
  | 69 => ⟨S_, .i32⟩
  | 70 => ⟨S_, .i32⟩
  | 71 => ⟨S4x131072, .i32⟩
  | 72 => ⟨S4x131072, .i32⟩
  | 73 => ⟨S_, .i32⟩
  | 74 => ⟨S4x131072, .i32⟩
  | 75 => ⟨S4x131072, .i32⟩
  | 76 => ⟨S4x131072, .i32⟩
  | 77 => ⟨S_, .i32⟩
  | 78 => ⟨S_, .i32⟩
  | 79 => ⟨S_, .i32⟩
  | 80 => ⟨S4x131072, .i32⟩
  | 81 => ⟨S4x131072, .i32⟩
  | 82 => ⟨S_, .i32⟩
  | 83 => ⟨S4x131072, .i32⟩
  | 84 => ⟨S4x131072, .i32⟩
  | 85 => ⟨S_, .i32⟩
  | 86 => ⟨S4x131072, .i32⟩
  | 87 => ⟨S4x131072, .i32⟩
  | 88 => ⟨S_, .i32⟩
  | 89 => ⟨S_, .i32⟩
  | 90 => ⟨S_, .i32⟩
  | 91 => ⟨S4x131072, .i32⟩
  | 92 => ⟨S4x131072, .i32⟩
  | 93 => ⟨S_, .i32⟩
  | 94 => ⟨S4x131072, .i32⟩
  | 95 => ⟨S4x131072, .i32⟩
  | 96 => ⟨S4x131072, .i32⟩
  | 97 => ⟨S_, .i32⟩
  | 98 => ⟨S_, .i32⟩
  | 99 => ⟨S_, .i32⟩
  | 100 => ⟨S4x131072, .i32⟩
  | 101 => ⟨S4x131072, .i32⟩
  | 102 => ⟨S_, .i32⟩
  | 103 => ⟨S4x131072, .i32⟩
  | 104 => ⟨S4x131072, .i32⟩
  | 105 => ⟨S_, .i32⟩
  | 106 => ⟨S4x131072, .i32⟩
  | 107 => ⟨S4x131072, .i32⟩
  | 108 => ⟨S_, .i32⟩
  | 109 => ⟨S_, .i32⟩
  | 110 => ⟨S_, .i32⟩
  | 111 => ⟨S4x131072, .i32⟩
  | 112 => ⟨S4x131072, .i32⟩
  | 113 => ⟨S_, .i32⟩
  | 114 => ⟨S4x131072, .i32⟩
  | 115 => ⟨S4x131072, .i32⟩
  | 116 => ⟨S4, .i32⟩
  | 117 => ⟨S4x1, .i32⟩
  | 118 => ⟨S_, .i32⟩
  | 119 => ⟨S4x1, .i32⟩
  | 120 => ⟨S4x1, .i1⟩
  | 121 => ⟨S_, .i32⟩
  | 122 => ⟨S4x1, .i32⟩
  | 123 => ⟨S4x1, .i32⟩
  | 124 => ⟨S4x1, .i32⟩
  | 125 => ⟨S_, .i32⟩
  | 126 => ⟨S4x131072, .i32⟩
  | 127 => ⟨S4x131072, .i1⟩
  | _ => ⟨S4x32x64x64x64, .f32⟩

abbrev hbmTy0_1 (i : Nat) : BufTy := match i % 128 with
  | 0 => ⟨S_, .i32⟩
  | 1 => ⟨S4x131072, .i32⟩
  | 2 => ⟨S4x131072, .i32⟩
  | 3 => ⟨S4x131072, .i32⟩
  | 4 => ⟨S_, .i32⟩
  | 5 => ⟨S4x131072, .i32⟩
  | 6 => ⟨S4x131072, .i1⟩
  | 7 => ⟨S_, .i32⟩
  | 8 => ⟨S4x131072, .i32⟩
  | 9 => ⟨S4x131072, .i32⟩
  | 10 => ⟨S4x131072, .i32⟩
  | 11 => ⟨S_, .i32⟩
  | 12 => ⟨S4x131072, .i32⟩
  | 13 => ⟨S4x131072, .i1⟩
  | 14 => ⟨S_, .i32⟩
  | 15 => ⟨S4x131072, .i32⟩
  | 16 => ⟨S4x131072, .i32⟩
  | 17 => ⟨S4x131072, .i32⟩
  | 18 => ⟨S4x131072, .i32⟩
  | 19 => ⟨S4x131072x1, .i32⟩
  | 20 => ⟨S4x131072x1, .i32⟩
  | 21 => ⟨S4x131072x1, .i32⟩
  | 22 => ⟨S4x131072x1, .i32⟩
  | 23 => ⟨S4x131072x4, .i32⟩
  | 24 => ⟨S4x131072x32, .f32⟩
  | 25 => ⟨S_, .f32⟩
  | 26 => ⟨S4x131072x1, .f32⟩
  | 27 => ⟨S4x131072x1, .f32⟩
  | 28 => ⟨S4x131072x32, .f32⟩
  | 29 => ⟨S4x131072x32, .f32⟩
  | 30 => ⟨S_, .i32⟩
  | 31 => ⟨S4x1, .i32⟩
  | 32 => ⟨S4x1, .i1⟩
  | 33 => ⟨S_, .i32⟩
  | 34 => ⟨S4x1, .i32⟩
  | 35 => ⟨S4x1, .i32⟩
  | 36 => ⟨S4x1, .i32⟩
  | 37 => ⟨S_, .i32⟩
  | 38 => ⟨S4x131072, .i32⟩
  | 39 => ⟨S4x131072, .i1⟩
  | 40 => ⟨S_, .i32⟩
  | 41 => ⟨S4x131072, .i32⟩
  | 42 => ⟨S4x131072, .i32⟩
  | 43 => ⟨S4x131072, .i32⟩
  | 44 => ⟨S_, .i32⟩
  | 45 => ⟨S4x131072, .i32⟩
  | 46 => ⟨S4x131072, .i1⟩
  | 47 => ⟨S_, .i32⟩
  | 48 => ⟨S4x131072, .i32⟩
  | 49 => ⟨S4x131072, .i32⟩
  | 50 => ⟨S4x131072, .i32⟩
  | 51 => ⟨S_, .i32⟩
  | 52 => ⟨S4x131072, .i32⟩
  | 53 => ⟨S4x131072, .i1⟩
  | 54 => ⟨S_, .i32⟩
  | 55 => ⟨S4x131072, .i32⟩
  | 56 => ⟨S4x131072, .i32⟩
  | 57 => ⟨S4x131072, .i32⟩
  | 58 => ⟨S4x131072, .i32⟩
  | 59 => ⟨S4x131072x1, .i32⟩
  | 60 => ⟨S4x131072x1, .i32⟩
  | 61 => ⟨S4x131072x1, .i32⟩
  | 62 => ⟨S4x131072x1, .i32⟩
  | 63 => ⟨S4x131072x4, .i32⟩
  | 64 => ⟨S4x131072x32, .f32⟩
  | 65 => ⟨S4x131072x32, .f32⟩
  | 66 => ⟨S4x131072x32, .f32⟩
  | 67 => ⟨S4x131072x32, .f32⟩
  | 68 => ⟨S_, .i32⟩
  | 69 => ⟨S4x1, .i32⟩
  | 70 => ⟨S4x1, .i1⟩
  | 71 => ⟨S_, .i32⟩
  | 72 => ⟨S4x1, .i32⟩
  | 73 => ⟨S4x1, .i32⟩
  | 74 => ⟨S4x1, .i32⟩
  | 75 => ⟨S_, .i32⟩
  | 76 => ⟨S4x131072, .i32⟩
  | 77 => ⟨S4x131072, .i1⟩
  | 78 => ⟨S_, .i32⟩
  | 79 => ⟨S4x131072, .i32⟩
  | 80 => ⟨S4x131072, .i32⟩
  | 81 => ⟨S4x131072, .i32⟩
  | 82 => ⟨S_, .i32⟩
  | 83 => ⟨S4x131072, .i32⟩
  | 84 => ⟨S4x131072, .i1⟩
  | 85 => ⟨S_, .i32⟩
  | 86 => ⟨S4x131072, .i32⟩
  | 87 => ⟨S4x131072, .i32⟩
  | 88 => ⟨S4x131072, .i32⟩
  | 89 => ⟨S_, .i32⟩
  | 90 => ⟨S4x131072, .i32⟩
  | 91 => ⟨S4x131072, .i1⟩
  | 92 => ⟨S_, .i32⟩
  | 93 => ⟨S4x131072, .i32⟩
  | 94 => ⟨S4x131072, .i32⟩
  | 95 => ⟨S4x131072, .i32⟩
  | 96 => ⟨S4x131072, .i32⟩
  | 97 => ⟨S4x131072x1, .i32⟩
  | 98 => ⟨S4x131072x1, .i32⟩
  | 99 => ⟨S4x131072x1, .i32⟩
  | 100 => ⟨S4x131072x1, .i32⟩
  | 101 => ⟨S4x131072x4, .i32⟩
  | 102 => ⟨S4x131072x32, .f32⟩
  | 103 => ⟨S_, .f32⟩
  | 104 => ⟨S4x131072x1, .f32⟩
  | 105 => ⟨S4x131072x1, .f32⟩
  | 106 => ⟨S4x131072x32, .f32⟩
  | 107 => ⟨S4x131072x32, .f32⟩
  | 108 => ⟨S_, .i32⟩
  | 109 => ⟨S4x1, .i32⟩
  | 110 => ⟨S4x1, .i1⟩
  | 111 => ⟨S_, .i32⟩
  | 112 => ⟨S4x1, .i32⟩
  | 113 => ⟨S4x1, .i32⟩
  | 114 => ⟨S4x1, .i32⟩
  | 115 => ⟨S_, .i32⟩
  | 116 => ⟨S4x131072, .i32⟩
  | 117 => ⟨S4x131072, .i1⟩
  | 118 => ⟨S_, .i32⟩
  | 119 => ⟨S4x131072, .i32⟩
  | 120 => ⟨S4x131072, .i32⟩
  | 121 => ⟨S4x131072, .i32⟩
  | 122 => ⟨S_, .i32⟩
  | 123 => ⟨S4x131072, .i32⟩
  | 124 => ⟨S4x131072, .i1⟩
  | 125 => ⟨S_, .i32⟩
  | 126 => ⟨S4x131072, .i32⟩
  | 127 => ⟨S4x131072, .i32⟩
  | _ => ⟨S4x32x64x64x64, .f32⟩

abbrev hbmTy0_2 (i : Nat) : BufTy := match i % 128 with
  | 0 => ⟨S4x131072, .i32⟩
  | 1 => ⟨S_, .i32⟩
  | 2 => ⟨S4x131072, .i32⟩
  | 3 => ⟨S4x131072, .i1⟩
  | 4 => ⟨S_, .i32⟩
  | 5 => ⟨S4x131072, .i32⟩
  | 6 => ⟨S4x131072, .i32⟩
  | 7 => ⟨S4x131072, .i32⟩
  | 8 => ⟨S4x131072, .i32⟩
  | 9 => ⟨S4x131072x1, .i32⟩
  | 10 => ⟨S4x131072x1, .i32⟩
  | 11 => ⟨S4x131072x1, .i32⟩
  | 12 => ⟨S4x131072x1, .i32⟩
  | 13 => ⟨S4x131072x4, .i32⟩
  | 14 => ⟨S4x131072x32, .f32⟩
  | 15 => ⟨S4x131072x32, .f32⟩
  | 16 => ⟨S4x131072x32, .f32⟩
  | 17 => ⟨S4x131072x32, .f32⟩
  | 18 => ⟨S_, .i32⟩
  | 19 => ⟨S4x1, .i32⟩
  | 20 => ⟨S4x1, .i1⟩
  | 21 => ⟨S_, .i32⟩
  | 22 => ⟨S4x1, .i32⟩
  | 23 => ⟨S4x1, .i32⟩
  | 24 => ⟨S4x1, .i32⟩
  | 25 => ⟨S_, .i32⟩
  | 26 => ⟨S4x131072, .i32⟩
  | 27 => ⟨S4x131072, .i1⟩
  | 28 => ⟨S_, .i32⟩
  | 29 => ⟨S4x131072, .i32⟩
  | 30 => ⟨S4x131072, .i32⟩
  | 31 => ⟨S4x131072, .i32⟩
  | 32 => ⟨S_, .i32⟩
  | 33 => ⟨S4x131072, .i32⟩
  | 34 => ⟨S4x131072, .i1⟩
  | 35 => ⟨S_, .i32⟩
  | 36 => ⟨S4x131072, .i32⟩
  | 37 => ⟨S4x131072, .i32⟩
  | 38 => ⟨S4x131072, .i32⟩
  | 39 => ⟨S_, .i32⟩
  | 40 => ⟨S4x131072, .i32⟩
  | 41 => ⟨S4x131072, .i1⟩
  | 42 => ⟨S_, .i32⟩
  | 43 => ⟨S4x131072, .i32⟩
  | 44 => ⟨S4x131072, .i32⟩
  | 45 => ⟨S4x131072, .i32⟩
  | 46 => ⟨S4x131072, .i32⟩
  | 47 => ⟨S4x131072x1, .i32⟩
  | 48 => ⟨S4x131072x1, .i32⟩
  | 49 => ⟨S4x131072x1, .i32⟩
  | 50 => ⟨S4x131072x1, .i32⟩
  | 51 => ⟨S4x131072x4, .i32⟩
  | 52 => ⟨S4x131072x32, .f32⟩
  | 53 => ⟨S_, .f32⟩
  | 54 => ⟨S4x131072x1, .f32⟩
  | 55 => ⟨S4x131072x1, .f32⟩
  | 56 => ⟨S4x131072x32, .f32⟩
  | 57 => ⟨S4x131072x32, .f32⟩
  | 58 => ⟨S_, .i32⟩
  | 59 => ⟨S4x1, .i32⟩
  | 60 => ⟨S4x1, .i1⟩
  | 61 => ⟨S_, .i32⟩
  | 62 => ⟨S4x1, .i32⟩
  | 63 => ⟨S4x1, .i32⟩
  | 64 => ⟨S4x1, .i32⟩
  | 65 => ⟨S_, .i32⟩
  | 66 => ⟨S4x131072, .i32⟩
  | 67 => ⟨S4x131072, .i1⟩
  | 68 => ⟨S_, .i32⟩
  | 69 => ⟨S4x131072, .i32⟩
  | 70 => ⟨S4x131072, .i32⟩
  | 71 => ⟨S4x131072, .i32⟩
  | 72 => ⟨S_, .i32⟩
  | 73 => ⟨S4x131072, .i32⟩
  | 74 => ⟨S4x131072, .i1⟩
  | 75 => ⟨S_, .i32⟩
  | 76 => ⟨S4x131072, .i32⟩
  | 77 => ⟨S4x131072, .i32⟩
  | 78 => ⟨S4x131072, .i32⟩
  | 79 => ⟨S_, .i32⟩
  | 80 => ⟨S4x131072, .i32⟩
  | 81 => ⟨S4x131072, .i1⟩
  | 82 => ⟨S_, .i32⟩
  | 83 => ⟨S4x131072, .i32⟩
  | 84 => ⟨S4x131072, .i32⟩
  | 85 => ⟨S4x131072, .i32⟩
  | 86 => ⟨S4x131072, .i32⟩
  | 87 => ⟨S4x131072x1, .i32⟩
  | 88 => ⟨S4x131072x1, .i32⟩
  | 89 => ⟨S4x131072x1, .i32⟩
  | 90 => ⟨S4x131072x1, .i32⟩
  | 91 => ⟨S4x131072x4, .i32⟩
  | 92 => ⟨S4x131072x32, .f32⟩
  | 93 => ⟨S4x131072x32, .f32⟩
  | 94 => ⟨S4x131072x32, .f32⟩
  | 95 => ⟨S4x131072x32, .f32⟩
  | 96 => ⟨S_, .i32⟩
  | 97 => ⟨S4x1, .i32⟩
  | 98 => ⟨S4x1, .i1⟩
  | 99 => ⟨S_, .i32⟩
  | 100 => ⟨S4x1, .i32⟩
  | 101 => ⟨S4x1, .i32⟩
  | 102 => ⟨S4x1, .i32⟩
  | 103 => ⟨S_, .i32⟩
  | 104 => ⟨S4x131072, .i32⟩
  | 105 => ⟨S4x131072, .i1⟩
  | 106 => ⟨S_, .i32⟩
  | 107 => ⟨S4x131072, .i32⟩
  | 108 => ⟨S4x131072, .i32⟩
  | 109 => ⟨S4x131072, .i32⟩
  | 110 => ⟨S_, .i32⟩
  | 111 => ⟨S4x131072, .i32⟩
  | 112 => ⟨S4x131072, .i1⟩
  | 113 => ⟨S_, .i32⟩
  | 114 => ⟨S4x131072, .i32⟩
  | 115 => ⟨S4x131072, .i32⟩
  | 116 => ⟨S4x131072, .i32⟩
  | 117 => ⟨S_, .i32⟩
  | 118 => ⟨S4x131072, .i32⟩
  | 119 => ⟨S4x131072, .i1⟩
  | 120 => ⟨S_, .i32⟩
  | 121 => ⟨S4x131072, .i32⟩
  | 122 => ⟨S4x131072, .i32⟩
  | 123 => ⟨S4x131072, .i32⟩
  | 124 => ⟨S4x131072, .i32⟩
  | 125 => ⟨S4x131072x1, .i32⟩
  | 126 => ⟨S4x131072x1, .i32⟩
  | 127 => ⟨S4x131072x1, .i32⟩
  | _ => ⟨S4x32x64x64x64, .f32⟩

abbrev hbmTy0_3 (i : Nat) : BufTy := match i % 128 with
  | 0 => ⟨S4x131072x1, .i32⟩
  | 1 => ⟨S4x131072x4, .i32⟩
  | 2 => ⟨S4x131072x32, .f32⟩
  | 3 => ⟨S_, .f32⟩
  | 4 => ⟨S4x131072x1, .f32⟩
  | 5 => ⟨S4x131072x1, .f32⟩
  | 6 => ⟨S4x131072x32, .f32⟩
  | 7 => ⟨S4x131072x32, .f32⟩
  | 8 => ⟨S_, .i32⟩
  | 9 => ⟨S4x1, .i32⟩
  | 10 => ⟨S4x1, .i1⟩
  | 11 => ⟨S_, .i32⟩
  | 12 => ⟨S4x1, .i32⟩
  | 13 => ⟨S4x1, .i32⟩
  | 14 => ⟨S4x1, .i32⟩
  | 15 => ⟨S_, .i32⟩
  | 16 => ⟨S4x131072, .i32⟩
  | 17 => ⟨S4x131072, .i1⟩
  | 18 => ⟨S_, .i32⟩
  | 19 => ⟨S4x131072, .i32⟩
  | 20 => ⟨S4x131072, .i32⟩
  | 21 => ⟨S4x131072, .i32⟩
  | 22 => ⟨S_, .i32⟩
  | 23 => ⟨S4x131072, .i32⟩
  | 24 => ⟨S4x131072, .i1⟩
  | 25 => ⟨S_, .i32⟩
  | 26 => ⟨S4x131072, .i32⟩
  | 27 => ⟨S4x131072, .i32⟩
  | 28 => ⟨S4x131072, .i32⟩
  | 29 => ⟨S_, .i32⟩
  | 30 => ⟨S4x131072, .i32⟩
  | 31 => ⟨S4x131072, .i1⟩
  | 32 => ⟨S_, .i32⟩
  | 33 => ⟨S4x131072, .i32⟩
  | 34 => ⟨S4x131072, .i32⟩
  | 35 => ⟨S4x131072, .i32⟩
  | 36 => ⟨S4x131072, .i32⟩
  | 37 => ⟨S4x131072x1, .i32⟩
  | 38 => ⟨S4x131072x1, .i32⟩
  | 39 => ⟨S4x131072x1, .i32⟩
  | 40 => ⟨S4x131072x1, .i32⟩
  | 41 => ⟨S4x131072x4, .i32⟩
  | 42 => ⟨S4x131072x32, .f32⟩
  | 43 => ⟨S4x131072x32, .f32⟩
  | 44 => ⟨S4x131072x32, .f32⟩
  | 45 => ⟨S4x131072x32, .f32⟩
  | 46 => ⟨S_, .f32⟩
  | 47 => ⟨S4x131072x1, .f32⟩
  | 48 => ⟨S4x131072x1, .f32⟩
  | 49 => ⟨S4x131072x32, .f32⟩
  | 50 => ⟨S4x131072x32, .f32⟩
  | 51 => ⟨S4x131072x32, .f32⟩
  | 52 => ⟨S4x131072x32, .f32⟩
  | 53 => ⟨S4x131072x32, .f32⟩
  | 54 => ⟨S_, .f32⟩
  | 55 => ⟨S4x131072x1, .f32⟩
  | 56 => ⟨S4x131072x1, .f32⟩
  | 57 => ⟨S4x131072x32, .f32⟩
  | 58 => ⟨S4x131072x32, .f32⟩
  | 59 => ⟨S4x131072x32, .f32⟩
  | 60 => ⟨S4x131072x32, .f32⟩
  | 61 => ⟨S4x131072x32, .f32⟩
  | 62 => ⟨S_, .f32⟩
  | 63 => ⟨S4x131072x1, .f32⟩
  | 64 => ⟨S4x131072x1, .f32⟩
  | 65 => ⟨S4x131072x32, .f32⟩
  | 66 => ⟨S4x131072x32, .f32⟩
  | 67 => ⟨S4x131072x32, .f32⟩
  | 68 => ⟨S4x131072x32, .f32⟩
  | 69 => ⟨S4x131072x32, .f32⟩
  | 70 => ⟨S4x131072x35, .f32⟩
  | 71 => ⟨S4x131072x128, .f32⟩
  | 72 => ⟨S1x1x128, .f32⟩
  | 73 => ⟨S4x131072x128, .f32⟩
  | 74 => ⟨S4x131072x128, .f32⟩
  | 75 => ⟨S_, .f32⟩
  | 76 => ⟨S4x131072x128, .f32⟩
  | 77 => ⟨S4x131072x128, .f32⟩
  | 78 => ⟨S4x131072x128, .f32⟩
  | 79 => ⟨S1x1x128, .f32⟩
  | 80 => ⟨S4x131072x128, .f32⟩
  | 81 => ⟨S4x131072x128, .f32⟩
  | 82 => ⟨S_, .f32⟩
  | 83 => ⟨S4x131072x128, .f32⟩
  | 84 => ⟨S4x131072x128, .f32⟩
  | 85 => ⟨S4x131072x1, .f32⟩
  | 86 => ⟨S1x1x1, .f32⟩
  | 87 => ⟨S4x131072x1, .f32⟩
  | 88 => ⟨S4x131072x1, .f32⟩
  | _ => ⟨S4x32x64x64x64, .f32⟩

abbrev hbmTy (i : Nat) : BufTy := match i / 128 with
  | 0 => hbmTy0_0 i
  | 1 => hbmTy0_1 i
  | 2 => hbmTy0_2 i
  | 3 => hbmTy0_3 i
  | _ => ⟨S4x32x64x64x64, .f32⟩

abbrev bufTy : (tb : Table) → Fin (tcTables nBuf tb) → BufTy
  | .hbm, ⟨i, _⟩ => hbmTy i
  | _, _ => ⟨S4x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c : Ref sig .tc := ⟨.hbm, 57, rfl⟩
abbrev main_c_10 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_v40 : Ref sig .tc := ⟨.hbm, 67, rfl⟩
abbrev main_c_12 : Ref sig .tc := ⟨.hbm, 68, rfl⟩
abbrev main_c_13 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v41 : Ref sig .tc := ⟨.hbm, 75, rfl⟩
abbrev main_v42 : Ref sig .tc := ⟨.hbm, 76, rfl⟩
abbrev main_c_14 : Ref sig .tc := ⟨.hbm, 77, rfl⟩
abbrev main_c_15 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v43 : Ref sig .tc := ⟨.hbm, 84, rfl⟩
abbrev main_c_16 : Ref sig .tc := ⟨.hbm, 85, rfl⟩
abbrev main_v44 : Ref sig .tc := ⟨.hbm, 86, rfl⟩
abbrev main_v45 : Ref sig .tc := ⟨.hbm, 87, rfl⟩
abbrev main_c_17 : Ref sig .tc := ⟨.hbm, 88, rfl⟩
abbrev main_c_18 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v46 : Ref sig .tc := ⟨.hbm, 95, rfl⟩
abbrev main_v47 : Ref sig .tc := ⟨.hbm, 96, rfl⟩
abbrev main_c_19 : Ref sig .tc := ⟨.hbm, 97, rfl⟩
abbrev main_c_20 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v48 : Ref sig .tc := ⟨.hbm, 104, rfl⟩
abbrev main_c_21 : Ref sig .tc := ⟨.hbm, 105, rfl⟩
abbrev main_v49 : Ref sig .tc := ⟨.hbm, 106, rfl⟩
abbrev main_v50 : Ref sig .tc := ⟨.hbm, 107, rfl⟩
abbrev main_c_22 : Ref sig .tc := ⟨.hbm, 108, rfl⟩
abbrev main_c_23 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_c_24 : Ref sig .tc := ⟨.hbm, 118, rfl⟩
abbrev main_v54 : Ref sig .tc := ⟨.hbm, 119, rfl⟩
abbrev main_v55 : Ref sig .tc := ⟨.hbm, 120, rfl⟩
abbrev main_c_25 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_c_26 : Ref sig .tc := ⟨.hbm, 125, rfl⟩
abbrev main_v59 : Ref sig .tc := ⟨.hbm, 126, rfl⟩
abbrev main_v60 : Ref sig .tc := ⟨.hbm, 127, rfl⟩
abbrev main_c_27 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_c_28 : Ref sig .tc := ⟨.hbm, 132, rfl⟩
abbrev main_v64 : Ref sig .tc := ⟨.hbm, 133, rfl⟩
abbrev main_v65 : Ref sig .tc := ⟨.hbm, 134, rfl⟩
abbrev main_c_29 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_c_30 : Ref sig .tc := ⟨.hbm, 139, rfl⟩
abbrev main_v69 : Ref sig .tc := ⟨.hbm, 140, rfl⟩
abbrev main_v70 : Ref sig .tc := ⟨.hbm, 141, rfl⟩
abbrev main_c_31 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_cst_32 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_c_33 : Ref sig .tc := ⟨.hbm, 158, rfl⟩
abbrev main_v85 : Ref sig .tc := ⟨.hbm, 159, rfl⟩
abbrev main_v86 : Ref sig .tc := ⟨.hbm, 160, rfl⟩
abbrev main_c_34 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_c_35 : Ref sig .tc := ⟨.hbm, 165, rfl⟩
abbrev main_v90 : Ref sig .tc := ⟨.hbm, 166, rfl⟩
abbrev main_v91 : Ref sig .tc := ⟨.hbm, 167, rfl⟩
abbrev main_c_36 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_c_37 : Ref sig .tc := ⟨.hbm, 172, rfl⟩
abbrev main_v95 : Ref sig .tc := ⟨.hbm, 173, rfl⟩
abbrev main_v96 : Ref sig .tc := ⟨.hbm, 174, rfl⟩
abbrev main_c_38 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_c_39 : Ref sig .tc := ⟨.hbm, 179, rfl⟩
abbrev main_v100 : Ref sig .tc := ⟨.hbm, 180, rfl⟩
abbrev main_v101 : Ref sig .tc := ⟨.hbm, 181, rfl⟩
abbrev main_c_40 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_c_41 : Ref sig .tc := ⟨.hbm, 196, rfl⟩
abbrev main_v115 : Ref sig .tc := ⟨.hbm, 197, rfl⟩
abbrev main_v116 : Ref sig .tc := ⟨.hbm, 198, rfl⟩
abbrev main_c_42 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_c_43 : Ref sig .tc := ⟨.hbm, 203, rfl⟩
abbrev main_v120 : Ref sig .tc := ⟨.hbm, 204, rfl⟩
abbrev main_v121 : Ref sig .tc := ⟨.hbm, 205, rfl⟩
abbrev main_c_44 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_c_45 : Ref sig .tc := ⟨.hbm, 210, rfl⟩
abbrev main_v125 : Ref sig .tc := ⟨.hbm, 211, rfl⟩
abbrev main_v126 : Ref sig .tc := ⟨.hbm, 212, rfl⟩
abbrev main_c_46 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_c_47 : Ref sig .tc := ⟨.hbm, 217, rfl⟩
abbrev main_v130 : Ref sig .tc := ⟨.hbm, 218, rfl⟩
abbrev main_v131 : Ref sig .tc := ⟨.hbm, 219, rfl⟩
abbrev main_c_48 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_49 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_c_50 : Ref sig .tc := ⟨.hbm, 236, rfl⟩
abbrev main_v146 : Ref sig .tc := ⟨.hbm, 237, rfl⟩
abbrev main_v147 : Ref sig .tc := ⟨.hbm, 238, rfl⟩
abbrev main_c_51 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_c_52 : Ref sig .tc := ⟨.hbm, 243, rfl⟩
abbrev main_v151 : Ref sig .tc := ⟨.hbm, 244, rfl⟩
abbrev main_v152 : Ref sig .tc := ⟨.hbm, 245, rfl⟩
abbrev main_c_53 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_c_54 : Ref sig .tc := ⟨.hbm, 250, rfl⟩
abbrev main_v156 : Ref sig .tc := ⟨.hbm, 251, rfl⟩
abbrev main_v157 : Ref sig .tc := ⟨.hbm, 252, rfl⟩
abbrev main_c_55 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_c_56 : Ref sig .tc := ⟨.hbm, 257, rfl⟩
abbrev main_v161 : Ref sig .tc := ⟨.hbm, 258, rfl⟩
abbrev main_v162 : Ref sig .tc := ⟨.hbm, 259, rfl⟩
abbrev main_c_57 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_c_58 : Ref sig .tc := ⟨.hbm, 274, rfl⟩
abbrev main_v176 : Ref sig .tc := ⟨.hbm, 275, rfl⟩
abbrev main_v177 : Ref sig .tc := ⟨.hbm, 276, rfl⟩
abbrev main_c_59 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_c_60 : Ref sig .tc := ⟨.hbm, 281, rfl⟩
abbrev main_v181 : Ref sig .tc := ⟨.hbm, 282, rfl⟩
abbrev main_v182 : Ref sig .tc := ⟨.hbm, 283, rfl⟩
abbrev main_c_61 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_c_62 : Ref sig .tc := ⟨.hbm, 288, rfl⟩
abbrev main_v186 : Ref sig .tc := ⟨.hbm, 289, rfl⟩
abbrev main_v187 : Ref sig .tc := ⟨.hbm, 290, rfl⟩
abbrev main_c_63 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_c_64 : Ref sig .tc := ⟨.hbm, 295, rfl⟩
abbrev main_v191 : Ref sig .tc := ⟨.hbm, 296, rfl⟩
abbrev main_v192 : Ref sig .tc := ⟨.hbm, 297, rfl⟩
abbrev main_c_65 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_cst_66 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_c_67 : Ref sig .tc := ⟨.hbm, 314, rfl⟩
abbrev main_v207 : Ref sig .tc := ⟨.hbm, 315, rfl⟩
abbrev main_v208 : Ref sig .tc := ⟨.hbm, 316, rfl⟩
abbrev main_c_68 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_c_69 : Ref sig .tc := ⟨.hbm, 321, rfl⟩
abbrev main_v212 : Ref sig .tc := ⟨.hbm, 322, rfl⟩
abbrev main_v213 : Ref sig .tc := ⟨.hbm, 323, rfl⟩
abbrev main_c_70 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_c_71 : Ref sig .tc := ⟨.hbm, 328, rfl⟩
abbrev main_v217 : Ref sig .tc := ⟨.hbm, 329, rfl⟩
abbrev main_v218 : Ref sig .tc := ⟨.hbm, 330, rfl⟩
abbrev main_c_72 : Ref sig .tc := ⟨.hbm, 331, rfl⟩
abbrev main_v219 : Ref sig .tc := ⟨.hbm, 332, rfl⟩
abbrev main_v220 : Ref sig .tc := ⟨.hbm, 333, rfl⟩
abbrev main_v221 : Ref sig .tc := ⟨.hbm, 334, rfl⟩
abbrev main_c_73 : Ref sig .tc := ⟨.hbm, 335, rfl⟩
abbrev main_v222 : Ref sig .tc := ⟨.hbm, 336, rfl⟩
abbrev main_v223 : Ref sig .tc := ⟨.hbm, 337, rfl⟩
abbrev main_c_74 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_c_75 : Ref sig .tc := ⟨.hbm, 352, rfl⟩
abbrev main_v237 : Ref sig .tc := ⟨.hbm, 353, rfl⟩
abbrev main_v238 : Ref sig .tc := ⟨.hbm, 354, rfl⟩
abbrev main_c_76 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_c_77 : Ref sig .tc := ⟨.hbm, 359, rfl⟩
abbrev main_v242 : Ref sig .tc := ⟨.hbm, 360, rfl⟩
abbrev main_v243 : Ref sig .tc := ⟨.hbm, 361, rfl⟩
abbrev main_c_78 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_c_79 : Ref sig .tc := ⟨.hbm, 366, rfl⟩
abbrev main_v247 : Ref sig .tc := ⟨.hbm, 367, rfl⟩
abbrev main_v248 : Ref sig .tc := ⟨.hbm, 368, rfl⟩
abbrev main_c_80 : Ref sig .tc := ⟨.hbm, 369, rfl⟩
abbrev main_v249 : Ref sig .tc := ⟨.hbm, 370, rfl⟩
abbrev main_v250 : Ref sig .tc := ⟨.hbm, 371, rfl⟩
abbrev main_v251 : Ref sig .tc := ⟨.hbm, 372, rfl⟩
abbrev main_c_81 : Ref sig .tc := ⟨.hbm, 373, rfl⟩
abbrev main_v252 : Ref sig .tc := ⟨.hbm, 374, rfl⟩
abbrev main_v253 : Ref sig .tc := ⟨.hbm, 375, rfl⟩
abbrev main_c_82 : Ref sig .tc := ⟨.hbm, 376, rfl⟩
abbrev main_v254 : Ref sig .tc := ⟨.hbm, 377, rfl⟩
abbrev main_v255 : Ref sig .tc := ⟨.hbm, 378, rfl⟩
abbrev main_v256 : Ref sig .tc := ⟨.hbm, 379, rfl⟩
abbrev main_v257 : Ref sig .tc := ⟨.hbm, 380, rfl⟩
abbrev main_v258 : Ref sig .tc := ⟨.hbm, 381, rfl⟩
abbrev main_v259 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_cst_83 : Ref sig .tc := ⟨.hbm, 387, rfl⟩
abbrev main_v264 : Ref sig .tc := ⟨.hbm, 388, rfl⟩
abbrev main_v265 : Ref sig .tc := ⟨.hbm, 389, rfl⟩
abbrev main_v266 : Ref sig .tc := ⟨.hbm, 390, rfl⟩
abbrev main_v267 : Ref sig .tc := ⟨.hbm, 391, rfl⟩
abbrev main_c_84 : Ref sig .tc := ⟨.hbm, 392, rfl⟩
abbrev main_v268 : Ref sig .tc := ⟨.hbm, 393, rfl⟩
abbrev main_v269 : Ref sig .tc := ⟨.hbm, 394, rfl⟩
abbrev main_c_85 : Ref sig .tc := ⟨.hbm, 395, rfl⟩
abbrev main_v270 : Ref sig .tc := ⟨.hbm, 396, rfl⟩
abbrev main_v271 : Ref sig .tc := ⟨.hbm, 397, rfl⟩
abbrev main_v272 : Ref sig .tc := ⟨.hbm, 398, rfl⟩
abbrev main_c_86 : Ref sig .tc := ⟨.hbm, 399, rfl⟩
abbrev main_v273 : Ref sig .tc := ⟨.hbm, 400, rfl⟩
abbrev main_v274 : Ref sig .tc := ⟨.hbm, 401, rfl⟩
abbrev main_c_87 : Ref sig .tc := ⟨.hbm, 402, rfl⟩
abbrev main_v275 : Ref sig .tc := ⟨.hbm, 403, rfl⟩
abbrev main_v276 : Ref sig .tc := ⟨.hbm, 404, rfl⟩
abbrev main_v277 : Ref sig .tc := ⟨.hbm, 405, rfl⟩
abbrev main_c_88 : Ref sig .tc := ⟨.hbm, 406, rfl⟩
abbrev main_v278 : Ref sig .tc := ⟨.hbm, 407, rfl⟩
abbrev main_v279 : Ref sig .tc := ⟨.hbm, 408, rfl⟩
abbrev main_c_89 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_c_90 : Ref sig .tc := ⟨.hbm, 413, rfl⟩
abbrev main_v283 : Ref sig .tc := ⟨.hbm, 414, rfl⟩
abbrev main_v284 : Ref sig .tc := ⟨.hbm, 415, rfl⟩
abbrev main_c_91 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_v290 : Ref sig .tc := ⟨.hbm, 422, rfl⟩
abbrev main_v291 : Ref sig .tc := ⟨.hbm, 423, rfl⟩
abbrev main_v292 : Ref sig .tc := ⟨.hbm, 424, rfl⟩
abbrev main_v293 : Ref sig .tc := ⟨.hbm, 425, rfl⟩
abbrev main_v294 : Ref sig .tc := ⟨.hbm, 426, rfl⟩
abbrev main_v295 : Ref sig .tc := ⟨.hbm, 427, rfl⟩
abbrev main_v296 : Ref sig .tc := ⟨.hbm, 428, rfl⟩
abbrev main_v297 : Ref sig .tc := ⟨.hbm, 429, rfl⟩
abbrev main_cst_92 : Ref sig .tc := ⟨.hbm, 430, rfl⟩
abbrev main_v298 : Ref sig .tc := ⟨.hbm, 431, rfl⟩
abbrev main_v299 : Ref sig .tc := ⟨.hbm, 432, rfl⟩
abbrev main_v300 : Ref sig .tc := ⟨.hbm, 433, rfl⟩
abbrev main_v301 : Ref sig .tc := ⟨.hbm, 434, rfl⟩
abbrev main_v302 : Ref sig .tc := ⟨.hbm, 435, rfl⟩
abbrev main_v303 : Ref sig .tc := ⟨.hbm, 436, rfl⟩
abbrev main_v304 : Ref sig .tc := ⟨.hbm, 437, rfl⟩
abbrev main_cst_93 : Ref sig .tc := ⟨.hbm, 438, rfl⟩
abbrev main_v305 : Ref sig .tc := ⟨.hbm, 439, rfl⟩
abbrev main_v306 : Ref sig .tc := ⟨.hbm, 440, rfl⟩
abbrev main_v307 : Ref sig .tc := ⟨.hbm, 441, rfl⟩
abbrev main_v308 : Ref sig .tc := ⟨.hbm, 442, rfl⟩
abbrev main_v309 : Ref sig .tc := ⟨.hbm, 443, rfl⟩
abbrev main_v310 : Ref sig .tc := ⟨.hbm, 444, rfl⟩
abbrev main_v311 : Ref sig .tc := ⟨.hbm, 445, rfl⟩
abbrev main_cst_94 : Ref sig .tc := ⟨.hbm, 446, rfl⟩
abbrev main_v312 : Ref sig .tc := ⟨.hbm, 447, rfl⟩
abbrev main_v313 : Ref sig .tc := ⟨.hbm, 448, rfl⟩
abbrev main_v314 : Ref sig .tc := ⟨.hbm, 449, rfl⟩
abbrev main_v315 : Ref sig .tc := ⟨.hbm, 450, rfl⟩
abbrev main_v316 : Ref sig .tc := ⟨.hbm, 451, rfl⟩
abbrev main_v317 : Ref sig .tc := ⟨.hbm, 452, rfl⟩
abbrev main_v318 : Ref sig .tc := ⟨.hbm, 453, rfl⟩
abbrev main_v319 : Ref sig .tc := ⟨.hbm, 454, rfl⟩
abbrev main_v320 : Ref sig .tc := ⟨.hbm, 455, rfl⟩
abbrev main_v321 : Ref sig .tc := ⟨.hbm, 456, rfl⟩
abbrev main_v322 : Ref sig .tc := ⟨.hbm, 457, rfl⟩
abbrev main_v323 : Ref sig .tc := ⟨.hbm, 458, rfl⟩
abbrev main_call6_cst : Ref sig .tc := ⟨.hbm, 459, rfl⟩
abbrev main_call6_v0 : Ref sig .tc := ⟨.hbm, 460, rfl⟩
abbrev main_v324 : Ref sig .tc := ⟨.hbm, 461, rfl⟩
abbrev main_v325 : Ref sig .tc := ⟨.hbm, 462, rfl⟩
abbrev main_v326 : Ref sig .tc := ⟨.hbm, 463, rfl⟩
abbrev main_v327 : Ref sig .tc := ⟨.hbm, 464, rfl⟩
abbrev main_v328 : Ref sig .tc := ⟨.hbm, 465, rfl⟩
abbrev main_call7_cst : Ref sig .tc := ⟨.hbm, 466, rfl⟩
abbrev main_call7_v0 : Ref sig .tc := ⟨.hbm, 467, rfl⟩
abbrev main_v329 : Ref sig .tc := ⟨.hbm, 468, rfl⟩
abbrev main_v330 : Ref sig .tc := ⟨.hbm, 469, rfl⟩
abbrev main_v331 : Ref sig .tc := ⟨.hbm, 470, rfl⟩
abbrev main_v332 : Ref sig .tc := ⟨.hbm, 471, rfl⟩
abbrev main_v333 : Ref sig .tc := ⟨.hbm, 472, rfl⟩

abbrev nD : Nat := 1
abbrev τ : Topo := Topo.v7x

variable {F : FTy → Type} [FloatOps F]

class Facts₀ : Prop where
  bcast_S_S4x131072x3 : S_.BroadcastsInDim S4x131072x3 (![] : Fin 0 → Fin S4x131072x3.rank)
  slices_S4x131072x3_S4x131072x1_0_0_0 : S4x131072x3.Slices ![0, 0, 0] S4x131072x1
  shapeCasts_S4x131072x1_S4x131072 : S4x131072x1.ShapeCasts S4x131072
  bcast_S_S4x131072 : S_.BroadcastsInDim S4x131072 (![] : Fin 0 → Fin S4x131072.rank)
  slices_S4x131072x3_S4x131072x1_0_0_1 : S4x131072x3.Slices ![0, 0, 1] S4x131072x1
  slices_S4x131072x3_S4x131072x1_0_0_2 : S4x131072x3.Slices ![0, 0, 2] S4x131072x1
  bcast_S4x131072_S4x131072x1_0_1 : S4x131072.BroadcastsInDim S4x131072x1 (![0, 1] : Fin 2 → Fin S4x131072x1.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x131072_0_1 : S4x1.BroadcastsInDim S4x131072 (![0, 1] : Fin 2 → Fin S4x131072.rank)
  concatenates_S4x131072x1_S4x131072x1_S4x131072x1_S4x131072x1_S4x131072x4_d2 : Shape.Concatenates [S4x131072x1, S4x131072x1, S4x131072x1, S4x131072x1] S4x131072x4 2
  bcast_S_S4x131072x1 : S_.BroadcastsInDim S4x131072x1 (![] : Fin 0 → Fin S4x131072x1.rank)
  bcast_S4x131072x1_S4x131072x32_0_1_2 : S4x131072x1.BroadcastsInDim S4x131072x32 (![0, 1, 2] : Fin 3 → Fin S4x131072x32.rank)
  concatenates_S4x131072x3_S4x131072x32_S4x131072x35_d2 : Shape.Concatenates [S4x131072x3, S4x131072x32] S4x131072x35 2
  bcast_S128_S1x1x128_2 : S128.BroadcastsInDim S1x1x128 (![2] : Fin 1 → Fin S1x1x128.rank)
  bcast_S1x1x128_S4x131072x128_0_1_2 : S1x1x128.BroadcastsInDim S4x131072x128 (![0, 1, 2] : Fin 3 → Fin S4x131072x128.rank)
  bcast_S_S4x131072x128 : S_.BroadcastsInDim S4x131072x128 (![] : Fin 0 → Fin S4x131072x128.rank)
  bcast_S1_S1x1x1_2 : S1.BroadcastsInDim S1x1x1 (![2] : Fin 1 → Fin S1x1x1.rank)
  bcast_S1x1x1_S4x131072x1_0_1_2 : S1x1x1.BroadcastsInDim S4x131072x1 (![0, 1, 2] : Fin 3 → Fin S4x131072x1.rank)
  gather_S4x32x64x64x64_S4x131072x4_S4x131072x32_2_0234_n_n_0234_2_132111_wf : GatherDims.WF S4x32x64x64x64 S4x131072x4 S4x131072x32 [2] [0, 2, 3, 4] [] [0, 2, 3, 4] [] 2 ![1, 32, 1, 1, 1]
  dot_S4x131072x35_S128x35_S4x131072x128_2_1_01_0_n_n_wf : DotDims.WF S4x131072x35 S128x35 S4x131072x128 [2] [1] [0, 1] [0] [] []
  dot_S4x131072x128_S128x128_S4x131072x128_2_1_01_0_n_n_wf : DotDims.WF S4x131072x128 S128x128 S4x131072x128 [2] [1] [0, 1] [0] [] []
  dot_S4x131072x128_S1x128_S4x131072x1_2_1_01_0_n_n_wf : DotDims.WF S4x131072x128 S1x128 S4x131072x1 [2] [1] [0, 1] [0] [] []

variable [Facts₀]

def gather_S4x32x64x64x64_S4x131072x4_S4x131072x32_2_0234_n_n_0234_2_132111 : GatherDims S4x32x64x64x64 S4x131072x4 S4x131072x32 where
  offsetDims := [2]
  collapsedSliceDims := [0, 2, 3, 4]
  operandBatchingDims := []
  startIndicesBatchingDims := []
  startIndexMap := [0, 2, 3, 4]
  indexVectorDim := 2
  sliceSizes := ![1, 32, 1, 1, 1]
  wf := gather_S4x32x64x64x64_S4x131072x4_S4x131072x32_2_0234_n_n_0234_2_132111_wf
def dot_S4x131072x35_S128x35_S4x131072x128_2_1_01_0_n_n : DotDims S4x131072x35 S128x35 S4x131072x128 where
  lhsContracting := [2]
  rhsContracting := [1]
  lhsNonContracting := [0, 1]
  rhsNonContracting := [0]
  lhsBatch := []
  rhsBatch := []
  wf := dot_S4x131072x35_S128x35_S4x131072x128_2_1_01_0_n_n_wf
def dot_S4x131072x128_S128x128_S4x131072x128_2_1_01_0_n_n : DotDims S4x131072x128 S128x128 S4x131072x128 where
  lhsContracting := [2]
  rhsContracting := [1]
  lhsNonContracting := [0, 1]
  rhsNonContracting := [0]
  lhsBatch := []
  rhsBatch := []
  wf := dot_S4x131072x128_S128x128_S4x131072x128_2_1_01_0_n_n_wf
def dot_S4x131072x128_S1x128_S4x131072x1_2_1_01_0_n_n : DotDims S4x131072x128 S1x128 S4x131072x1 where
  lhsContracting := [2]
  rhsContracting := [1]
  lhsNonContracting := [0, 1]
  rhsNonContracting := [0]
  lhsBatch := []
  rhsBatch := []
  wf := dot_S4x131072x128_S1x128_S4x131072x1_2_1_01_0_n_n_wf

class Facts : Prop extends Facts₀ where

variable [Facts]
-- ==== Proof.LibSsa.lean ====
/-
  A straight line of host operations in SINGLE-ASSIGNMENT form, read at a buffer without walking the line.

  `after ops V` folds the operations over the buffer contents one by one; reading one buffer deep in a long line that
  way visits every earlier operation. When no later operation writes a buffer an earlier operation touches
  (`Ordered`: every buffer is written at most once, and before it is read), the FINAL contents `R := after ops V`
  satisfy every operation's own equation

      R y = op.result (fun b => if b ∈ op.writes then V b else R b) y        (y written by op)

  — the operation applied to the final contents of its inputs (`after_fix`). A line's results are then read by
  rewriting with these equations, one rewrite per buffer read. `orderedB` is a one-pass check of `Ordered` for a line
  whose buffers are numbered in program order: each operation writes only buffers numbered above everything touched
  before it.
-/
import Idealize.ShloMosaic.Lib.StableHlo.Run

namespace Cert.Lib.Ssa

open Idealize.ShloMosaic Idealize.ShloMosaic.StableHlo

variable {τ : Topo} {sig : RefSig} {Val : EltTy → Type}

/-- Single assignment: no later operation writes a buffer an earlier operation touches. -/
def Ordered (ops : List (HloOp τ sig Val)) : Prop :=
  ops.Pairwise fun o o' => ∀ b ∈ o'.writes, b ∉ o.bufs

/-- In a single-assignment line the final contents satisfy each operation's own equation: a buffer the operation
    writes ends at the operation's value on the FINAL contents of the buffers it reads (a written buffer's old
    contents being the initial ones). -/
theorem after_fix : ∀ (ops : List (HloOp τ sig Val)) (V : Valuation τ sig Val), Ordered ops →
    ∀ op ∈ ops, ∀ y ∈ op.writes,
      after ops V y = op.result (fun b => if b ∈ op.writes then V b else after ops V b) y
  | [], _, _, _, hop, _, _ => absurd hop List.not_mem_nil
  | o :: rest, V, h, op, hop, y, hy => by
    have h1 : ∀ o' ∈ rest, ∀ b ∈ o'.writes, b ∉ o.bufs := (List.pairwise_cons.1 h).1
    have h2 : Ordered rest := (List.pairwise_cons.1 h).2
    -- a buffer the head touches is written by no later operation
    have hkeep : ∀ b ∈ o.bufs, after rest (o.result V) b = o.result V b := fun b hb =>
      after_of_forall_not_mem rest _ fun o' ho' hw => h1 o' ho' b hw hb
    rw [after_cons]
    rcases List.mem_cons.1 hop with he | hop'
    · subst he
      rw [hkeep y (op.writes_sub hy)]
      refine op.result_congr (fun b hb => ?_) y (op.writes_sub hy)
      show V b = if b ∈ op.writes then V b else after rest (op.result V) b
      by_cases hw : b ∈ op.writes
      · rw [if_pos hw]
      · rw [if_neg hw, hkeep b hb, op.result_of_not_mem V hw]
    · rw [after_fix rest (o.result V) h2 op hop' y hy]
      refine congrArg (fun G : Valuation τ sig Val => op.result G y) (funext fun b => ?_)
      by_cases hw : b ∈ op.writes
      · rw [if_pos hw, if_pos hw, o.result_of_not_mem V fun hb => h1 op hop' b hw (o.writes_sub hb)]
      · rw [if_neg hw, if_neg hw]

/-- The same, as a `List.Forall` over the line: for a literal line it unfolds to one equation per operation. -/
theorem after_fix_forall (ops : List (HloOp τ sig Val)) (V : Valuation τ sig Val) (h : Ordered ops) :
    ops.Forall fun op => ∀ y ∈ op.writes,
      after ops V y = op.result (fun b => if b ∈ op.writes then V b else after ops V b) y :=
  List.forall_iff_forall_mem.2 fun op hop => after_fix ops V h op hop

/-- A buffer no operation of the line writes keeps its contents. -/
theorem after_unwritten (ops : List (HloOp τ sig Val)) (V : Valuation τ sig Val) (b : DevRef τ sig)
    (h : ∀ op ∈ ops, b ∉ op.writes) : after ops V b = V b :=
  after_of_forall_not_mem ops V h

/-- A one-pass check of single assignment against a numbering `rank` of the buffers: every buffer an operation
    writes is numbered at least `lo`, and `lo` then moves above every buffer the operation touches. -/
def orderedB (rank : DevRef τ sig → Nat) : List (HloOp τ sig Val) → Nat → Bool
  | [], _ => true
  | op :: rest, lo =>
    decide (∀ y ∈ op.writes, lo ≤ rank y) && orderedB rank rest (max lo (op.bufs.sup rank + 1))

/-- What the check establishes: single assignment, and every written buffer numbered at least `lo`. -/
theorem orderedB_spec (rank : DevRef τ sig → Nat) : ∀ (ops : List (HloOp τ sig Val)) (lo : Nat),
    orderedB rank ops lo = true → Ordered ops ∧ ∀ op ∈ ops, ∀ y ∈ op.writes, lo ≤ rank y
  | [], _, _ => ⟨List.Pairwise.nil, fun _ h => absurd h List.not_mem_nil⟩
  | op :: rest, lo, h => by
    rw [orderedB, Bool.and_eq_true, decide_eq_true_eq] at h
    obtain ⟨h1, h2⟩ := h
    obtain ⟨ihO, ihW⟩ := orderedB_spec rank rest _ h2
    refine ⟨List.Pairwise.cons (fun o' ho' b hb hbo => ?_) ihO, fun o ho y hy => ?_⟩
    · have h3 := ihW o' ho' b hb
      have h4 : rank b ≤ op.bufs.sup rank := Finset.le_sup hbo
      omega
    · rcases List.mem_cons.1 ho with he | ho'
      · subst he; exact h1 y hy
      · have := ihW o ho' y hy
        omega

/-- A line that passes the check is in single-assignment form. -/
theorem ordered_of_orderedB (rank : DevRef τ sig → Nat) (ops : List (HloOp τ sig Val)) (lo : Nat)
    (h : orderedB rank ops lo = true) : Ordered ops :=
  (orderedB_spec rank ops lo h).1

/-! ## Single assignment checked on consecutive operations, as propositions over the buffers' numbers

`orderedB` evaluates finite sets of device buffers; over a long literal line that evaluation is slow. `Chained` states the
same check on CONSECUTIVE operations only, as a proposition that the builders' `*_bufs` / `*_writes` lemmas and
`Finset.sup_insert` / `Finset.sup_singleton` turn into comparisons of the buffers' numbers, two per operation. -/

/-- The highest number among the buffers an operation touches. -/
def hi (rank : DevRef τ sig → Nat) (op : HloOp τ sig Val) : Nat := op.bufs.sup rank

/-- Each operation writes only buffers numbered above everything its predecessor touches, and touches a buffer
    numbered at least as high as its predecessor's highest. -/
def Chained (rank : DevRef τ sig → Nat) : List (HloOp τ sig Val) → Prop
  | [] => True
  | [_] => True
  | o :: o' :: rest => (∀ y ∈ o'.writes, hi rank o < rank y) ∧ hi rank o ≤ hi rank o' ∧ Chained rank (o' :: rest)

theorem chained_spec (rank : DevRef τ sig → Nat) : ∀ (o : HloOp τ sig Val) (rest : List (HloOp τ sig Val)),
    Chained rank (o :: rest) →
      Ordered (o :: rest) ∧ ∀ o' ∈ rest, hi rank o ≤ hi rank o' ∧ ∀ y ∈ o'.writes, hi rank o < rank y
  | o, [], _ => ⟨List.pairwise_singleton _ _, fun _ h => absurd h List.not_mem_nil⟩
  | o, o' :: rest, h => by
    obtain ⟨hA, hB, hC⟩ := h
    obtain ⟨ihO, ihW⟩ := chained_spec rank o' rest hC
    have key : ∀ o'' ∈ o' :: rest, hi rank o ≤ hi rank o'' ∧ ∀ y ∈ o''.writes, hi rank o < rank y := by
      intro o'' ho''
      rcases List.mem_cons.1 ho'' with he | hr
      · subst he; exact ⟨hB, hA⟩
      · obtain ⟨h1, h2⟩ := ihW o'' hr
        exact ⟨Nat.le_trans hB h1, fun y hy => Nat.lt_of_le_of_lt hB (h2 y hy)⟩
    refine ⟨List.Pairwise.cons (fun o'' ho'' b hb hbo => ?_) ihO, key⟩
    have h3 := (key o'' ho'').2 b hb
    have h4 : rank b ≤ hi rank o := Finset.le_sup hbo
    omega

/-- A line that passes the consecutive check is in single-assignment form. -/
theorem ordered_of_chained (rank : DevRef τ sig → Nat) (ops : List (HloOp τ sig Val)) (h : Chained rank ops) :
    Ordered ops := by
  cases ops with
  | nil => exact List.Pairwise.nil
  | cons o rest => exact (chained_spec rank o rest h).1

/-- In a chained line every written buffer is numbered above `lo`, when the first operation's are and `lo` is at most
    the highest number the first operation touches. -/
theorem chained_lo (rank : DevRef τ sig → Nat) (o : HloOp τ sig Val) (rest : List (HloOp τ sig Val))
    (h : Chained rank (o :: rest)) (lo : Nat) (h0 : ∀ y ∈ o.writes, lo < rank y) (h1 : lo ≤ hi rank o) :
    ∀ op ∈ o :: rest, ∀ y ∈ op.writes, lo < rank y := by
  intro op hop y hy
  rcases List.mem_cons.1 hop with he | hr
  · subst he; exact h0 y hy
  · have := ((chained_spec rank o rest h).2 op hr).2 y hy
    omega

/-- A buffer numbered at most `lo` keeps its contents through a line that writes only buffers numbered above `lo`. -/
theorem after_of_rank_le (rank : DevRef τ sig → Nat) (ops : List (HloOp τ sig Val)) (lo : Nat)
    (hlo : ∀ op ∈ ops, ∀ y ∈ op.writes, lo < rank y) (V : Valuation τ sig Val) (b : DevRef τ sig) (hb : rank b ≤ lo) :
    after ops V b = V b :=
  after_of_forall_not_mem ops V fun op hop hw => by
    have := hlo op hop b hw
    omega

/-! ## Each builder's own equation

For a line of the builders of Lib/StableHlo.lean, the conjunct of `after_fix_forall` at one operation is the
operation's function applied to the final contents of its operands, as soon as no operand is the result buffer
(references told apart by `decide`). As `simp` lemmas they rewrite each conjunct in one step. -/

section Builders

variable {R V : Valuation τ sig Val}

theorem nullary_fix_iff (y : Ref sig .tc) (v : y.ty.Contents Val) (hy) :
    (∀ y' ∈ (nullary (τ := τ) y v hy).writes, R y' = (nullary (τ := τ) y v hy).result
        (fun d => if d ∈ (nullary (τ := τ) y v hy).writes then V d else R d) y')
      ↔ R (Proc.devRef .tc y) = v := by
  simp only [nullary_writes, Finset.mem_singleton, forall_eq]
  rw [nullary_result]

theorem unary_fix_iff (x y : Ref sig .tc) (f : x.ty.Contents Val → y.ty.Contents Val) (hx hy) (h : x ≠ y) :
    (∀ y' ∈ (unary (τ := τ) x y f hx hy).writes, R y' = (unary (τ := τ) x y f hx hy).result
        (fun d => if d ∈ (unary (τ := τ) x y f hx hy).writes then V d else R d) y')
      ↔ R (Proc.devRef .tc y) = f (R (Proc.devRef .tc x)) := by
  simp only [unary_writes, Finset.mem_singleton, forall_eq]
  rw [unary_result, if_neg (devRef_ne_of_ne h)]

theorem binary_fix_iff (a b y : Ref sig .tc) (f : a.ty.Contents Val → b.ty.Contents Val → y.ty.Contents Val) (ha hb hy)
    (h1 : a ≠ y) (h2 : b ≠ y) :
    (∀ y' ∈ (binary (τ := τ) a b y f ha hb hy).writes, R y' = (binary (τ := τ) a b y f ha hb hy).result
        (fun d => if d ∈ (binary (τ := τ) a b y f ha hb hy).writes then V d else R d) y')
      ↔ R (Proc.devRef .tc y) = f (R (Proc.devRef .tc a)) (R (Proc.devRef .tc b)) := by
  simp only [binary_writes, Finset.mem_singleton, forall_eq]
  rw [binary_result, if_neg (devRef_ne_of_ne h1), if_neg (devRef_ne_of_ne h2)]

theorem ternary_fix_iff (c a b y : Ref sig .tc)
    (f : c.ty.Contents Val → a.ty.Contents Val → b.ty.Contents Val → y.ty.Contents Val) (hc ha hb hy)
    (h0 : c ≠ y) (h1 : a ≠ y) (h2 : b ≠ y) :
    (∀ y' ∈ (ternary (τ := τ) c a b y f hc ha hb hy).writes, R y' = (ternary (τ := τ) c a b y f hc ha hb hy).result
        (fun d => if d ∈ (ternary (τ := τ) c a b y f hc ha hb hy).writes then V d else R d) y')
      ↔ R (Proc.devRef .tc y) = f (R (Proc.devRef .tc c)) (R (Proc.devRef .tc a)) (R (Proc.devRef .tc b)) := by
  simp only [ternary_writes, Finset.mem_singleton, forall_eq]
  rw [ternary_result, if_neg (devRef_ne_of_ne h0), if_neg (devRef_ne_of_ne h1), if_neg (devRef_ne_of_ne h2)]

theorem quaternary_fix_iff (a b c e y : Ref sig .tc)
    (f : a.ty.Contents Val → b.ty.Contents Val → c.ty.Contents Val → e.ty.Contents Val → y.ty.Contents Val)
    (ha hb hc he' hy) (h1 : a ≠ y) (h2 : b ≠ y) (h3 : c ≠ y) (h4 : e ≠ y) :
    (∀ y' ∈ (quaternary (τ := τ) a b c e y f ha hb hc he' hy).writes,
        R y' = (quaternary (τ := τ) a b c e y f ha hb hc he' hy).result
          (fun d => if d ∈ (quaternary (τ := τ) a b c e y f ha hb hc he' hy).writes then V d else R d) y')
      ↔ R (Proc.devRef .tc y)
          = f (R (Proc.devRef .tc a)) (R (Proc.devRef .tc b)) (R (Proc.devRef .tc c)) (R (Proc.devRef .tc e)) := by
  simp only [quaternary_writes, Finset.mem_singleton, forall_eq]
  rw [quaternary_result, if_neg (devRef_ne_of_ne h1), if_neg (devRef_ne_of_ne h2), if_neg (devRef_ne_of_ne h3),
    if_neg (devRef_ne_of_ne h4)]

theorem reshape_fix_iff (x y : Ref sig .tc) (he : x.ty.elt = y.ty.elt) (hn : x.ty.shape.ShapeCasts y.ty.shape) (hx hy)
    (h : x ≠ y) :
    (∀ y' ∈ (reshape (τ := τ) (Val := Val) x y he hn hx hy).writes,
        R y' = (reshape (τ := τ) (Val := Val) x y he hn hx hy).result
          (fun d => if d ∈ (reshape (τ := τ) (Val := Val) x y he hn hx hy).writes then V d else R d) y')
      ↔ R (Proc.devRef .tc y) = fun i => he ▸ shapeCast y.ty.shape (R (Proc.devRef .tc x)) hn i := by
  simp only [reshape_writes, Finset.mem_singleton, forall_eq]
  rw [reshape_result, if_neg (devRef_ne_of_ne h)]

end Builders

/-! ## The consecutive check for the builders, over the references' indices

With the buffers numbered by their index in their table (`rk`), the two conditions of `Chained` at the builders'
operations are comparisons of the literal references' indices: `hi_*` give the highest number an operation touches,
`writes_lt_*` what it means that everything it writes is numbered above `n`. Rewriting with them (no finite set is
evaluated) leaves a conjunction of comparisons of numerals, for `decide`. -/

/-- A buffer's number: its index in its table. -/
def rk (b : DevRef τ sig) : Nat := b.idx.val

section BuilderRanks

variable (x a b c e y : Ref sig .tc)

theorem hi_nullary (v : y.ty.Contents Val) (hy) :
    hi rk (nullary (τ := τ) y v hy) = y.idx.val := by
  simp only [hi, nullary_bufs, Finset.sup_singleton]; rfl
theorem hi_unary (f : x.ty.Contents Val → y.ty.Contents Val) (hx hy) :
    hi rk (unary (τ := τ) x y f hx hy) = max x.idx.val y.idx.val := by
  simp only [hi, unary_bufs, Finset.sup_insert, Finset.sup_singleton]; rfl
theorem hi_binary (f : a.ty.Contents Val → b.ty.Contents Val → y.ty.Contents Val) (ha hb hy) :
    hi rk (binary (τ := τ) a b y f ha hb hy) = max a.idx.val (max b.idx.val y.idx.val) := by
  simp only [hi, binary_bufs, Finset.sup_insert, Finset.sup_singleton]; rfl
theorem hi_ternary (f : c.ty.Contents Val → a.ty.Contents Val → b.ty.Contents Val → y.ty.Contents Val) (hc ha hb hy) :
    hi rk (ternary (τ := τ) c a b y f hc ha hb hy)
      = max c.idx.val (max a.idx.val (max b.idx.val y.idx.val)) := by
  simp only [hi, ternary_bufs, Finset.sup_insert, Finset.sup_singleton]; rfl
theorem hi_quaternary
    (f : a.ty.Contents Val → b.ty.Contents Val → c.ty.Contents Val → e.ty.Contents Val → y.ty.Contents Val)
    (ha hb hc he' hy) :
    hi rk (quaternary (τ := τ) a b c e y f ha hb hc he' hy)
      = max a.idx.val (max b.idx.val (max c.idx.val (max e.idx.val y.idx.val))) := by
  simp only [hi, quaternary_bufs, Finset.sup_insert, Finset.sup_singleton]; rfl
theorem hi_reshape (he hn hx hy) :
    hi rk (reshape (τ := τ) (Val := Val) x y he hn hx hy) = max x.idx.val y.idx.val := by
  simp only [hi, reshape_bufs, Finset.sup_insert, Finset.sup_singleton]; rfl

theorem writes_lt_nullary (n : Nat) (v : y.ty.Contents Val) (hy) :
    (∀ y' ∈ (nullary (τ := τ) y v hy).writes, n < rk y') ↔ n < y.idx.val := by
  simp only [nullary_writes, Finset.mem_singleton, forall_eq]; rfl
theorem writes_lt_unary (n : Nat) (f : x.ty.Contents Val → y.ty.Contents Val) (hx hy) :
    (∀ y' ∈ (unary (τ := τ) x y f hx hy).writes, n < rk y') ↔ n < y.idx.val := by
  simp only [unary_writes, Finset.mem_singleton, forall_eq]; rfl
theorem writes_lt_binary (n : Nat) (f : a.ty.Contents Val → b.ty.Contents Val → y.ty.Contents Val) (ha hb hy) :
    (∀ y' ∈ (binary (τ := τ) a b y f ha hb hy).writes, n < rk y') ↔ n < y.idx.val := by
  simp only [binary_writes, Finset.mem_singleton, forall_eq]; rfl
theorem writes_lt_ternary (n : Nat)
    (f : c.ty.Contents Val → a.ty.Contents Val → b.ty.Contents Val → y.ty.Contents Val) (hc ha hb hy) :
    (∀ y' ∈ (ternary (τ := τ) c a b y f hc ha hb hy).writes, n < rk y') ↔ n < y.idx.val := by
  simp only [ternary_writes, Finset.mem_singleton, forall_eq]; rfl
theorem writes_lt_quaternary (n : Nat)
    (f : a.ty.Contents Val → b.ty.Contents Val → c.ty.Contents Val → e.ty.Contents Val → y.ty.Contents Val)
    (ha hb hc he' hy) :
    (∀ y' ∈ (quaternary (τ := τ) a b c e y f ha hb hc he' hy).writes, n < rk y') ↔ n < y.idx.val := by
  simp only [quaternary_writes, Finset.mem_singleton, forall_eq]; rfl
theorem writes_lt_reshape (n : Nat) (he hn hx hy) :
    (∀ y' ∈ (reshape (τ := τ) (Val := Val) x y he hn hx hy).writes, n < rk y') ↔ n < y.idx.val := by
  simp only [reshape_writes, Finset.mem_singleton, forall_eq]; rfl

end BuilderRanks

end Cert.Lib.Ssa
-- ==== Proof.RefRunFast.lean ====
/-
  The reference's run, read without walking its line.

  The reference is a straight line of 465 host operations in single-assignment form: its buffers are numbered in the order
  the line defines them (the eight arguments 0 to 7), and each operation writes a buffer numbered above everything the
  operation before it touches. The final contents then satisfy every operation's own equation at once (the
  single-assignment lemma), so the result buffer is read by rewriting with those equations, one rewrite per buffer, down
  to the arguments, which no operation writes. What is left is the last stage of the reference read one operation at a
  time, unfolded to the same composed term. The read is done in two parts because the one operation that joins the
  argument points to the sampled channels carries a proof about its operand list, which the rewriting pass does not
  cross: first the sampled channels (the 446 operations below the join), then the three layers above it.
-/
import proofs.«114979_j32804960207257_2_alg».proof.Proof.RefRunP
import proofs.«114979_j32804960207257_2_alg».proof.Proof.RefReadP
import proofs.«114979_j32804960207257_2_alg».proof.Proof.LibSsa

noncomputable section

namespace Cert.ReferenceIdeal.RunFast

open Idealize.ShloMosaic Idealize.ShloMosaic.TcCoe Idealize.SL.Sem Idealize.ShloMosaic.StableHlo Cert.Lib.Ssa

/-! ## The four-operand operation (a concatenation of four pieces), beside the single-assignment lemmas of the other builders -/

section Nary4
variable {τ : Topo} {sig : RefSig} {Val : EltTy → Type} {R V : Valuation τ sig Val}
variable (x a b c y : Ref sig .tc)

/-- The single-assignment equation of a four-operand operation: its function of the final contents of its four
    operands, none of which is the result buffer. -/
theorem nary4_fix_iff
    (f : ((k : Fin 4) → ((![x, a, b, c] : Fin 4 → Ref sig .tc) k).ty.Contents Val) → y.ty.Contents Val) (hxs hy)
    (h0 : x ≠ y) (h1 : a ≠ y) (h2 : b ≠ y) (h3 : c ≠ y) :
    (∀ y' ∈ (nary (τ := τ) ![x, a, b, c] y f hxs hy).writes, R y' = (nary (τ := τ) ![x, a, b, c] y f hxs hy).result
        (fun d => if d ∈ (nary (τ := τ) ![x, a, b, c] y f hxs hy).writes then V d else R d) y')
      ↔ R (Proc.devRef .tc y) = f (Fin.cons (R (Proc.devRef .tc x)) (Fin.cons (R (Proc.devRef .tc a))
          (Fin.cons (R (Proc.devRef .tc b)) (Fin.cons (R (Proc.devRef .tc c)) (fun i => i.elim0))))) := by
  simp only [nary_writes, Finset.mem_singleton, forall_eq]
  rw [nary4_result, if_neg (devRef_ne_of_ne h0), if_neg (devRef_ne_of_ne h1), if_neg (devRef_ne_of_ne h2),
    if_neg (devRef_ne_of_ne h3)]

/-- The largest of four numbers, as a supremum over the four positions. -/
theorem sup_fin4 (g : Fin 4 → Nat) : Finset.univ.sup g = max (g 0) (max (g 1) (max (g 2) (g 3))) := by
  refine le_antisymm (Finset.sup_le fun k _ => ?_) ?_
  · fin_cases k
    · exact le_max_left _ _
    · exact le_trans (le_max_left _ _) (le_max_right _ _)
    · exact le_trans (le_trans (le_max_left _ _) (le_max_right _ _)) (le_max_right _ _)
    · exact le_trans (le_trans (le_max_right _ _) (le_max_right _ _)) (le_max_right _ _)
  · exact max_le (Finset.le_sup (Finset.mem_univ _)) (max_le (Finset.le_sup (Finset.mem_univ _))
      (max_le (Finset.le_sup (Finset.mem_univ _)) (Finset.le_sup (Finset.mem_univ _))))

/-- The highest number among the five buffers it touches. -/
theorem hi_nary4
    (f : ((k : Fin 4) → ((![x, a, b, c] : Fin 4 → Ref sig .tc) k).ty.Contents Val) → y.ty.Contents Val) (hxs hy) :
    hi rk (nary (τ := τ) ![x, a, b, c] y f hxs hy)
      = max y.idx.val (max x.idx.val (max a.idx.val (max b.idx.val c.idx.val))) := by
  show (insert (Proc.devRef .tc y) (Finset.univ.image fun k => Proc.devRef (τ := τ) .tc ((![x, a, b, c] : Fin 4 → Ref sig .tc) k))).sup rk = _
  rw [Finset.sup_insert, Finset.sup_image, sup_fin4]
  rfl

/-- Everything it writes is numbered above n iff its result buffer is. -/
theorem writes_lt_nary4 (n : Nat)
    (f : ((k : Fin 4) → ((![x, a, b, c] : Fin 4 → Ref sig .tc) k).ty.Contents Val) → y.ty.Contents Val) (hxs hy) :
    (∀ y' ∈ (nary (τ := τ) ![x, a, b, c] y f hxs hy).writes, n < rk y') ↔ n < y.idx.val := by
  simp only [nary_writes, Finset.mem_singleton, forall_eq]; rfl

end Nary4

open Cert.ReferenceIdeal Cert.ReferenceIdeal.Gen Cert.ReferenceIdeal.ValueP Cert.ReferenceIdeal.ReadP

/-! ## The reference's line is in single-assignment form -/

set_option maxHeartbeats 40000000 in
set_option maxRecDepth 65536 in
/-- Its buffers are numbered in the order it defines them: each operation writes a buffer numbered above everything the
    operation before it touches. -/
theorem ops_ordered : Ordered (ops (F := Ideal)) := by
  refine ordered_of_chained rk _ ?_
  simp only [ops, Chained, hi_nullary, hi_unary, hi_binary, hi_ternary, hi_reshape, hi_nary4, writes_lt_nullary,
    writes_lt_unary, writes_lt_binary, writes_lt_ternary, writes_lt_reshape, writes_lt_nary4]
  repeat' apply And.intro
  all_goals decide

set_option maxHeartbeats 40000000 in
set_option maxRecDepth 65536 in
/-- Every buffer the line writes is numbered above 7: the eight arguments are numbered 0 to 7. -/
theorem writes_above : (ops (F := Ideal)).Forall fun op => ∀ y' ∈ op.writes, 7 < rk y' := by
  simp only [ops, List.Forall, writes_lt_nullary, writes_lt_unary, writes_lt_binary, writes_lt_ternary, writes_lt_reshape,
    writes_lt_nary4]
  repeat' apply And.intro
  all_goals decide

/-- So no operation writes a buffer numbered at most 7. -/
theorem unwritten_of_le (b : DevRef τ sig) (hb : rk b ≤ 7) : ∀ op ∈ (ops (F := Ideal)), b ∉ op.writes :=
  fun op hop hw => absurd ((List.forall_iff_forall_mem.mp writes_above) op hop b hw) (by omega)

/-! ## The result buffer, read by rewriting

The final contents `R` satisfy every operation's own equation; rewriting with those equations reads a buffer down to the
arguments. The sampled channels are read first (the join of the points with them carries a proof about its operand list
that the rewriting does not cross), then the layers above. Each side is then a term of the arguments alone, and the
two are compared by the kernel's own check of the finished proof (`Eq.refl` of the left side at the stated equation). -/

open Lean Elab Tactic Meta in
/-- Closes `a = b` by `Eq.refl a`: the comparison of the two sides is the kernel's, made when the theorem is added. -/
elab "kernel_rfl" : tactic => do
  let g ← getMainGoal
  let t ← instantiateMVars (← g.getType)
  let some (_, lhs, _) := t.consumeMData.eq? | throwError "kernel_rfl: the goal is not an equation"
  g.assign (← mkEqRefl lhs)

set_option maxHeartbeats 40000000 in
set_option maxRecDepth 65536 in
theorem result_eq (V : Valuation τ sig (Elt Ideal)) :
    after (ops (F := Ideal)) V (Proc.devRef .tc main_v333)
      = val_main_v333 (F := Ideal) (V (Proc.devRef .tc main_arg0)) (V (Proc.devRef .tc main_arg1))
          (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  have hfix := after_fix_forall (ops (F := Ideal)) V ops_ordered
  have h0 := after_unwritten (ops (F := Ideal)) V (Proc.devRef .tc main_arg0) (unwritten_of_le _ (by decide))
  have h1 := after_unwritten (ops (F := Ideal)) V (Proc.devRef .tc main_arg1) (unwritten_of_le _ (by decide))
  have h2 := after_unwritten (ops (F := Ideal)) V (Proc.devRef .tc main_arg2) (unwritten_of_le _ (by decide))
  have h3 := after_unwritten (ops (F := Ideal)) V (Proc.devRef .tc main_arg3) (unwritten_of_le _ (by decide))
  have h4 := after_unwritten (ops (F := Ideal)) V (Proc.devRef .tc main_arg4) (unwritten_of_le _ (by decide))
  have h5 := after_unwritten (ops (F := Ideal)) V (Proc.devRef .tc main_arg5) (unwritten_of_le _ (by decide))
  have h6 := after_unwritten (ops (F := Ideal)) V (Proc.devRef .tc main_arg6) (unwritten_of_le _ (by decide))
  have h7 := after_unwritten (ops (F := Ideal)) V (Proc.devRef .tc main_arg7) (unwritten_of_le _ (by decide))
  generalize after (ops (F := Ideal)) V = R at hfix h0 h1 h2 h3 h4 h5 h6 h7 ⊢
  simp (config := { decide := true }) only [ops, List.Forall, nullary_fix_iff, unary_fix_iff, binary_fix_iff,
    ternary_fix_iff, reshape_fix_iff, nary4_fix_iff] at hfix
  -- the three reshaped coordinate columns
  have e_main_v5 : R (Proc.devRef .tc main_v5) = val_main_v5 (F := Ideal) (V (Proc.devRef .tc main_arg1)) := by
    simp only [hfix, h1, TRef.toBuf, TRef.ofBuf, cast_eq, val_main_cst, val_main_v0, val_main_v1, val_main_cst_0, val_main_v2, val_main_v3, val_main_v4, val_main_v5, val_main_cst_1, val_main_v6, val_main_v7, val_main_cst_2, val_main_v8, val_main_v9, val_main_cst_3, val_main_v10, val_main_v11, val_main_v12, val_main_v13, val_main_cst_4, val_main_v14, val_main_v15, val_main_cst_5, val_main_v16, val_main_v17, val_main_cst_6, val_main_v18, val_main_v19, val_main_v20, val_main_v21, val_main_cst_7, val_main_v22, val_main_v23, val_main_cst_8, val_main_v24, val_main_v25, val_main_cst_9, val_main_v26, val_main_v27, val_main_v28, val_main_v29, val_main_v30, val_main_v31, val_main_v32, val_main_v33, val_main_v34, val_main_v35, val_main_v36, val_main_v37, val_main_c, val_main_c_10, val_main_call0_v0, val_main_call0_v1, val_main_call0_v2, val_main_call0_v3, val_main_call0_v4, val_main_v38, val_main_c_11, val_main_v39, val_main_v40, val_main_c_12, val_main_c_13, val_main_call1_v0, val_main_call1_v1, val_main_call1_v2, val_main_call1_v3, val_main_call1_v4, val_main_v41, val_main_v42, val_main_c_14, val_main_c_15, val_main_call2_v0, val_main_call2_v1, val_main_call2_v2, val_main_call2_v3, val_main_call2_v4, val_main_v43, val_main_c_16, val_main_v44, val_main_v45, val_main_c_17, val_main_c_18, val_main_call3_v0, val_main_call3_v1, val_main_call3_v2, val_main_call3_v3, val_main_call3_v4, val_main_v46, val_main_v47, val_main_c_19, val_main_c_20, val_main_call4_v0, val_main_call4_v1, val_main_call4_v2, val_main_call4_v3, val_main_call4_v4, val_main_v48, val_main_c_21, val_main_v49, val_main_v50, val_main_c_22, val_main_c_23, val_main_call5_v0, val_main_call5_v1, val_main_call5_v2, val_main_call5_v3, val_main_call5_v4, val_main_v51, val_main_v52, val_main_v53, val_main_c_24, val_main_v54, val_main_v55, val_main_c_25, val_main_v56, val_main_v57, val_main_v58, val_main_c_26, val_main_v59, val_main_v60, val_main_c_27, val_main_v61, val_main_v62, val_main_v63, val_main_c_28, val_main_v64, val_main_v65, val_main_c_29, val_main_v66, val_main_v67, val_main_v68, val_main_c_30, val_main_v69, val_main_v70, val_main_c_31, val_main_v71, val_main_v72, val_main_v73, val_main_v74, val_main_v75, val_main_v76, val_main_v77, val_main_v78, val_main_v79, val_main_v80, val_main_cst_32, val_main_v81, val_main_v82, val_main_v83, val_main_v84, val_main_c_33, val_main_v85, val_main_v86, val_main_c_34, val_main_v87, val_main_v88, val_main_v89, val_main_c_35, val_main_v90, val_main_v91, val_main_c_36, val_main_v92, val_main_v93, val_main_v94, val_main_c_37, val_main_v95, val_main_v96, val_main_c_38, val_main_v97, val_main_v98, val_main_v99, val_main_c_39, val_main_v100, val_main_v101, val_main_c_40, val_main_v102, val_main_v103, val_main_v104, val_main_v105, val_main_v106, val_main_v107, val_main_v108, val_main_v109, val_main_v110, val_main_v111, val_main_v112, val_main_v113, val_main_v114, val_main_c_41, val_main_v115, val_main_v116, val_main_c_42, val_main_v117, val_main_v118, val_main_v119, val_main_c_43, val_main_v120, val_main_v121, val_main_c_44, val_main_v122, val_main_v123, val_main_v124, val_main_c_45, val_main_v125, val_main_v126, val_main_c_46, val_main_v127, val_main_v128, val_main_v129, val_main_c_47, val_main_v130, val_main_v131, val_main_c_48, val_main_v132, val_main_v133, val_main_v134, val_main_v135, val_main_v136, val_main_v137, val_main_v138, val_main_v139, val_main_v140, val_main_v141, val_main_cst_49, val_main_v142, val_main_v143, val_main_v144, val_main_v145, val_main_c_50, val_main_v146, val_main_v147, val_main_c_51, val_main_v148, val_main_v149, val_main_v150, val_main_c_52, val_main_v151, val_main_v152, val_main_c_53, val_main_v153, val_main_v154, val_main_v155, val_main_c_54, val_main_v156, val_main_v157, val_main_c_55, val_main_v158, val_main_v159, val_main_v160, val_main_c_56, val_main_v161, val_main_v162, val_main_c_57, val_main_v163, val_main_v164, val_main_v165, val_main_v166, val_main_v167, val_main_v168, val_main_v169, val_main_v170, val_main_v171, val_main_v172, val_main_v173, val_main_v174, val_main_v175, val_main_c_58, val_main_v176, val_main_v177, val_main_c_59, val_main_v178, val_main_v179, val_main_v180, val_main_c_60, val_main_v181, val_main_v182, val_main_c_61, val_main_v183, val_main_v184, val_main_v185, val_main_c_62, val_main_v186, val_main_v187, val_main_c_63, val_main_v188, val_main_v189, val_main_v190, val_main_c_64, val_main_v191, val_main_v192, val_main_c_65, val_main_v193, val_main_v194, val_main_v195, val_main_v196, val_main_v197, val_main_v198, val_main_v199, val_main_v200, val_main_v201, val_main_v202, val_main_cst_66, val_main_v203, val_main_v204, val_main_v205, val_main_v206, val_main_c_67, val_main_v207, val_main_v208, val_main_c_68, val_main_v209, val_main_v210, val_main_v211, val_main_c_69, val_main_v212, val_main_v213, val_main_c_70, val_main_v214, val_main_v215, val_main_v216, val_main_c_71, val_main_v217, val_main_v218, val_main_c_72, val_main_v219, val_main_v220, val_main_v221, val_main_c_73, val_main_v222, val_main_v223, val_main_c_74, val_main_v224, val_main_v225, val_main_v226, val_main_v227, val_main_v228, val_main_v229, val_main_v230, val_main_v231, val_main_v232, val_main_v233, val_main_v234, val_main_v235, val_main_v236, val_main_c_75, val_main_v237, val_main_v238, val_main_c_76, val_main_v239, val_main_v240, val_main_v241, val_main_c_77, val_main_v242, val_main_v243, val_main_c_78, val_main_v244, val_main_v245, val_main_v246, val_main_c_79, val_main_v247, val_main_v248, val_main_c_80, val_main_v249, val_main_v250, val_main_v251, val_main_c_81, val_main_v252, val_main_v253, val_main_c_82, val_main_v254, val_main_v255, val_main_v256, val_main_v257, val_main_v258, val_main_v259, val_main_v260, val_main_v261, val_main_v262, val_main_v263, val_main_cst_83, val_main_v264, val_main_v265, val_main_v266, val_main_v267, val_main_c_84, val_main_v268, val_main_v269, val_main_c_85, val_main_v270, val_main_v271, val_main_v272, val_main_c_86, val_main_v273, val_main_v274, val_main_c_87, val_main_v275, val_main_v276, val_main_v277, val_main_c_88, val_main_v278, val_main_v279, val_main_c_89, val_main_v280, val_main_v281, val_main_v282, val_main_c_90, val_main_v283, val_main_v284, val_main_c_91, val_main_v285, val_main_v286, val_main_v287, val_main_v288, val_main_v289, val_main_v290, val_main_v291, val_main_v292, val_main_v293, val_main_v294, val_main_v295, val_main_v296, val_main_v297, val_main_cst_92, val_main_v298, val_main_v299, val_main_v300, val_main_v301, val_main_v302, val_main_v303, val_main_v304, val_main_cst_93, val_main_v305, val_main_v306, val_main_v307, val_main_v308, val_main_v309, val_main_v310, val_main_v311, val_main_cst_94, val_main_v312, val_main_v313, val_main_v314, val_main_v315, val_main_v316, val_main_v317, val_main_v318]
    first
      | done
      | kernel_rfl
  have e_main_v13 : R (Proc.devRef .tc main_v13) = val_main_v13 (F := Ideal) (V (Proc.devRef .tc main_arg1)) := by
    simp only [hfix, h1, TRef.toBuf, TRef.ofBuf, cast_eq, val_main_cst, val_main_v0, val_main_v1, val_main_cst_0, val_main_v2, val_main_v3, val_main_v4, val_main_v5, val_main_cst_1, val_main_v6, val_main_v7, val_main_cst_2, val_main_v8, val_main_v9, val_main_cst_3, val_main_v10, val_main_v11, val_main_v12, val_main_v13, val_main_cst_4, val_main_v14, val_main_v15, val_main_cst_5, val_main_v16, val_main_v17, val_main_cst_6, val_main_v18, val_main_v19, val_main_v20, val_main_v21, val_main_cst_7, val_main_v22, val_main_v23, val_main_cst_8, val_main_v24, val_main_v25, val_main_cst_9, val_main_v26, val_main_v27, val_main_v28, val_main_v29, val_main_v30, val_main_v31, val_main_v32, val_main_v33, val_main_v34, val_main_v35, val_main_v36, val_main_v37, val_main_c, val_main_c_10, val_main_call0_v0, val_main_call0_v1, val_main_call0_v2, val_main_call0_v3, val_main_call0_v4, val_main_v38, val_main_c_11, val_main_v39, val_main_v40, val_main_c_12, val_main_c_13, val_main_call1_v0, val_main_call1_v1, val_main_call1_v2, val_main_call1_v3, val_main_call1_v4, val_main_v41, val_main_v42, val_main_c_14, val_main_c_15, val_main_call2_v0, val_main_call2_v1, val_main_call2_v2, val_main_call2_v3, val_main_call2_v4, val_main_v43, val_main_c_16, val_main_v44, val_main_v45, val_main_c_17, val_main_c_18, val_main_call3_v0, val_main_call3_v1, val_main_call3_v2, val_main_call3_v3, val_main_call3_v4, val_main_v46, val_main_v47, val_main_c_19, val_main_c_20, val_main_call4_v0, val_main_call4_v1, val_main_call4_v2, val_main_call4_v3, val_main_call4_v4, val_main_v48, val_main_c_21, val_main_v49, val_main_v50, val_main_c_22, val_main_c_23, val_main_call5_v0, val_main_call5_v1, val_main_call5_v2, val_main_call5_v3, val_main_call5_v4, val_main_v51, val_main_v52, val_main_v53, val_main_c_24, val_main_v54, val_main_v55, val_main_c_25, val_main_v56, val_main_v57, val_main_v58, val_main_c_26, val_main_v59, val_main_v60, val_main_c_27, val_main_v61, val_main_v62, val_main_v63, val_main_c_28, val_main_v64, val_main_v65, val_main_c_29, val_main_v66, val_main_v67, val_main_v68, val_main_c_30, val_main_v69, val_main_v70, val_main_c_31, val_main_v71, val_main_v72, val_main_v73, val_main_v74, val_main_v75, val_main_v76, val_main_v77, val_main_v78, val_main_v79, val_main_v80, val_main_cst_32, val_main_v81, val_main_v82, val_main_v83, val_main_v84, val_main_c_33, val_main_v85, val_main_v86, val_main_c_34, val_main_v87, val_main_v88, val_main_v89, val_main_c_35, val_main_v90, val_main_v91, val_main_c_36, val_main_v92, val_main_v93, val_main_v94, val_main_c_37, val_main_v95, val_main_v96, val_main_c_38, val_main_v97, val_main_v98, val_main_v99, val_main_c_39, val_main_v100, val_main_v101, val_main_c_40, val_main_v102, val_main_v103, val_main_v104, val_main_v105, val_main_v106, val_main_v107, val_main_v108, val_main_v109, val_main_v110, val_main_v111, val_main_v112, val_main_v113, val_main_v114, val_main_c_41, val_main_v115, val_main_v116, val_main_c_42, val_main_v117, val_main_v118, val_main_v119, val_main_c_43, val_main_v120, val_main_v121, val_main_c_44, val_main_v122, val_main_v123, val_main_v124, val_main_c_45, val_main_v125, val_main_v126, val_main_c_46, val_main_v127, val_main_v128, val_main_v129, val_main_c_47, val_main_v130, val_main_v131, val_main_c_48, val_main_v132, val_main_v133, val_main_v134, val_main_v135, val_main_v136, val_main_v137, val_main_v138, val_main_v139, val_main_v140, val_main_v141, val_main_cst_49, val_main_v142, val_main_v143, val_main_v144, val_main_v145, val_main_c_50, val_main_v146, val_main_v147, val_main_c_51, val_main_v148, val_main_v149, val_main_v150, val_main_c_52, val_main_v151, val_main_v152, val_main_c_53, val_main_v153, val_main_v154, val_main_v155, val_main_c_54, val_main_v156, val_main_v157, val_main_c_55, val_main_v158, val_main_v159, val_main_v160, val_main_c_56, val_main_v161, val_main_v162, val_main_c_57, val_main_v163, val_main_v164, val_main_v165, val_main_v166, val_main_v167, val_main_v168, val_main_v169, val_main_v170, val_main_v171, val_main_v172, val_main_v173, val_main_v174, val_main_v175, val_main_c_58, val_main_v176, val_main_v177, val_main_c_59, val_main_v178, val_main_v179, val_main_v180, val_main_c_60, val_main_v181, val_main_v182, val_main_c_61, val_main_v183, val_main_v184, val_main_v185, val_main_c_62, val_main_v186, val_main_v187, val_main_c_63, val_main_v188, val_main_v189, val_main_v190, val_main_c_64, val_main_v191, val_main_v192, val_main_c_65, val_main_v193, val_main_v194, val_main_v195, val_main_v196, val_main_v197, val_main_v198, val_main_v199, val_main_v200, val_main_v201, val_main_v202, val_main_cst_66, val_main_v203, val_main_v204, val_main_v205, val_main_v206, val_main_c_67, val_main_v207, val_main_v208, val_main_c_68, val_main_v209, val_main_v210, val_main_v211, val_main_c_69, val_main_v212, val_main_v213, val_main_c_70, val_main_v214, val_main_v215, val_main_v216, val_main_c_71, val_main_v217, val_main_v218, val_main_c_72, val_main_v219, val_main_v220, val_main_v221, val_main_c_73, val_main_v222, val_main_v223, val_main_c_74, val_main_v224, val_main_v225, val_main_v226, val_main_v227, val_main_v228, val_main_v229, val_main_v230, val_main_v231, val_main_v232, val_main_v233, val_main_v234, val_main_v235, val_main_v236, val_main_c_75, val_main_v237, val_main_v238, val_main_c_76, val_main_v239, val_main_v240, val_main_v241, val_main_c_77, val_main_v242, val_main_v243, val_main_c_78, val_main_v244, val_main_v245, val_main_v246, val_main_c_79, val_main_v247, val_main_v248, val_main_c_80, val_main_v249, val_main_v250, val_main_v251, val_main_c_81, val_main_v252, val_main_v253, val_main_c_82, val_main_v254, val_main_v255, val_main_v256, val_main_v257, val_main_v258, val_main_v259, val_main_v260, val_main_v261, val_main_v262, val_main_v263, val_main_cst_83, val_main_v264, val_main_v265, val_main_v266, val_main_v267, val_main_c_84, val_main_v268, val_main_v269, val_main_c_85, val_main_v270, val_main_v271, val_main_v272, val_main_c_86, val_main_v273, val_main_v274, val_main_c_87, val_main_v275, val_main_v276, val_main_v277, val_main_c_88, val_main_v278, val_main_v279, val_main_c_89, val_main_v280, val_main_v281, val_main_v282, val_main_c_90, val_main_v283, val_main_v284, val_main_c_91, val_main_v285, val_main_v286, val_main_v287, val_main_v288, val_main_v289, val_main_v290, val_main_v291, val_main_v292, val_main_v293, val_main_v294, val_main_v295, val_main_v296, val_main_v297, val_main_cst_92, val_main_v298, val_main_v299, val_main_v300, val_main_v301, val_main_v302, val_main_v303, val_main_v304, val_main_cst_93, val_main_v305, val_main_v306, val_main_v307, val_main_v308, val_main_v309, val_main_v310, val_main_v311, val_main_cst_94, val_main_v312, val_main_v313, val_main_v314, val_main_v315, val_main_v316, val_main_v317, val_main_v318]
    first
      | done
      | kernel_rfl
  have e_main_v21 : R (Proc.devRef .tc main_v21) = val_main_v21 (F := Ideal) (V (Proc.devRef .tc main_arg1)) := by
    simp only [hfix, h1, TRef.toBuf, TRef.ofBuf, cast_eq, val_main_cst, val_main_v0, val_main_v1, val_main_cst_0, val_main_v2, val_main_v3, val_main_v4, val_main_v5, val_main_cst_1, val_main_v6, val_main_v7, val_main_cst_2, val_main_v8, val_main_v9, val_main_cst_3, val_main_v10, val_main_v11, val_main_v12, val_main_v13, val_main_cst_4, val_main_v14, val_main_v15, val_main_cst_5, val_main_v16, val_main_v17, val_main_cst_6, val_main_v18, val_main_v19, val_main_v20, val_main_v21, val_main_cst_7, val_main_v22, val_main_v23, val_main_cst_8, val_main_v24, val_main_v25, val_main_cst_9, val_main_v26, val_main_v27, val_main_v28, val_main_v29, val_main_v30, val_main_v31, val_main_v32, val_main_v33, val_main_v34, val_main_v35, val_main_v36, val_main_v37, val_main_c, val_main_c_10, val_main_call0_v0, val_main_call0_v1, val_main_call0_v2, val_main_call0_v3, val_main_call0_v4, val_main_v38, val_main_c_11, val_main_v39, val_main_v40, val_main_c_12, val_main_c_13, val_main_call1_v0, val_main_call1_v1, val_main_call1_v2, val_main_call1_v3, val_main_call1_v4, val_main_v41, val_main_v42, val_main_c_14, val_main_c_15, val_main_call2_v0, val_main_call2_v1, val_main_call2_v2, val_main_call2_v3, val_main_call2_v4, val_main_v43, val_main_c_16, val_main_v44, val_main_v45, val_main_c_17, val_main_c_18, val_main_call3_v0, val_main_call3_v1, val_main_call3_v2, val_main_call3_v3, val_main_call3_v4, val_main_v46, val_main_v47, val_main_c_19, val_main_c_20, val_main_call4_v0, val_main_call4_v1, val_main_call4_v2, val_main_call4_v3, val_main_call4_v4, val_main_v48, val_main_c_21, val_main_v49, val_main_v50, val_main_c_22, val_main_c_23, val_main_call5_v0, val_main_call5_v1, val_main_call5_v2, val_main_call5_v3, val_main_call5_v4, val_main_v51, val_main_v52, val_main_v53, val_main_c_24, val_main_v54, val_main_v55, val_main_c_25, val_main_v56, val_main_v57, val_main_v58, val_main_c_26, val_main_v59, val_main_v60, val_main_c_27, val_main_v61, val_main_v62, val_main_v63, val_main_c_28, val_main_v64, val_main_v65, val_main_c_29, val_main_v66, val_main_v67, val_main_v68, val_main_c_30, val_main_v69, val_main_v70, val_main_c_31, val_main_v71, val_main_v72, val_main_v73, val_main_v74, val_main_v75, val_main_v76, val_main_v77, val_main_v78, val_main_v79, val_main_v80, val_main_cst_32, val_main_v81, val_main_v82, val_main_v83, val_main_v84, val_main_c_33, val_main_v85, val_main_v86, val_main_c_34, val_main_v87, val_main_v88, val_main_v89, val_main_c_35, val_main_v90, val_main_v91, val_main_c_36, val_main_v92, val_main_v93, val_main_v94, val_main_c_37, val_main_v95, val_main_v96, val_main_c_38, val_main_v97, val_main_v98, val_main_v99, val_main_c_39, val_main_v100, val_main_v101, val_main_c_40, val_main_v102, val_main_v103, val_main_v104, val_main_v105, val_main_v106, val_main_v107, val_main_v108, val_main_v109, val_main_v110, val_main_v111, val_main_v112, val_main_v113, val_main_v114, val_main_c_41, val_main_v115, val_main_v116, val_main_c_42, val_main_v117, val_main_v118, val_main_v119, val_main_c_43, val_main_v120, val_main_v121, val_main_c_44, val_main_v122, val_main_v123, val_main_v124, val_main_c_45, val_main_v125, val_main_v126, val_main_c_46, val_main_v127, val_main_v128, val_main_v129, val_main_c_47, val_main_v130, val_main_v131, val_main_c_48, val_main_v132, val_main_v133, val_main_v134, val_main_v135, val_main_v136, val_main_v137, val_main_v138, val_main_v139, val_main_v140, val_main_v141, val_main_cst_49, val_main_v142, val_main_v143, val_main_v144, val_main_v145, val_main_c_50, val_main_v146, val_main_v147, val_main_c_51, val_main_v148, val_main_v149, val_main_v150, val_main_c_52, val_main_v151, val_main_v152, val_main_c_53, val_main_v153, val_main_v154, val_main_v155, val_main_c_54, val_main_v156, val_main_v157, val_main_c_55, val_main_v158, val_main_v159, val_main_v160, val_main_c_56, val_main_v161, val_main_v162, val_main_c_57, val_main_v163, val_main_v164, val_main_v165, val_main_v166, val_main_v167, val_main_v168, val_main_v169, val_main_v170, val_main_v171, val_main_v172, val_main_v173, val_main_v174, val_main_v175, val_main_c_58, val_main_v176, val_main_v177, val_main_c_59, val_main_v178, val_main_v179, val_main_v180, val_main_c_60, val_main_v181, val_main_v182, val_main_c_61, val_main_v183, val_main_v184, val_main_v185, val_main_c_62, val_main_v186, val_main_v187, val_main_c_63, val_main_v188, val_main_v189, val_main_v190, val_main_c_64, val_main_v191, val_main_v192, val_main_c_65, val_main_v193, val_main_v194, val_main_v195, val_main_v196, val_main_v197, val_main_v198, val_main_v199, val_main_v200, val_main_v201, val_main_v202, val_main_cst_66, val_main_v203, val_main_v204, val_main_v205, val_main_v206, val_main_c_67, val_main_v207, val_main_v208, val_main_c_68, val_main_v209, val_main_v210, val_main_v211, val_main_c_69, val_main_v212, val_main_v213, val_main_c_70, val_main_v214, val_main_v215, val_main_v216, val_main_c_71, val_main_v217, val_main_v218, val_main_c_72, val_main_v219, val_main_v220, val_main_v221, val_main_c_73, val_main_v222, val_main_v223, val_main_c_74, val_main_v224, val_main_v225, val_main_v226, val_main_v227, val_main_v228, val_main_v229, val_main_v230, val_main_v231, val_main_v232, val_main_v233, val_main_v234, val_main_v235, val_main_v236, val_main_c_75, val_main_v237, val_main_v238, val_main_c_76, val_main_v239, val_main_v240, val_main_v241, val_main_c_77, val_main_v242, val_main_v243, val_main_c_78, val_main_v244, val_main_v245, val_main_v246, val_main_c_79, val_main_v247, val_main_v248, val_main_c_80, val_main_v249, val_main_v250, val_main_v251, val_main_c_81, val_main_v252, val_main_v253, val_main_c_82, val_main_v254, val_main_v255, val_main_v256, val_main_v257, val_main_v258, val_main_v259, val_main_v260, val_main_v261, val_main_v262, val_main_v263, val_main_cst_83, val_main_v264, val_main_v265, val_main_v266, val_main_v267, val_main_c_84, val_main_v268, val_main_v269, val_main_c_85, val_main_v270, val_main_v271, val_main_v272, val_main_c_86, val_main_v273, val_main_v274, val_main_c_87, val_main_v275, val_main_v276, val_main_v277, val_main_c_88, val_main_v278, val_main_v279, val_main_c_89, val_main_v280, val_main_v281, val_main_v282, val_main_c_90, val_main_v283, val_main_v284, val_main_c_91, val_main_v285, val_main_v286, val_main_v287, val_main_v288, val_main_v289, val_main_v290, val_main_v291, val_main_v292, val_main_v293, val_main_v294, val_main_v295, val_main_v296, val_main_v297, val_main_cst_92, val_main_v298, val_main_v299, val_main_v300, val_main_v301, val_main_v302, val_main_v303, val_main_v304, val_main_cst_93, val_main_v305, val_main_v306, val_main_v307, val_main_v308, val_main_v309, val_main_v310, val_main_v311, val_main_cst_94, val_main_v312, val_main_v313, val_main_v314, val_main_v315, val_main_v316, val_main_v317, val_main_v318]
    first
      | done
      | kernel_rfl
  -- the operands of the eight four-piece concatenations (the index columns of the eight gathers)
  have eops : (R (Proc.devRef .tc main_v75) = val_main_v75 (F := Ideal))
      ∧ (R (Proc.devRef .tc main_v76) = val_main_v76 (F := Ideal) (V (Proc.devRef .tc main_arg1)))
      ∧ (R (Proc.devRef .tc main_v77) = val_main_v77 (F := Ideal) (V (Proc.devRef .tc main_arg1)))
      ∧ (R (Proc.devRef .tc main_v78) = val_main_v78 (F := Ideal) (V (Proc.devRef .tc main_arg1)))
      ∧ (R (Proc.devRef .tc main_v106) = val_main_v106 (F := Ideal))
      ∧ (R (Proc.devRef .tc main_v107) = val_main_v107 (F := Ideal) (V (Proc.devRef .tc main_arg1)))
      ∧ (R (Proc.devRef .tc main_v108) = val_main_v108 (F := Ideal) (V (Proc.devRef .tc main_arg1)))
      ∧ (R (Proc.devRef .tc main_v109) = val_main_v109 (F := Ideal) (V (Proc.devRef .tc main_arg1)))
      ∧ (R (Proc.devRef .tc main_v136) = val_main_v136 (F := Ideal))
      ∧ (R (Proc.devRef .tc main_v137) = val_main_v137 (F := Ideal) (V (Proc.devRef .tc main_arg1)))
      ∧ (R (Proc.devRef .tc main_v138) = val_main_v138 (F := Ideal) (V (Proc.devRef .tc main_arg1)))
      ∧ (R (Proc.devRef .tc main_v139) = val_main_v139 (F := Ideal) (V (Proc.devRef .tc main_arg1)))
      ∧ (R (Proc.devRef .tc main_v167) = val_main_v167 (F := Ideal))
      ∧ (R (Proc.devRef .tc main_v168) = val_main_v168 (F := Ideal) (V (Proc.devRef .tc main_arg1)))
      ∧ (R (Proc.devRef .tc main_v169) = val_main_v169 (F := Ideal) (V (Proc.devRef .tc main_arg1)))
      ∧ (R (Proc.devRef .tc main_v170) = val_main_v170 (F := Ideal) (V (Proc.devRef .tc main_arg1)))
      ∧ (R (Proc.devRef .tc main_v197) = val_main_v197 (F := Ideal))
      ∧ (R (Proc.devRef .tc main_v198) = val_main_v198 (F := Ideal) (V (Proc.devRef .tc main_arg1)))
      ∧ (R (Proc.devRef .tc main_v199) = val_main_v199 (F := Ideal) (V (Proc.devRef .tc main_arg1)))
      ∧ (R (Proc.devRef .tc main_v200) = val_main_v200 (F := Ideal) (V (Proc.devRef .tc main_arg1)))
      ∧ (R (Proc.devRef .tc main_v228) = val_main_v228 (F := Ideal))
      ∧ (R (Proc.devRef .tc main_v229) = val_main_v229 (F := Ideal) (V (Proc.devRef .tc main_arg1)))
      ∧ (R (Proc.devRef .tc main_v230) = val_main_v230 (F := Ideal) (V (Proc.devRef .tc main_arg1)))
      ∧ (R (Proc.devRef .tc main_v231) = val_main_v231 (F := Ideal) (V (Proc.devRef .tc main_arg1)))
      ∧ (R (Proc.devRef .tc main_v258) = val_main_v258 (F := Ideal))
      ∧ (R (Proc.devRef .tc main_v259) = val_main_v259 (F := Ideal) (V (Proc.devRef .tc main_arg1)))
      ∧ (R (Proc.devRef .tc main_v260) = val_main_v260 (F := Ideal) (V (Proc.devRef .tc main_arg1)))
      ∧ (R (Proc.devRef .tc main_v261) = val_main_v261 (F := Ideal) (V (Proc.devRef .tc main_arg1)))
      ∧ (R (Proc.devRef .tc main_v289) = val_main_v289 (F := Ideal))
      ∧ (R (Proc.devRef .tc main_v290) = val_main_v290 (F := Ideal) (V (Proc.devRef .tc main_arg1)))
      ∧ (R (Proc.devRef .tc main_v291) = val_main_v291 (F := Ideal) (V (Proc.devRef .tc main_arg1)))
      ∧ (R (Proc.devRef .tc main_v292) = val_main_v292 (F := Ideal) (V (Proc.devRef .tc main_arg1))) := by
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
      (simp only [↓e_main_v5, ↓e_main_v13, ↓e_main_v21, hfix, h1, TRef.toBuf, TRef.ofBuf, cast_eq, val_main_cst, val_main_v0, val_main_v1, val_main_cst_0, val_main_v2, val_main_v3, val_main_v4, val_main_cst_1, val_main_v6, val_main_v7, val_main_cst_2, val_main_v8, val_main_v9, val_main_cst_3, val_main_v10, val_main_v11, val_main_v12, val_main_cst_4, val_main_v14, val_main_v15, val_main_cst_5, val_main_v16, val_main_v17, val_main_cst_6, val_main_v18, val_main_v19, val_main_v20, val_main_cst_7, val_main_v22, val_main_v23, val_main_cst_8, val_main_v24, val_main_v25, val_main_cst_9, val_main_v26, val_main_v27, val_main_v28, val_main_v29, val_main_v30, val_main_v31, val_main_v32, val_main_v33, val_main_v34, val_main_v35, val_main_v36, val_main_v37, val_main_c, val_main_c_10, val_main_call0_v0, val_main_call0_v1, val_main_call0_v2, val_main_call0_v3, val_main_call0_v4, val_main_v38, val_main_c_11, val_main_v39, val_main_v40, val_main_c_12, val_main_c_13, val_main_call1_v0, val_main_call1_v1, val_main_call1_v2, val_main_call1_v3, val_main_call1_v4, val_main_v41, val_main_v42, val_main_c_14, val_main_c_15, val_main_call2_v0, val_main_call2_v1, val_main_call2_v2, val_main_call2_v3, val_main_call2_v4, val_main_v43, val_main_c_16, val_main_v44, val_main_v45, val_main_c_17, val_main_c_18, val_main_call3_v0, val_main_call3_v1, val_main_call3_v2, val_main_call3_v3, val_main_call3_v4, val_main_v46, val_main_v47, val_main_c_19, val_main_c_20, val_main_call4_v0, val_main_call4_v1, val_main_call4_v2, val_main_call4_v3, val_main_call4_v4, val_main_v48, val_main_c_21, val_main_v49, val_main_v50, val_main_c_22, val_main_c_23, val_main_call5_v0, val_main_call5_v1, val_main_call5_v2, val_main_call5_v3, val_main_call5_v4, val_main_v51, val_main_v52, val_main_v53, val_main_c_24, val_main_v54, val_main_v55, val_main_c_25, val_main_v56, val_main_v57, val_main_v58, val_main_c_26, val_main_v59, val_main_v60, val_main_c_27, val_main_v61, val_main_v62, val_main_v63, val_main_c_28, val_main_v64, val_main_v65, val_main_c_29, val_main_v66, val_main_v67, val_main_v68, val_main_c_30, val_main_v69, val_main_v70, val_main_c_31, val_main_v71, val_main_v72, val_main_v73, val_main_v74, val_main_v75, val_main_v76, val_main_v77, val_main_v78, val_main_v79, val_main_v80, val_main_cst_32, val_main_v81, val_main_v82, val_main_v83, val_main_v84, val_main_c_33, val_main_v85, val_main_v86, val_main_c_34, val_main_v87, val_main_v88, val_main_v89, val_main_c_35, val_main_v90, val_main_v91, val_main_c_36, val_main_v92, val_main_v93, val_main_v94, val_main_c_37, val_main_v95, val_main_v96, val_main_c_38, val_main_v97, val_main_v98, val_main_v99, val_main_c_39, val_main_v100, val_main_v101, val_main_c_40, val_main_v102, val_main_v103, val_main_v104, val_main_v105, val_main_v106, val_main_v107, val_main_v108, val_main_v109, val_main_v110, val_main_v111, val_main_v112, val_main_v113, val_main_v114, val_main_c_41, val_main_v115, val_main_v116, val_main_c_42, val_main_v117, val_main_v118, val_main_v119, val_main_c_43, val_main_v120, val_main_v121, val_main_c_44, val_main_v122, val_main_v123, val_main_v124, val_main_c_45, val_main_v125, val_main_v126, val_main_c_46, val_main_v127, val_main_v128, val_main_v129, val_main_c_47, val_main_v130, val_main_v131, val_main_c_48, val_main_v132, val_main_v133, val_main_v134, val_main_v135, val_main_v136, val_main_v137, val_main_v138, val_main_v139, val_main_v140, val_main_v141, val_main_cst_49, val_main_v142, val_main_v143, val_main_v144, val_main_v145, val_main_c_50, val_main_v146, val_main_v147, val_main_c_51, val_main_v148, val_main_v149, val_main_v150, val_main_c_52, val_main_v151, val_main_v152, val_main_c_53, val_main_v153, val_main_v154, val_main_v155, val_main_c_54, val_main_v156, val_main_v157, val_main_c_55, val_main_v158, val_main_v159, val_main_v160, val_main_c_56, val_main_v161, val_main_v162, val_main_c_57, val_main_v163, val_main_v164, val_main_v165, val_main_v166, val_main_v167, val_main_v168, val_main_v169, val_main_v170, val_main_v171, val_main_v172, val_main_v173, val_main_v174, val_main_v175, val_main_c_58, val_main_v176, val_main_v177, val_main_c_59, val_main_v178, val_main_v179, val_main_v180, val_main_c_60, val_main_v181, val_main_v182, val_main_c_61, val_main_v183, val_main_v184, val_main_v185, val_main_c_62, val_main_v186, val_main_v187, val_main_c_63, val_main_v188, val_main_v189, val_main_v190, val_main_c_64, val_main_v191, val_main_v192, val_main_c_65, val_main_v193, val_main_v194, val_main_v195, val_main_v196, val_main_v197, val_main_v198, val_main_v199, val_main_v200, val_main_v201, val_main_v202, val_main_cst_66, val_main_v203, val_main_v204, val_main_v205, val_main_v206, val_main_c_67, val_main_v207, val_main_v208, val_main_c_68, val_main_v209, val_main_v210, val_main_v211, val_main_c_69, val_main_v212, val_main_v213, val_main_c_70, val_main_v214, val_main_v215, val_main_v216, val_main_c_71, val_main_v217, val_main_v218, val_main_c_72, val_main_v219, val_main_v220, val_main_v221, val_main_c_73, val_main_v222, val_main_v223, val_main_c_74, val_main_v224, val_main_v225, val_main_v226, val_main_v227, val_main_v228, val_main_v229, val_main_v230, val_main_v231, val_main_v232, val_main_v233, val_main_v234, val_main_v235, val_main_v236, val_main_c_75, val_main_v237, val_main_v238, val_main_c_76, val_main_v239, val_main_v240, val_main_v241, val_main_c_77, val_main_v242, val_main_v243, val_main_c_78, val_main_v244, val_main_v245, val_main_v246, val_main_c_79, val_main_v247, val_main_v248, val_main_c_80, val_main_v249, val_main_v250, val_main_v251, val_main_c_81, val_main_v252, val_main_v253, val_main_c_82, val_main_v254, val_main_v255, val_main_v256, val_main_v257, val_main_v258, val_main_v259, val_main_v260, val_main_v261, val_main_v262, val_main_v263, val_main_cst_83, val_main_v264, val_main_v265, val_main_v266, val_main_v267, val_main_c_84, val_main_v268, val_main_v269, val_main_c_85, val_main_v270, val_main_v271, val_main_v272, val_main_c_86, val_main_v273, val_main_v274, val_main_c_87, val_main_v275, val_main_v276, val_main_v277, val_main_c_88, val_main_v278, val_main_v279, val_main_c_89, val_main_v280, val_main_v281, val_main_v282, val_main_c_90, val_main_v283, val_main_v284, val_main_c_91, val_main_v285, val_main_v286, val_main_v287, val_main_v288, val_main_v289, val_main_v290, val_main_v291, val_main_v292, val_main_v293, val_main_v294, val_main_v295, val_main_v296, val_main_v297, val_main_cst_92, val_main_v298, val_main_v299, val_main_v300, val_main_v301, val_main_v302, val_main_v303, val_main_v304, val_main_cst_93, val_main_v305, val_main_v306, val_main_v307, val_main_v308, val_main_v309, val_main_v310, val_main_v311, val_main_cst_94, val_main_v312, val_main_v313, val_main_v314, val_main_v315, val_main_v316, val_main_v317, val_main_v318]
       first
         | done
         | kernel_rfl)
  obtain ⟨o_main_v75, o_main_v76, o_main_v77, o_main_v78, o_main_v106, o_main_v107, o_main_v108, o_main_v109, o_main_v136, o_main_v137, o_main_v138, o_main_v139, o_main_v167, o_main_v168, o_main_v169, o_main_v170, o_main_v197, o_main_v198, o_main_v199, o_main_v200, o_main_v228, o_main_v229, o_main_v230, o_main_v231, o_main_v258, o_main_v259, o_main_v260, o_main_v261, o_main_v289, o_main_v290, o_main_v291, o_main_v292⟩ := eops
  -- the eight gathers
  have g_main_v80 : R (Proc.devRef .tc main_v80) = val_main_v80 (F := Ideal) (V (Proc.devRef .tc main_arg0)) (V (Proc.devRef .tc main_arg1)) := by
    simp only [hfix, h0, val_main_v80, val_main_v79]
    rw [o_main_v75, o_main_v76, o_main_v77, o_main_v78]
    first
      | done
      | kernel_rfl
  have g_main_v111 : R (Proc.devRef .tc main_v111) = val_main_v111 (F := Ideal) (V (Proc.devRef .tc main_arg0)) (V (Proc.devRef .tc main_arg1)) := by
    simp only [hfix, h0, val_main_v111, val_main_v110]
    rw [o_main_v106, o_main_v107, o_main_v108, o_main_v109]
    first
      | done
      | kernel_rfl
  have g_main_v141 : R (Proc.devRef .tc main_v141) = val_main_v141 (F := Ideal) (V (Proc.devRef .tc main_arg0)) (V (Proc.devRef .tc main_arg1)) := by
    simp only [hfix, h0, val_main_v141, val_main_v140]
    rw [o_main_v136, o_main_v137, o_main_v138, o_main_v139]
    first
      | done
      | kernel_rfl
  have g_main_v172 : R (Proc.devRef .tc main_v172) = val_main_v172 (F := Ideal) (V (Proc.devRef .tc main_arg0)) (V (Proc.devRef .tc main_arg1)) := by
    simp only [hfix, h0, val_main_v172, val_main_v171]
    rw [o_main_v167, o_main_v168, o_main_v169, o_main_v170]
    first
      | done
      | kernel_rfl
  have g_main_v202 : R (Proc.devRef .tc main_v202) = val_main_v202 (F := Ideal) (V (Proc.devRef .tc main_arg0)) (V (Proc.devRef .tc main_arg1)) := by
    simp only [hfix, h0, val_main_v202, val_main_v201]
    rw [o_main_v197, o_main_v198, o_main_v199, o_main_v200]
    first
      | done
      | kernel_rfl
  have g_main_v233 : R (Proc.devRef .tc main_v233) = val_main_v233 (F := Ideal) (V (Proc.devRef .tc main_arg0)) (V (Proc.devRef .tc main_arg1)) := by
    simp only [hfix, h0, val_main_v233, val_main_v232]
    rw [o_main_v228, o_main_v229, o_main_v230, o_main_v231]
    first
      | done
      | kernel_rfl
  have g_main_v263 : R (Proc.devRef .tc main_v263) = val_main_v263 (F := Ideal) (V (Proc.devRef .tc main_arg0)) (V (Proc.devRef .tc main_arg1)) := by
    simp only [hfix, h0, val_main_v263, val_main_v262]
    rw [o_main_v258, o_main_v259, o_main_v260, o_main_v261]
    first
      | done
      | kernel_rfl
  have g_main_v294 : R (Proc.devRef .tc main_v294) = val_main_v294 (F := Ideal) (V (Proc.devRef .tc main_arg0)) (V (Proc.devRef .tc main_arg1)) := by
    simp only [hfix, h0, val_main_v294, val_main_v293]
    rw [o_main_v289, o_main_v290, o_main_v291, o_main_v292]
    first
      | done
      | kernel_rfl
  -- the sampled channels
  have e318 : R (Proc.devRef .tc main_v318) = val_main_v318 (F := Ideal) (V (Proc.devRef .tc main_arg0)) (V (Proc.devRef .tc main_arg1)) := by
    simp only [↓g_main_v80, ↓g_main_v111, ↓g_main_v141, ↓g_main_v172, ↓g_main_v202, ↓g_main_v233, ↓g_main_v263, ↓g_main_v294, ↓e_main_v5, ↓e_main_v13, ↓e_main_v21, hfix, h0, h1, TRef.toBuf, TRef.ofBuf, cast_eq, val_main_cst, val_main_v0, val_main_v1, val_main_cst_0, val_main_v2, val_main_v3, val_main_v4, val_main_cst_1, val_main_v6, val_main_v7, val_main_cst_2, val_main_v8, val_main_v9, val_main_cst_3, val_main_v10, val_main_v11, val_main_v12, val_main_cst_4, val_main_v14, val_main_v15, val_main_cst_5, val_main_v16, val_main_v17, val_main_cst_6, val_main_v18, val_main_v19, val_main_v20, val_main_cst_7, val_main_v22, val_main_v23, val_main_cst_8, val_main_v24, val_main_v25, val_main_cst_9, val_main_v26, val_main_v27, val_main_v28, val_main_v29, val_main_v30, val_main_v31, val_main_v32, val_main_v33, val_main_v34, val_main_v35, val_main_v36, val_main_v37, val_main_c, val_main_c_10, val_main_call0_v0, val_main_call0_v1, val_main_call0_v2, val_main_call0_v3, val_main_call0_v4, val_main_v38, val_main_c_11, val_main_v39, val_main_v40, val_main_c_12, val_main_c_13, val_main_call1_v0, val_main_call1_v1, val_main_call1_v2, val_main_call1_v3, val_main_call1_v4, val_main_v41, val_main_v42, val_main_c_14, val_main_c_15, val_main_call2_v0, val_main_call2_v1, val_main_call2_v2, val_main_call2_v3, val_main_call2_v4, val_main_v43, val_main_c_16, val_main_v44, val_main_v45, val_main_c_17, val_main_c_18, val_main_call3_v0, val_main_call3_v1, val_main_call3_v2, val_main_call3_v3, val_main_call3_v4, val_main_v46, val_main_v47, val_main_c_19, val_main_c_20, val_main_call4_v0, val_main_call4_v1, val_main_call4_v2, val_main_call4_v3, val_main_call4_v4, val_main_v48, val_main_c_21, val_main_v49, val_main_v50, val_main_c_22, val_main_c_23, val_main_call5_v0, val_main_call5_v1, val_main_call5_v2, val_main_call5_v3, val_main_call5_v4, val_main_v51, val_main_v52, val_main_v53, val_main_c_24, val_main_v54, val_main_v55, val_main_c_25, val_main_v56, val_main_v57, val_main_v58, val_main_c_26, val_main_v59, val_main_v60, val_main_c_27, val_main_v61, val_main_v62, val_main_v63, val_main_c_28, val_main_v64, val_main_v65, val_main_c_29, val_main_v66, val_main_v67, val_main_v68, val_main_c_30, val_main_v69, val_main_v70, val_main_c_31, val_main_v71, val_main_v72, val_main_v73, val_main_v74, val_main_cst_32, val_main_v81, val_main_v82, val_main_v83, val_main_v84, val_main_c_33, val_main_v85, val_main_v86, val_main_c_34, val_main_v87, val_main_v88, val_main_v89, val_main_c_35, val_main_v90, val_main_v91, val_main_c_36, val_main_v92, val_main_v93, val_main_v94, val_main_c_37, val_main_v95, val_main_v96, val_main_c_38, val_main_v97, val_main_v98, val_main_v99, val_main_c_39, val_main_v100, val_main_v101, val_main_c_40, val_main_v102, val_main_v103, val_main_v104, val_main_v105, val_main_v112, val_main_v113, val_main_v114, val_main_c_41, val_main_v115, val_main_v116, val_main_c_42, val_main_v117, val_main_v118, val_main_v119, val_main_c_43, val_main_v120, val_main_v121, val_main_c_44, val_main_v122, val_main_v123, val_main_v124, val_main_c_45, val_main_v125, val_main_v126, val_main_c_46, val_main_v127, val_main_v128, val_main_v129, val_main_c_47, val_main_v130, val_main_v131, val_main_c_48, val_main_v132, val_main_v133, val_main_v134, val_main_v135, val_main_cst_49, val_main_v142, val_main_v143, val_main_v144, val_main_v145, val_main_c_50, val_main_v146, val_main_v147, val_main_c_51, val_main_v148, val_main_v149, val_main_v150, val_main_c_52, val_main_v151, val_main_v152, val_main_c_53, val_main_v153, val_main_v154, val_main_v155, val_main_c_54, val_main_v156, val_main_v157, val_main_c_55, val_main_v158, val_main_v159, val_main_v160, val_main_c_56, val_main_v161, val_main_v162, val_main_c_57, val_main_v163, val_main_v164, val_main_v165, val_main_v166, val_main_v173, val_main_v174, val_main_v175, val_main_c_58, val_main_v176, val_main_v177, val_main_c_59, val_main_v178, val_main_v179, val_main_v180, val_main_c_60, val_main_v181, val_main_v182, val_main_c_61, val_main_v183, val_main_v184, val_main_v185, val_main_c_62, val_main_v186, val_main_v187, val_main_c_63, val_main_v188, val_main_v189, val_main_v190, val_main_c_64, val_main_v191, val_main_v192, val_main_c_65, val_main_v193, val_main_v194, val_main_v195, val_main_v196, val_main_cst_66, val_main_v203, val_main_v204, val_main_v205, val_main_v206, val_main_c_67, val_main_v207, val_main_v208, val_main_c_68, val_main_v209, val_main_v210, val_main_v211, val_main_c_69, val_main_v212, val_main_v213, val_main_c_70, val_main_v214, val_main_v215, val_main_v216, val_main_c_71, val_main_v217, val_main_v218, val_main_c_72, val_main_v219, val_main_v220, val_main_v221, val_main_c_73, val_main_v222, val_main_v223, val_main_c_74, val_main_v224, val_main_v225, val_main_v226, val_main_v227, val_main_v234, val_main_v235, val_main_v236, val_main_c_75, val_main_v237, val_main_v238, val_main_c_76, val_main_v239, val_main_v240, val_main_v241, val_main_c_77, val_main_v242, val_main_v243, val_main_c_78, val_main_v244, val_main_v245, val_main_v246, val_main_c_79, val_main_v247, val_main_v248, val_main_c_80, val_main_v249, val_main_v250, val_main_v251, val_main_c_81, val_main_v252, val_main_v253, val_main_c_82, val_main_v254, val_main_v255, val_main_v256, val_main_v257, val_main_cst_83, val_main_v264, val_main_v265, val_main_v266, val_main_v267, val_main_c_84, val_main_v268, val_main_v269, val_main_c_85, val_main_v270, val_main_v271, val_main_v272, val_main_c_86, val_main_v273, val_main_v274, val_main_c_87, val_main_v275, val_main_v276, val_main_v277, val_main_c_88, val_main_v278, val_main_v279, val_main_c_89, val_main_v280, val_main_v281, val_main_v282, val_main_c_90, val_main_v283, val_main_v284, val_main_c_91, val_main_v285, val_main_v286, val_main_v287, val_main_v288, val_main_v295, val_main_v296, val_main_v297, val_main_cst_92, val_main_v298, val_main_v299, val_main_v300, val_main_v301, val_main_v302, val_main_v303, val_main_v304, val_main_cst_93, val_main_v305, val_main_v306, val_main_v307, val_main_v308, val_main_v309, val_main_v310, val_main_v311, val_main_cst_94, val_main_v312, val_main_v313, val_main_v314, val_main_v315, val_main_v316, val_main_v317, val_main_v318]
    first
      | done
      | kernel_rfl
  -- the three layers above the join
  simp only [hfix, h2, h3, h4, h5, h6, h7, TRef.toBuf, TRef.ofBuf, cast_eq, val_main_v319, val_main_v320, val_main_v321, val_main_v322, val_main_v323, val_main_call6_cst, val_main_call6_v0, val_main_v324, val_main_v325, val_main_v326, val_main_v327, val_main_v328, val_main_call7_cst, val_main_call7_v0, val_main_v329, val_main_v330, val_main_v331, val_main_v332, val_main_v333]
  rw [h1, e318]
  first
    | done
    | kernel_rfl

/-! ## The run -/

set_option maxHeartbeats 40000000 in
set_option maxRecDepth 65536 in
/-- No operation of the line allocates a buffer. -/
theorem ops_fresh : (ops (F := Ideal)).Forall fun op => op.fresh = ∅ := by
  simp only [ops, List.Forall]; repeat' constructor

/-- Given the read of the result buffer (`hres`): on every device, from any memory with zero counters: every weakly fair execution of the reference terminates with its
    result at the last stage of the reference read one operation at a time, of the arguments as launched, and with the
    eight arguments unchanged. -/
theorem run_of_result
    (hres : ∀ V : Valuation τ sig (Elt Ideal), after (ops (F := Ideal)) V (Proc.devRef .tc main_v333)
      = val_main_v333 (F := Ideal) (V (Proc.devRef .tc main_arg0)) (V (Proc.devRef .tc main_arg1))
          (V (Proc.devRef .tc main_arg2)) (V (Proc.devRef .tc main_arg3)) (V (Proc.devRef .tc main_arg4))
          (V (Proc.devRef .tc main_arg5)) (V (Proc.devRef .tc main_arg6)) (V (Proc.devRef .tc main_arg7)))
    (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v333)
          = val_main_v333 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_arg1).trans (after_unwritten ops (launchContents m c) (Proc.devRef .tc main_arg1) (unwritten_of_le _ (by decide))),
        (h c main_v333).trans (hres (launchContents m c)),
        (h c main_arg0).trans (after_unwritten ops (launchContents m c) (Proc.devRef .tc main_arg0) (unwritten_of_le _ (by decide))),
        (h c main_arg1).trans (after_unwritten ops (launchContents m c) (Proc.devRef .tc main_arg1) (unwritten_of_le _ (by decide))),
        (h c main_arg2).trans (after_unwritten ops (launchContents m c) (Proc.devRef .tc main_arg2) (unwritten_of_le _ (by decide))),
        (h c main_arg3).trans (after_unwritten ops (launchContents m c) (Proc.devRef .tc main_arg3) (unwritten_of_le _ (by decide))),
        (h c main_arg4).trans (after_unwritten ops (launchContents m c) (Proc.devRef .tc main_arg4) (unwritten_of_le _ (by decide))),
        (h c main_arg5).trans (after_unwritten ops (launchContents m c) (Proc.devRef .tc main_arg5) (unwritten_of_le _ (by decide))),
        (h c main_arg6).trans (after_unwritten ops (launchContents m c) (Proc.devRef .tc main_arg6) (unwritten_of_le _ (by decide))),
        (h c main_arg7).trans (after_unwritten ops (launchContents m c) (Proc.devRef .tc main_arg7) (unwritten_of_le _ (by decide)))⟩)
    (run_seq scopedRefs_eq scopedSems_eq defs main (fun _ => ops) main_eq (fun _ => ops_sub) m ρ
      (fun _ op hop => (List.forall_iff_forall_mem.mp ops_fresh) op hop))

/-- The reference's run: on every device, from any memory with zero counters, every weakly fair execution terminates with
    the result buffer at the last stage of the reference, of the arguments as launched, and the eight arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v333)
          = val_main_v333 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run_of_result result_eq m ρ

end Cert.ReferenceIdeal.RunFast

end
-- ==== Proof.MlpSpec.lean ====
/-
  The three-layer perceptron of one sample, on the extended reals.

  A sample is a point (three coordinates) and a feature vector (thirty-two channels). The first layer has 128 units:
  unit h takes the point's coordinates against its three point weights, the channels against its thirty-two channel
  weights, adds its bias and keeps the positive part. The second layer has 128 units over the first layer's outputs, again
  with a bias and the positive part. The result is one number: the second layer's outputs against one weight row, plus a
  bias. Sums are over an additive commutative monoid, so how a sum is grouped or ordered never matters; nothing here asks
  the values to be finite.
-/
import Mathlib.Data.EReal.Basic
import Mathlib.Algebra.BigOperators.Fin

noncomputable section

namespace Cert.Mlp

open scoped BigOperators

/-- First layer, unit h: point part plus channel part plus bias, positive part. -/
def layer1 (pt : Fin 3 → EReal) (ft : Fin 32 → EReal) (A : Fin 3 → Fin 128 → EReal) (B : Fin 32 → Fin 128 → EReal)
    (b1 : Fin 128 → EReal) (h : Fin 128) : EReal :=
  max ((∑ d : Fin 3, pt d * A d h) + (∑ c : Fin 32, ft c * B c h) + b1 h) 0

/-- Second layer, unit g: the first layer's outputs against column g, plus bias, positive part. -/
def layer2 (u : Fin 128 → EReal) (W : Fin 128 → Fin 128 → EReal) (b2 : Fin 128 → EReal) (g : Fin 128) : EReal :=
  max ((∑ h : Fin 128, u h * W h g) + b2 g) 0

/-- The output: the second layer's outputs against the weight row, plus bias. -/
def out (v : Fin 128 → EReal) (w : Fin 128 → EReal) (b3 : EReal) : EReal :=
  (∑ g : Fin 128, v g * w g) + b3

/-- The perceptron of one sample: A d h and B c h are the first layer's weights of unit h for coordinate d and channel c,
    W h g the second layer's weight of unit g for input h, w g the output weight of input g. -/
def mlp (pt : Fin 3 → EReal) (ft : Fin 32 → EReal) (A : Fin 3 → Fin 128 → EReal) (B : Fin 32 → Fin 128 → EReal)
    (b1 : Fin 128 → EReal) (W : Fin 128 → Fin 128 → EReal) (b2 : Fin 128 → EReal) (w : Fin 128 → EReal) (b3 : EReal) : EReal :=
  out (layer2 (layer1 pt ft A B b1) W b2) w b3

end Cert.Mlp

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KernelRow.lean ====
/-
  The body's one payload read at a row, at the exact values.

  At the exact values every float is an extended real, a change of float format is the identity, and a matrix product
  into the zero splat is the plain sum of the products over the contracted axis. The body computes three layers for its
  8192 rows at once: the point block [8192, 3] against [3, 128] plus the channel block [8192, 32] against [32, 128] plus a
  [1, 128] bias row, positive part; that against [128, 128] plus a [1, 128] bias row, positive part; that against the
  [128, 1] weight column plus the [1, 1] bias. The casts of a shape to itself are the identity, so the payload is the
  composition of three vector functions (`pay_eq`); each of them read at row r is the matching layer of the perceptron
  over row r of its input (`hid1_apply`, `hid2_apply`, `outv_apply`); so the payload at (r, 0) is the perceptron of
  sample r (`pay_row`). Nothing here asks a value to be finite: sums and maxima of extended reals are total.
-/
import proofs.«114979_j32804960207257_2_alg».proof.Proof.Gen.KernelIdeal.Skeleton
import proofs.«114979_j32804960207257_2_alg».proof.Proof.MlpSpec
import proofs.«114979_j32804960207257_2_alg».proof.Proof.LibPlainDot
import proofs.«114979_j32804960207257_2_alg».proof.Proof.LibRowBroadcasts
import Idealize.ShloMosaic.Lib.ValueIdx
import Idealize.ShloMosaic.Lib.Pipeline.Value
import Idealize.ShloMosaic.PureOps.Ideal.Laws

noncomputable section

namespace Cert.KernelRow

open Idealize.ShloMosaic Idealize.ShloMosaic.ValueIdx Cert.KernelIdeal
open scoped BigOperators

/-! ## The three layers as vector functions, in the body's own operations -/

/-- The first layer over all rows: point product plus channel product plus bias row, positive part, narrowed. -/
def hid1 (x0 : FVec Ideal S8192x3 .bf16) (x1 : FVec Ideal S8192x32 .bf16) (x2 : FVec Ideal S3x128 .bf16)
    (x3 : FVec Ideal S32x128 .bf16) (x4 : FVec Ideal S1x128 .f32) : FVec Ideal S8192x128 .bf16 :=
  truncf .bf16
    (maximumf
      (addf
        (addf
          (matmul dot_S8192x3_S3x128_S8192x128_1_0_0_1_n_n none x0 x2 (constant S8192x128 .f32 0x00000000#32))
          (matmul dot_S8192x32_S32x128_S8192x128_1_0_0_1_n_n none x1 x3 (constant S8192x128 .f32 0x00000000#32)))
        (broadcastTo S8192x128 x4 Gen.broadcasts_S1x128_S8192x128))
      (broadcast S8192x128 (Scalar.ofBits .f32 0x00000000#32)))
    Gen.bitsLt_bf16_f32

/-- The second layer over all rows: the input block against the square weights plus bias row, positive part, narrowed. -/
def hid2 (u : FVec Ideal S8192x128 .bf16) (x5 : FVec Ideal S128x128 .bf16) (x6 : FVec Ideal S1x128 .f32) :
    FVec Ideal S8192x128 .bf16 :=
  truncf .bf16
    (maximumf
      (addf
        (matmul dot_S8192x128_S128x128_S8192x128_1_0_0_1_n_n none u x5 (constant S8192x128 .f32 0x00000000#32))
        (broadcastTo S8192x128 x6 Gen.broadcasts_S1x128_S8192x128))
      (broadcast S8192x128 (Scalar.ofBits .f32 0x00000000#32)))
    Gen.bitsLt_bf16_f32

/-- The output column over all rows: the input block against the weight column plus the one bias. -/
def outv (v : FVec Ideal S8192x128 .bf16) (x7 : FVec Ideal S128x1 .bf16) (x8 : FVec Ideal S1x1 .f32) :
    FVec Ideal S8192x1 .f32 :=
  addf (matmul dot_S8192x128_S128x1_S8192x1_1_0_0_1_n_n none v x7 (constant S8192x1 .f32 0x00000000#32))
    (broadcastTo S8192x1 x8 Gen.broadcasts_S1x1_S8192x1)

/-- The payload is the composition of the three layers: its four casts of a shape to itself are the identity. -/
theorem pay_eq (x0 : Vec Ideal S8192x3 .bf16) (x1 : Vec Ideal S8192x32 .bf16) (x2 : Vec Ideal S3x128 .bf16)
    (x3 : Vec Ideal S32x128 .bf16) (x4 : Vec Ideal S1x128 .f32) (x5 : Vec Ideal S128x128 .bf16)
    (x6 : Vec Ideal S1x128 .f32) (x7 : Vec Ideal S128x1 .bf16) (x8 : Vec Ideal S1x1 .f32) :
    Gen.k0_pay1 (F := Ideal) x0 x1 x2 x3 x4 x5 x6 x7 x8 = outv (hid2 (hid1 x0 x1 x2 x3 x4) x5 x6) x7 x8 := by
  unfold Gen.k0_pay1 outv hid2 hid1
  simp only [shapeCast_self]

/-! ## The non-pointwise operations read at an index -/

/-- The zero word of the wide format is the extended real zero. -/
theorem zero_word : (Scalar.ofBits .f32 0x00000000#32 : Ideal .f32) = 0 := Ideal.ofBits_zero_f32

/-- The point block against its weights, at (r, h): the sum over the three coordinates. -/
theorem mm_point (x0 : FVec Ideal S8192x3 .bf16) (x2 : FVec Ideal S3x128 .bf16) (r : Fin 8192) (h : Fin 128) :
    matmul dot_S8192x3_S3x128_S8192x128_1_0_0_1_n_n none x0 x2 (constant (F := Ideal) S8192x128 .f32 0x00000000#32) (ix2 r h)
      = ∑ d : Fin 3, x0 (ix2 r d) * x2 (ix2 d h) :=
  Cert.Lib.PlainDot.matmul_zero_apply Gen.dot_S8192x3_S3x128_S8192x128_1_0_0_1_n_n_wf none x0 x2 r h

/-- The channel block against its weights, at (r, h): the sum over the thirty-two channels. -/
theorem mm_channel (x1 : FVec Ideal S8192x32 .bf16) (x3 : FVec Ideal S32x128 .bf16) (r : Fin 8192) (h : Fin 128) :
    matmul dot_S8192x32_S32x128_S8192x128_1_0_0_1_n_n none x1 x3 (constant (F := Ideal) S8192x128 .f32 0x00000000#32) (ix2 r h)
      = ∑ c : Fin 32, x1 (ix2 r c) * x3 (ix2 c h) :=
  Cert.Lib.PlainDot.matmul_zero_apply Gen.dot_S8192x32_S32x128_S8192x128_1_0_0_1_n_n_wf none x1 x3 r h

/-- A [8192, 128] block against [128, 128] weights, at (r, g): the sum over the 128 inputs. -/
theorem mm_hidden (u : FVec Ideal S8192x128 .bf16) (x5 : FVec Ideal S128x128 .bf16) (r : Fin 8192) (g : Fin 128) :
    matmul dot_S8192x128_S128x128_S8192x128_1_0_0_1_n_n none u x5 (constant (F := Ideal) S8192x128 .f32 0x00000000#32) (ix2 r g)
      = ∑ h : Fin 128, u (ix2 r h) * x5 (ix2 h g) :=
  Cert.Lib.PlainDot.matmul_zero_apply Gen.dot_S8192x128_S128x128_S8192x128_1_0_0_1_n_n_wf none u x5 r g

/-- A [8192, 128] block against the [128, 1] weight column, at (r, 0): the sum over the 128 inputs. -/
theorem mm_out (v : FVec Ideal S8192x128 .bf16) (x7 : FVec Ideal S128x1 .bf16) (r : Fin 8192) (q : Fin 1) :
    matmul dot_S8192x128_S128x1_S8192x1_1_0_0_1_n_n none v x7 (constant (F := Ideal) S8192x1 .f32 0x00000000#32) (ix2 r q)
      = ∑ g : Fin 128, v (ix2 r g) * x7 (ix2 g q) :=
  Cert.Lib.PlainDot.matmul_zero_apply Gen.dot_S8192x128_S128x1_S8192x1_1_0_0_1_n_n_wf none v x7 r q

/-- A [1, 128] bias row broadcast down the 8192 rows reads, at (r, h), the row at h. -/
theorem bias_row (b : FVec Ideal S1x128 .f32) (r : Fin 8192) (h : Fin 128) :
    broadcastTo S8192x128 b Gen.broadcasts_S1x128_S8192x128 (ix2 r h) = b (ix2 (0 : Fin 1) h) :=
  Cert.Lib.Rows.bcastRow_apply b Gen.broadcasts_S1x128_S8192x128 r h

/-- The [1, 1] bias broadcast down the 8192 rows reads, at (r, q), its one entry. -/
theorem bias_one (b : FVec Ideal S1x1 .f32) (r : Fin 8192) (q : Fin 1) :
    broadcastTo S8192x1 b Gen.broadcasts_S1x1_S8192x1 (ix2 r q) = b (ix2 (0 : Fin 1) q) :=
  Cert.Lib.Rows.bcastRow_apply b Gen.broadcasts_S1x1_S8192x1 r q

/-- The first layer at (r, h) is unit h of the first layer of sample r. -/
theorem hid1_apply (x0 : FVec Ideal S8192x3 .bf16) (x1 : FVec Ideal S8192x32 .bf16) (x2 : FVec Ideal S3x128 .bf16)
    (x3 : FVec Ideal S32x128 .bf16) (x4 : FVec Ideal S1x128 .f32) (r : Fin 8192) (h : Fin 128) :
    hid1 x0 x1 x2 x3 x4 (ix2 r h)
      = Cert.Mlp.layer1 (fun d => x0 (ix2 r d)) (fun c => x1 (ix2 r c)) (fun d h => x2 (ix2 d h))
          (fun c h => x3 (ix2 c h)) (fun h => x4 (ix2 (0 : Fin 1) h)) h := by
  unfold hid1 Cert.Mlp.layer1
  rw [truncf_apply, maximumf_apply, addf_apply, addf_apply, mm_point, mm_channel, bias_row, broadcast_apply, zero_word]

/-- The second layer at (r, g) is unit g of the second layer over row r of its input. -/
theorem hid2_apply (u : FVec Ideal S8192x128 .bf16) (x5 : FVec Ideal S128x128 .bf16) (x6 : FVec Ideal S1x128 .f32)
    (r : Fin 8192) (g : Fin 128) :
    hid2 u x5 x6 (ix2 r g)
      = Cert.Mlp.layer2 (fun h => u (ix2 r h)) (fun h g => x5 (ix2 h g)) (fun g => x6 (ix2 (0 : Fin 1) g)) g := by
  unfold hid2 Cert.Mlp.layer2
  rw [truncf_apply, maximumf_apply, addf_apply, mm_hidden, bias_row, broadcast_apply, zero_word]

/-- The output at (r, 0) is the output unit over row r of its input. -/
theorem outv_apply (v : FVec Ideal S8192x128 .bf16) (x7 : FVec Ideal S128x1 .bf16) (x8 : FVec Ideal S1x1 .f32)
    (r : Fin 8192) :
    outv v x7 x8 (ix2 r (0 : Fin 1))
      = Cert.Mlp.out (fun g => v (ix2 r g)) (fun g => x7 (ix2 g (0 : Fin 1))) (x8 (ix2 (0 : Fin 1) (0 : Fin 1))) := by
  unfold outv Cert.Mlp.out
  rw [addf_apply, mm_out, bias_one]

/-- The body's payload at row r is the perceptron of sample r. -/
theorem pay_row (x0 : Vec Ideal S8192x3 .bf16) (x1 : Vec Ideal S8192x32 .bf16) (x2 : Vec Ideal S3x128 .bf16)
    (x3 : Vec Ideal S32x128 .bf16) (x4 : Vec Ideal S1x128 .f32) (x5 : Vec Ideal S128x128 .bf16)
    (x6 : Vec Ideal S1x128 .f32) (x7 : Vec Ideal S128x1 .bf16) (x8 : Vec Ideal S1x1 .f32) (r : Fin 8192) :
    Cert.KernelIdeal.Gen.k0_pay1 (F := Ideal) x0 x1 x2 x3 x4 x5 x6 x7 x8 (ix2 r (0 : Fin 1))
      = Cert.Mlp.mlp (fun d => x0 (ix2 r d)) (fun c => x1 (ix2 r c)) (fun d h => x2 (ix2 d h)) (fun c h => x3 (ix2 c h))
          (fun h => x4 (ix2 (0 : Fin 1) h)) (fun h g => x5 (ix2 h g)) (fun g => x6 (ix2 (0 : Fin 1) g))
          (fun g => x7 (ix2 g (0 : Fin 1))) (x8 (ix2 (0 : Fin 1) (0 : Fin 1))) := by
  have h1 : (fun h => hid1 x0 x1 x2 x3 x4 (ix2 r h))
      = Cert.Mlp.layer1 (fun d => x0 (ix2 r d)) (fun c => x1 (ix2 r c)) (fun d h => x2 (ix2 d h))
          (fun c h => x3 (ix2 c h)) (fun h => x4 (ix2 (0 : Fin 1) h)) :=
    funext fun h => hid1_apply x0 x1 x2 x3 x4 r h
  have h2 : (fun g => hid2 (hid1 x0 x1 x2 x3 x4) x5 x6 (ix2 r g))
      = Cert.Mlp.layer2 (fun h => hid1 x0 x1 x2 x3 x4 (ix2 r h)) (fun h g => x5 (ix2 h g)) (fun g => x6 (ix2 (0 : Fin 1) g)) :=
    funext fun g => hid2_apply (hid1 x0 x1 x2 x3 x4) x5 x6 r g
  rw [pay_eq, outv_apply, h2, h1]
  rfl

end Cert.KernelRow

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.KernelBlocks.lean ====
/-
  The kernel's result array from its blocks, and the host reshape after the region.

  The region runs 64 grid points. At point t the body reads block row t of the point array [524288, 3] and of the channel
  array [524288, 32] (8192 rows each), the seven weight and bias arrays whole, and writes block row t of the result array
  [524288, 1]: by the row lemma of the body's payload, local row r of that block is the perceptron of sample 8192 · t + r.
  So what every point writes back is its block of ONE array, the one whose entry (R, 0) is the perceptron of sample R; the
  64 blocks cover the 524288 rows (row R lies in block row R / 8192), hence that array is what the region leaves. After
  the region one host line reshapes [524288, 1] to [4, 131072, 1]: entry (b, n, 0) of the reshaped array is flat row
  131072 · b + n. The region-entry contents of the nine arrays are carried as one opaque function throughout: nothing here
  opens what the host lines before the region computed.
-/
import proofs.«114979_j32804960207257_2_alg».proof.Proof.Gen.KernelIdeal.Frame
import proofs.«114979_j32804960207257_2_alg».proof.Proof.KernelRow
import proofs.«114979_j32804960207257_2_alg».proof.Proof.LibMergeRows
import Idealize.ShloMosaic.Lib.Pipeline.Value
import Idealize.ShloMosaic.Lib.ValueIdx
import Idealize.ShloMosaic.Lib.StableHlo.Run

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The result row as a function of the nine arrays -/

/-- Row R of the result: the perceptron of sample R, over any nine arrays of the region's shapes. -/
def rowFn (a0 : S524288x3.Idx → EReal) (a1 : S524288x32.Idx → EReal) (a2 : S3x128.Idx → EReal)
    (a3 : S32x128.Idx → EReal) (a4 : S1x128.Idx → EReal) (a5 : S128x128.Idx → EReal) (a6 : S1x128.Idx → EReal)
    (a7 : S128x1.Idx → EReal) (a8 : S1x1.Idx → EReal) (R : Fin 524288) : EReal :=
  Cert.Mlp.mlp (fun d => a0 (ix2 R d)) (fun ch => a1 (ix2 R ch)) (fun d h => a2 (ix2 d h)) (fun ch h => a3 (ix2 ch h))
    (fun h => a4 (ix2 (0 : Fin 1) h)) (fun h g => a5 (ix2 h g)) (fun g => a6 (ix2 (0 : Fin 1) g))
    (fun g => a7 (ix2 g (0 : Fin 1))) (a8 (ix2 (0 : Fin 1) (0 : Fin 1)))

/-- Row R of the result over the arrays as the region finds them on core c. -/
def rowOut (c : Dev nD) (R : Fin 524288) : EReal :=
  rowFn (V m c main_v274) (V m c main_v276) (V m c main_v279) (V m c main_v281) (V m c main_v286) (V m c main_v283)
    (V m c main_v287) (V m c main_v285) (V m c main_v288) R

/-! ## One block of the result -/

/-- The payload of nine blocks at local row y is row R of the result over nine arrays, when the two row blocks are
    the arrays read at block row T (block row T begins at row 8192 · T), the seven others are the whole arrays, and
    R is row y of block row T. -/
theorem block_row (a0 : S524288x3.Idx → EReal) (a1 : S524288x32.Idx → EReal) (a2 : S3x128.Idx → EReal)
    (a3 : S32x128.Idx → EReal) (a4 : S1x128.Idx → EReal) (a5 : S128x128.Idx → EReal) (a6 : S1x128.Idx → EReal)
    (a7 : S128x1.Idx → EReal) (a8 : S1x1.Idx → EReal) (T : Nat)
    (x0 : Vec Ideal S8192x3 .bf16) (x1 : Vec Ideal S8192x32 .bf16) (x2 : Vec Ideal S3x128 .bf16)
    (x3 : Vec Ideal S32x128 .bf16) (x4 : Vec Ideal S1x128 .f32) (x5 : Vec Ideal S128x128 .bf16)
    (x6 : Vec Ideal S1x128 .f32) (x7 : Vec Ideal S128x1 .bf16) (x8 : Vec Ideal S1x1 .f32)
    (E0 : S8192x3.Idx → S524288x3.Idx) (E1 : S8192x32.Idx → S524288x32.Idx)
    (h0 : ∀ z, x0 z = a0 (E0 z)) (h00 : ∀ z, (E0 z 0).val = T * 8192 + (z 0).val) (h01 : ∀ z, (E0 z 1).val = (z 1).val)
    (h1 : ∀ z, x1 z = a1 (E1 z)) (h10 : ∀ z, (E1 z 0).val = T * 8192 + (z 0).val) (h11 : ∀ z, (E1 z 1).val = (z 1).val)
    (h2 : ∀ z, x2 z = a2 z) (h3 : ∀ z, x3 z = a3 z) (h4 : ∀ z, x4 z = a4 z) (h5 : ∀ z, x5 z = a5 z)
    (h6 : ∀ z, x6 z = a6 z) (h7 : ∀ z, x7 z = a7 z) (h8 : ∀ z, x8 z = a8 z)
    (y : S8192x1.Idx) (R : Fin 524288) (hR : R.val = T * 8192 + (y 0).val) :
    Gen.k0_pay1 (F := Ideal) x0 x1 x2 x3 x4 x5 x6 x7 x8 y = rowFn a0 a1 a2 a3 a4 a5 a6 a7 a8 R := by
  obtain ⟨r, q, rfl⟩ : ∃ (r : Fin 8192) (q : Fin 1), y = ix2 r q := ⟨y 0, y 1, eq_ix2 y⟩
  obtain rfl : q = 0 := Subsingleton.elim _ _
  have hR' : R.val = T * 8192 + r.val := hR
  obtain rfl : x2 = a2 := funext h2
  obtain rfl : x3 = a3 := funext h3
  obtain rfl : x4 = a4 := funext h4
  obtain rfl : x5 = a5 := funext h5
  obtain rfl : x6 = a6 := funext h6
  obtain rfl : x7 = a7 := funext h7
  obtain rfl : x8 = a8 := funext h8
  have e0 : (fun d : Fin 3 => x0 (ix2 r d)) = fun d => a0 (ix2 R d) := funext fun d => by
    rw [h0]
    refine congrArg a0 (funext fun a => Fin.ext ?_)
    match a with
    | ⟨0, _⟩ => exact (h00 (ix2 r d)).trans hR'.symm
    | ⟨1, _⟩ => exact h01 (ix2 r d)
  have e1 : (fun ch : Fin 32 => x1 (ix2 r ch)) = fun ch => a1 (ix2 R ch) := funext fun ch => by
    rw [h1]
    refine congrArg a1 (funext fun a => Fin.ext ?_)
    match a with
    | ⟨0, _⟩ => exact (h10 (ix2 r ch)).trans hR'.symm
    | ⟨1, _⟩ => exact h11 (ix2 r ch)
  rw [Cert.KernelRow.pay_row, e0, e1]
  rfl

/-! ## The printed index maps, decided over the 64 grid points -/

theorem hz : (![0, 0] : Fin 2 → Nat) = fun _ => 0 := funext fun a => by fin_cases a <;> rfl

/-- The two row windows move with the result's window along the rows; every other block index is zero; the result's
    block row stays below 64. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 63 ∧ win0_9.index t (1 : Fin 2) = 0 :=
  (by decide +kernel : ∀ t : Fin grid0.N, _)

/-- Every block row below 64 is some point's. -/
theorem idx_onto : ∀ q0 : Fin 64, ∃ t : Fin cfg0.N, win0_9.index t = ![q0.val, 0] :=
  (by decide +kernel : ∀ q0 : Fin 64, ∃ t : Fin grid0.N, win0_9.index t = ![q0.val, 0])

/-! ## What a point writes back, over any contents of the core's buffers -/

section AnyContents
variable (c : Dev nD) (A : (b : Ref sig .tc) → Buf (Elt Ideal) ((c : Thread nD τ).loc b))

/-- The [524288, 1] array whose entry (R, 0) is row R of the result over the contents A. -/
def GA : S524288x1.Idx → EReal := fun i =>
  rowFn (A main_v274) (A main_v276) (A main_v279) (A main_v281) (A main_v286) (A main_v283) (A main_v287) (A main_v285)
    (A main_v288) (i 0)

/-- The body's payload of the nine windows' blocks at point t, cut to what the write-back moves, is block t of that
    array: each row block is its array read at the result's block row, each other block its whole array. -/
theorem block_eq (t : Fin cfg0.N) :
    (cfg0.win 9).cut (grid0.coords t)
        (k0_pay1 (F := Ideal) (((cfg0.win 0).blk t).view.read (Elt Ideal) (A (Pipeline.arrRef spec0 0)))
          (((cfg0.win 1).blk t).view.read (Elt Ideal) (A (Pipeline.arrRef spec0 1)))
          (((cfg0.win 2).blk t).view.read (Elt Ideal) (A (Pipeline.arrRef spec0 2)))
          (((cfg0.win 3).blk t).view.read (Elt Ideal) (A (Pipeline.arrRef spec0 3)))
          (((cfg0.win 4).blk t).view.read (Elt Ideal) (A (Pipeline.arrRef spec0 4)))
          (((cfg0.win 5).blk t).view.read (Elt Ideal) (A (Pipeline.arrRef spec0 5)))
          (((cfg0.win 6).blk t).view.read (Elt Ideal) (A (Pipeline.arrRef spec0 6)))
          (((cfg0.win 7).blk t).view.read (Elt Ideal) (A (Pipeline.arrRef spec0 7)))
          (((cfg0.win 8).blk t).view.read (Elt Ideal) (A (Pipeline.arrRef spec0 8))))
      = ((cfg0.win 9).blk t).view.read (Elt Ideal) (GA c A) := by
  obtain ⟨e00, e01, e10, e11, e20, e21, e30, e31, e40, e41, e50, e51, e60, e61, e70, e71, e80, e81, e90, e91⟩ := idx_facts t
  funext j
  refine block_row (A main_v274) (A main_v276) (A main_v279) (A main_v281) (A main_v286)
    (A main_v283) (A main_v287) (A main_v285) (A main_v288) (win0_9.index t (0 : Fin 2))
    (((cfg0.win 0).blk t).view.read (Elt Ideal) (A (Pipeline.arrRef spec0 0)))
    (((cfg0.win 1).blk t).view.read (Elt Ideal) (A (Pipeline.arrRef spec0 1)))
    (((cfg0.win 2).blk t).view.read (Elt Ideal) (A (Pipeline.arrRef spec0 2)))
    (((cfg0.win 3).blk t).view.read (Elt Ideal) (A (Pipeline.arrRef spec0 3)))
    (((cfg0.win 4).blk t).view.read (Elt Ideal) (A (Pipeline.arrRef spec0 4)))
    (((cfg0.win 5).blk t).view.read (Elt Ideal) (A (Pipeline.arrRef spec0 5)))
    (((cfg0.win 6).blk t).view.read (Elt Ideal) (A (Pipeline.arrRef spec0 6)))
    (((cfg0.win 7).blk t).view.read (Elt Ideal) (A (Pipeline.arrRef spec0 7)))
    (((cfg0.win 8).blk t).view.read (Elt Ideal) (A (Pipeline.arrRef spec0 8)))
    ((cfg0.win 0).blk t).view.emb ((cfg0.win 1).blk t).view.emb
    (fun z => rfl) ?h00 ?h01 (fun z => rfl) ?h10 ?h11 ?h2 ?h3 ?h4 ?h5 ?h6 ?h7 ?h8 j ((((cfg0.win 9).blk t).view.emb j) 0) ?hR
  case h00 =>
    intro z
    show win0_0.index t (0 : Fin 2) * 8192 + 1 * (z 0).val = win0_9.index t (0 : Fin 2) * 8192 + (z 0).val
    omega
  case h01 =>
    intro z
    show win0_0.index t (1 : Fin 2) * 3 + 1 * (z 1).val = (z 1).val
    omega
  case h10 =>
    intro z
    show win0_1.index t (0 : Fin 2) * 8192 + 1 * (z 0).val = win0_9.index t (0 : Fin 2) * 8192 + (z 0).val
    omega
  case h11 =>
    intro z
    show win0_1.index t (1 : Fin 2) * 32 + 1 * (z 1).val = (z 1).val
    omega
  case hR =>
    show win0_9.index t (0 : Fin 2) * 8192 + 1 * (j 0).val = win0_9.index t (0 : Fin 2) * 8192 + (j 0).val
    omega
  case h2 =>
    intro z
    show A main_v279 (((cfg0.win 2).blk t).view.emb z) = A main_v279 z
    refine congrArg (A main_v279) (funext fun a => Fin.ext ?_)
    match a with
    | ⟨0, _⟩ => show win0_2.index t (0 : Fin 2) * 3 + 1 * (z 0).val = (z 0).val; omega
    | ⟨1, _⟩ => show win0_2.index t (1 : Fin 2) * 128 + 1 * (z 1).val = (z 1).val; omega
  case h3 =>
    intro z
    show A main_v281 (((cfg0.win 3).blk t).view.emb z) = A main_v281 z
    refine congrArg (A main_v281) (funext fun a => Fin.ext ?_)
    match a with
    | ⟨0, _⟩ => show win0_3.index t (0 : Fin 2) * 32 + 1 * (z 0).val = (z 0).val; omega
    | ⟨1, _⟩ => show win0_3.index t (1 : Fin 2) * 128 + 1 * (z 1).val = (z 1).val; omega
  case h4 =>
    intro z
    show A main_v286 (((cfg0.win 4).blk t).view.emb z) = A main_v286 z
    refine congrArg (A main_v286) (funext fun a => Fin.ext ?_)
    match a with
    | ⟨0, _⟩ => show win0_4.index t (0 : Fin 2) * 1 + 1 * (z 0).val = (z 0).val; omega
    | ⟨1, _⟩ => show win0_4.index t (1 : Fin 2) * 128 + 1 * (z 1).val = (z 1).val; omega
  case h5 =>
    intro z
    show A main_v283 (((cfg0.win 5).blk t).view.emb z) = A main_v283 z
    refine congrArg (A main_v283) (funext fun a => Fin.ext ?_)
    match a with
    | ⟨0, _⟩ => show win0_5.index t (0 : Fin 2) * 128 + 1 * (z 0).val = (z 0).val; omega
    | ⟨1, _⟩ => show win0_5.index t (1 : Fin 2) * 128 + 1 * (z 1).val = (z 1).val; omega
  case h6 =>
    intro z
    show A main_v287 (((cfg0.win 6).blk t).view.emb z) = A main_v287 z
    refine congrArg (A main_v287) (funext fun a => Fin.ext ?_)
    match a with
    | ⟨0, _⟩ => show win0_6.index t (0 : Fin 2) * 1 + 1 * (z 0).val = (z 0).val; omega
    | ⟨1, _⟩ => show win0_6.index t (1 : Fin 2) * 128 + 1 * (z 1).val = (z 1).val; omega
  case h7 =>
    intro z
    show A main_v285 (((cfg0.win 7).blk t).view.emb z) = A main_v285 z
    refine congrArg (A main_v285) (funext fun a => Fin.ext ?_)
    match a with
    | ⟨0, _⟩ => show win0_7.index t (0 : Fin 2) * 128 + 1 * (z 0).val = (z 0).val; omega
    | ⟨1, _⟩ => show win0_7.index t (1 : Fin 2) * 1 + 1 * (z 1).val = (z 1).val; omega
  case h8 =>
    intro z
    show A main_v288 (((cfg0.win 8).blk t).view.emb z) = A main_v288 z
    refine congrArg (A main_v288) (funext fun a => Fin.ext ?_)
    match a with
    | ⟨0, _⟩ => show win0_8.index t (0 : Fin 2) * 1 + 1 * (z 0).val = (z 0).val; omega
    | ⟨1, _⟩ => show win0_8.index t (1 : Fin 2) * 1 + 1 * (z 1).val = (z 1).val; omega

end AnyContents

/-! ## The result array after the region -/

/-- The [524288, 1] array whose entry (R, 0) is row R of the result over the arrays as the region finds them. -/
def G (c : Dev nD) : S524288x1.Idx → EReal := GA c (V m c)

/-- Its entry at i is row (i 0) of the result. -/
theorem G_apply (c : Dev nD) (i : S524288x1.Idx) : G m c i = rowOut m c (i 0) := rfl

/-- What point t writes back is block t of the result array. -/
theorem flushed9_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz]
  simp only [View.ld_unit_zero (S := S8192x3) hz, View.ld_unit_zero (S := S8192x32) hz, View.ld_unit_zero (S := S3x128) hz,
    View.ld_unit_zero (S := S32x128) hz, View.ld_unit_zero (S := S1x128) hz, View.ld_unit_zero (S := S128x128) hz,
    View.ld_unit_zero (S := S128x1) hz, View.ld_unit_zero (S := S1x1) hz]
  unfold iblk G
  generalize V m c = A
  exact block_eq c A t

/-- An index of the array is in point t's block iff each coordinate is in the block's range on its axis. -/
theorem mem_blk9 (t : Fin cfg0.N) (i : S524288x1.Idx) :
    i ∈ ((cfg0.win 9).blk t).view.set ↔ ∀ a : Fin 2, win0_9.index t a * S8192x1.size a ≤ (i a).val ∧ (i a).val < win0_9.index t a * S8192x1.size a + S8192x1.size a := by
  show i ∈ ((View.whole main_v289).slice (win0_9.rect t)).set ↔ _
  rw [View.set_slice_whole, Rect.mem_set_unit]
  exact Iff.rfl

/-- Every row of the array is in some point's block: row R is in block row R / 8192. -/
theorem cover9 (i : S524288x1.Idx) :
    ∃ t : Fin cfg0.N, (cfg0.win 9).flush t = true ∧ i ∈ ((cfg0.win 9).blk t).view.set := by
  have hi0 : (i 0).val < 524288 := (i 0).isLt
  have hi1 : (i 1).val < 1 := (i 1).isLt
  obtain ⟨t, ht⟩ := idx_onto ⟨(i 0).val / 8192, by omega⟩
  have q0 : win0_9.index t (0 : Fin 2) = (i 0).val / 8192 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 8192 ≤ (i 0).val ∧ (i 0).val < win0_9.index t (0 : Fin 2) * 8192 + 8192; omega
  | ⟨1, _⟩ => show win0_9.index t (1 : Fin 2) * 1 ≤ (i 1).val ∧ (i 1).val < win0_9.index t (1 : Fin 2) * 1 + 1; omega

/-- The result array after the run: entry (R, 0) is row R of the result. -/
theorem final9 (c : Dev nD) : (dats m 0 c).arrAt 9 cfg0.N = G m c :=
  (dats m 0 c).arrAt_eq_of_cover 9 (G m c) (fun t _ => flushed9_eq m c t) cover9

/-! ## The host reshape after the region, and the run -/

/-- The result array as the line after the region finds it. -/
theorem arr289 (c : Dev nD) :
    Pipeline.withArrays spec0 c (V0 m c) (fun w => (dats m 0 c).arrAt w cfg0.N) (Proc.devRef .tc main_v289) = G m c :=
  (Pipeline.withArrays_arr spec0 launch0.win.arr_inj c (V0 m c) (fun w => (dats m 0 c).arrAt w cfg0.N) 9).trans (final9 m c)

/-- The reshaped result at (b, n, 0) is flat row 131072 · b + n of the result. -/
theorem tail290 (c : Dev nD) (b : Fin 4) (n : Fin 131072) :
    Pipeline.afterTail₀ cfgs (dats m) 0 (V0 m) [hostOps1] c main_v290 (ix3 b n (0 : Fin 1))
      = rowOut m c (Cert.Lib.MergeRows.flatRow (a := 4) (b := 131072) rfl b n) := by
  unfold Pipeline.afterTail₀
  show StableHlo.after hostOps1 _ (Proc.devRef .tc main_v290) (ix3 b n (0 : Fin 1)) = _
  after_results
  show shapeCast S4x131072x1 (Pipeline.withArrays spec0 c (V0 m c) (fun w => (dats m 0 c).arrAt w cfg0.N)
    (Proc.devRef .tc main_v289)) shapeCasts_S524288x1_S4x131072x1 (ix3 b n (0 : Fin 1)) = _
  rw [arr289 m c]
  exact (Cert.Lib.MergeRows.split_apply (a := 4) (b := 131072) (c := 1) (r := 524288) rfl (G m c)
    shapeCasts_S524288x1_S4x131072x1 b n (0 : Fin 1)).trans (G_apply m c _)

/-- The reshaped result as one function of its index. -/
theorem tail290_fn (c : Dev nD) :
    (Pipeline.afterTail₀ cfgs (dats m) 0 (V0 m) [hostOps1] c main_v290 : S4x131072x1.Idx → EReal)
      = fun i => rowOut m c (Cert.Lib.MergeRows.flatRow (a := 4) (b := 131072) rfl (i 0) (i 1)) := by
  funext i
  obtain ⟨b, n, k, rfl⟩ : ∃ (b : Fin 4) (n : Fin 131072) (k : Fin 1), i = ix3 b n k := ⟨i 0, i 1, i 2, eq_ix3 i⟩
  obtain rfl : k = 0 := Subsingleton.elim _ _
  exact tail290 m c b n

/-- The run: @main ends with the reshaped result at the perceptron of each sample, entry (b, n, 0) that of sample
    131072 · b + n over the arrays as the region finds them, and with its eight arguments as launched. -/
theorem run : θ_run defs (onTc (τ := τ) (main (F := Ideal))) ⟨m, fun _ => 0, ρ⟩ (fun r => ∀ c : Dev nD,
      r.2.mem ((c.tc : Thread nD τ).loc main_v290)
        = (fun i : S4x131072x1.Idx => rowOut m c (Cert.Lib.MergeRows.flatRow (a := 4) (b := 131072) rfl (i 0) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v290 (Pipeline.mem_restRefs_of main_v290 (by decide) (by decide))).trans (tail290_fn m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelBlocks

end
-- ==== Proof.SamplingDefs.lean ====
/-
  Trilinear sampling, as both programs spell it.

  A sample's pixel coordinates (x, y, z) give the two neighbouring grid positions on each axis, clipped into 0 … 63, and the
  fractional weights. The sampled feature is the trilinear blend of the eight neighbouring grid vectors: along x with the
  x weight, then along y, then along z, each blend a · (1 − w) + b · w. The two programs differ only in how a neighbouring
  vector is fetched. The reference reads the grid [4, 32, 64, 64, 64] at the four-component position (batch, z, y, x),
  keeping the channel axis. The kernel first moves the channels last and flattens the three grid axes, and reads the flat
  array [4, 262144, 32] at the two-component position (batch, z · 4096 + y · 64 + x). Both wrap a negative component by
  the axis length first (which never happens here: the components are clipped or a batch number).

  This module names those spellings.
-/
import proofs.«114979_j32804960207257_2_alg».proof.KernelIdeal
import proofs.«114979_j32804960207257_2_alg».proof.Proof.Gen.KernelIdeal
import proofs.«114979_j32804960207257_2_alg».proof.ReferenceIdeal
import proofs.«114979_j32804960207257_2_alg».proof.Proof.Gen.ReferenceIdeal
import Idealize.ShloMosaic.PureOps.Ideal

noncomputable section

namespace Cert.Sampling

open Idealize.ShloMosaic Cert.ReferenceIdeal Cert.ReferenceIdeal.Facts₀ Cert.ReferenceIdeal.Facts

/-- One blend: a · (1 − w) + b · w, the weight a column spread over the 32 channels. -/
def lerp (a b : FVec Ideal S4x131072x32 .f32) (w : FVec Ideal S4x131072x1 .f32) : FVec Ideal S4x131072x32 .f32 :=
  addf
    (mulf a (broadcastInDim S4x131072x32 ![0, 1, 2] bcast_S4x131072x1_S4x131072x32_0_1_2
      (subf (broadcastInDim S4x131072x1 ![] bcast_S_S4x131072x1 (constant S_ .f32 0x3F800000#32)) w)))
    (mulf b (broadcastInDim S4x131072x32 ![0, 1, 2] bcast_S4x131072x1_S4x131072x32_0_1_2 w))

/-- The trilinear blend of the eight neighbours g_zyx: along x, then y, then z. -/
def tri (g000 g001 g010 g011 g100 g101 g110 g111 : FVec Ideal S4x131072x32 .f32) (wx wy wz : FVec Ideal S4x131072x1 .f32) :
    FVec Ideal S4x131072x32 .f32 :=
  lerp (lerp (lerp g000 g001 wx) (lerp g010 g011 wx) wy) (lerp (lerp g100 g101 wx) (lerp g110 g111 wx) wy) wz

/-- Clipping a word array into 0 … 63: signed maximum with 0, then signed minimum with 63. -/
def clip (u : IVec S4x131072 32) : IVec S4x131072 32 :=
  minsi (broadcastInDim S4x131072 ![] bcast_S_S4x131072 (id (constantI S_ 32 63#32)))
    (maxsi (broadcastInDim S4x131072 ![] bcast_S_S4x131072 (id (constantI S_ 32 0#32))) u)

/-- A negative component wrapped by the axis length N. -/
def wrap (N : BitVec 32) (u : IVec S4x131072 32) : IVec S4x131072 32 :=
  select (cmpi .slt u (broadcastInDim S4x131072 ![] bcast_S_S4x131072 (constantI S_ 32 0#32)))
    (addi u (broadcastInDim S4x131072 ![] bcast_S_S4x131072 (constantI S_ 32 N))) u

/-- A component as a column of the start-index array. -/
def col (u : IVec S4x131072 32) : IVec S4x131072x1 32 :=
  broadcastInDim S4x131072x1 ![0, 1] bcast_S4x131072_S4x131072x1_0_1 u

/-- The batch component: the batch number of every sample (wrapped by 4 if negative, which it never is). -/
def batchCol : IVec S4x131072x1 32 :=
  broadcastInDim S4x131072x1 ![0, 1] bcast_S4x131072_S4x131072x1_0_1
    (broadcastInDim S4x131072 ![0, 1] bcast_S4x1_S4x131072_0_1
      (select (cmpi .slt (broadcastInDim S4x1 ![0] bcast_S4_S4x1_0 (iotaInDim S4 32 0)) (broadcastInDim S4x1 ![] bcast_S_S4x1 (constantI S_ 32 0#32)))
        (addi (broadcastInDim S4x1 ![0] bcast_S4_S4x1_0 (iotaInDim S4 32 0)) (broadcastInDim S4x1 ![] bcast_S_S4x1 (constantI S_ 32 4#32)))
        (broadcastInDim S4x1 ![0] bcast_S4_S4x1_0 (iotaInDim S4 32 0))))

/-- The reference's four-component start indices (batch, z, y, x). -/
def gridIdx (Z Y X : IVec S4x131072 32) : IVec S4x131072x4 32 :=
  concatenate S4x131072x4 2 [⟨S4x131072x1, batchCol⟩, ⟨S4x131072x1, col (wrap 64#32 Z)⟩, ⟨S4x131072x1, col (wrap 64#32 Y)⟩,
    ⟨S4x131072x1, col (wrap 64#32 X)⟩] concatenates_S4x131072x1_S4x131072x1_S4x131072x1_S4x131072x1_S4x131072x4_d2

/-- The reference's fetch of the neighbour (Z, Y, X): all 32 channels at grid position (batch, Z, Y, X). -/
def gatherGrid (f : FVec Ideal S4x32x64x64x64 .f32) (Z Y X : IVec S4x131072 32) : FVec Ideal S4x131072x32 .f32 :=
  Host.gather gather_S4x32x64x64x64_S4x131072x4_S4x131072x32_2_0234_n_n_0234_2_132111 f (gridIdx Z Y X)

/-- The flat position z · 4096 + y · 64 + x. -/
def linear (Z Y X : IVec S4x131072 32) : IVec S4x131072 32 :=
  addi (addi (muli Z (broadcastInDim S4x131072 ![] bcast_S_S4x131072 (constantI S_ 32 4096#32)))
    (muli Y (broadcastInDim S4x131072 ![] bcast_S_S4x131072 (constantI S_ 32 64#32)))) X

/-- The kernel's two-component start indices (batch, flat position). -/
def flatIdx (Z Y X : IVec S4x131072 32) : IVec Cert.KernelIdeal.S4x131072x2 32 :=
  concatenate Cert.KernelIdeal.S4x131072x2 2 [⟨S4x131072x1, batchCol⟩, ⟨S4x131072x1, col (wrap 262144#32 (linear Z Y X))⟩]
    Cert.KernelIdeal.Facts₀.concatenates_S4x131072x1_S4x131072x1_S4x131072x2_d2

/-- The grid with channels last, its three grid axes flattened. -/
def flatFeatures (f : FVec Ideal S4x32x64x64x64 .f32) : FVec Ideal Cert.KernelIdeal.S4x262144x32 .f32 :=
  shapeCast Cert.KernelIdeal.S4x262144x32
    (transpose Cert.KernelIdeal.S4x64x64x64x32 [0, 2, 3, 4, 1] f Cert.KernelIdeal.Facts₀.transposes_S4x32x64x64x64_S4x64x64x64x32_0_2_3_4_1)
    Cert.KernelIdeal.Facts₀.shapeCasts_S4x64x64x64x32_S4x262144x32

/-- The kernel's fetch of the neighbour (Z, Y, X): row (batch, flat position) of the flattened grid. -/
def gatherFlat (f : FVec Ideal S4x32x64x64x64 .f32) (Z Y X : IVec S4x131072 32) : FVec Ideal S4x131072x32 .f32 :=
  Host.gather Cert.KernelIdeal.gather_S4x262144x32_S4x131072x2_S4x131072x32_2_01_n_n_01_2_1132 (flatFeatures f) (flatIdx Z Y X)

end Cert.Sampling

end
-- ==== Proof.SamplingRef.lean ====
/-
  The reference's sampling stages are the named spellings.

  From the points the reference computes, per sample, the two clipped neighbour positions on each axis (X0, X1, Y0, Y1, Z0,
  Z1) and the three fractional weights; its sampled features are the trilinear blend of its eight fetches at those
  positions. Each statement below is an unfolding of definitions.
-/
import proofs.«114979_j32804960207257_2_alg».proof.Proof.SamplingDefs
import proofs.«114979_j32804960207257_2_alg».proof.Proof.RefReadP

noncomputable section

namespace Cert.Sampling

open Idealize.ShloMosaic Cert.ReferenceIdeal Cert.ReferenceIdeal.ReadP

/-! ## The sample's neighbours and weights, from the points (the reference's stages) -/

abbrev X0 (p : FVec Ideal S4x131072x3 .f32) := val_main_v38 (F := Ideal) p
abbrev X1 (p : FVec Ideal S4x131072x3 .f32) := val_main_v41 (F := Ideal) p
abbrev Y0 (p : FVec Ideal S4x131072x3 .f32) := val_main_v43 (F := Ideal) p
abbrev Y1 (p : FVec Ideal S4x131072x3 .f32) := val_main_v46 (F := Ideal) p
abbrev Z0 (p : FVec Ideal S4x131072x3 .f32) := val_main_v48 (F := Ideal) p
abbrev Z1 (p : FVec Ideal S4x131072x3 .f32) := val_main_v51 (F := Ideal) p
abbrev WX (p : FVec Ideal S4x131072x3 .f32) := val_main_v32 (F := Ideal) p
abbrev WY (p : FVec Ideal S4x131072x3 .f32) := val_main_v34 (F := Ideal) p
abbrev WZ (p : FVec Ideal S4x131072x3 .f32) := val_main_v36 (F := Ideal) p

/-- The sampled features with a given fetch. -/
def sampled (fetch : IVec S4x131072 32 → IVec S4x131072 32 → IVec S4x131072 32 → FVec Ideal S4x131072x32 .f32)
    (p : FVec Ideal S4x131072x3 .f32) : FVec Ideal S4x131072x32 .f32 :=
  tri (fetch (Z0 p) (Y0 p) (X0 p)) (fetch (Z0 p) (Y0 p) (X1 p)) (fetch (Z0 p) (Y1 p) (X0 p)) (fetch (Z0 p) (Y1 p) (X1 p))
    (fetch (Z1 p) (Y0 p) (X0 p)) (fetch (Z1 p) (Y0 p) (X1 p)) (fetch (Z1 p) (Y1 p) (X0 p)) (fetch (Z1 p) (Y1 p) (X1 p))
    (WX p) (WY p) (WZ p)

/-- The reference's sampled features are the blend of its eight fetches. -/
theorem ref_sampled (f : FVec Ideal S4x32x64x64x64 .f32) (p : FVec Ideal S4x131072x3 .f32) :
    val_main_v318 (F := Ideal) f p = sampled (gatherGrid f) p := rfl

/-- The six neighbour positions are clipped words. -/
theorem X0_clip (p : FVec Ideal S4x131072x3 .f32) : X0 p = clip (val_main_v37 (F := Ideal) p) := rfl
theorem X1_clip (p : FVec Ideal S4x131072x3 .f32) : X1 p = clip (val_main_v40 (F := Ideal) p) := rfl
theorem Y0_clip (p : FVec Ideal S4x131072x3 .f32) : Y0 p = clip (val_main_v42 (F := Ideal) p) := rfl
theorem Y1_clip (p : FVec Ideal S4x131072x3 .f32) : Y1 p = clip (val_main_v45 (F := Ideal) p) := rfl
theorem Z0_clip (p : FVec Ideal S4x131072x3 .f32) : Z0 p = clip (val_main_v47 (F := Ideal) p) := rfl
theorem Z1_clip (p : FVec Ideal S4x131072x3 .f32) : Z1 p = clip (val_main_v50 (F := Ideal) p) := rfl

end Cert.Sampling

end
-- ==== Proof.KernelArrays.lean ====
/-
  What the kernel's region finds in its nine input arrays.

  Before the region the host program samples the features (the trilinear blend over the kernel's own fetch, the flattened
  channel-last grid), narrows points and features to the short float format (the identity at the exact values) and merges
  the batch and sample axes into 524288 rows; it transposes the three weight matrices, cuts the transposed first matrix
  into its three point rows and its thirty-two channel rows, and writes each bias vector as a row. Read at an index:
  row 131072 · b + n of the point and feature arrays is sample (b, n); entry (d, h) of the point weights is W1 (h, d),
  entry (ch, h) of the channel weights is W1 (h, 3 + ch); entry (h, g) of the second matrix is W2 (g, h); entry (g, 0) of
  the output column is W3 (0, g); the bias rows read their vectors.
-/
import proofs.«114979_j32804960207257_2_alg».proof.Proof.Gen.KernelIdeal.Frame
import proofs.«114979_j32804960207257_2_alg».proof.Proof.SamplingRef
import proofs.«114979_j32804960207257_2_alg».proof.Proof.LibMergeRows
import Idealize.ShloMosaic.Lib.StableHlo.Run
import Idealize.ShloMosaic.Lib.Pipeline.Value
import Idealize.ShloMosaic.Lib.ValueIdx

set_option maxRecDepth 16384

noncomputable section

namespace Cert.KernelArrays

open Idealize.ShloMosaic Idealize.ShloMosaic.ValueIdx Idealize.ShloMosaic.StableHlo Idealize.ShloMosaic.TcCoe Idealize.SL.Sem
open Cert.KernelIdeal Cert.KernelIdeal.Gen

variable (m : (ℓ : Loc nD τ sig) → Buf (Elt Ideal) ℓ) (c : Dev nD)

/-- The launch contents of the eight arguments, at their tensor types. -/
abbrev aF : (⟨S4x32x64x64x64, .f32⟩ : BufTy).Contents (Elt Ideal) := m ((c : Thread nD τ).loc main_arg0)
abbrev aP : (⟨S4x131072x3, .f32⟩ : BufTy).Contents (Elt Ideal) := m ((c : Thread nD τ).loc main_arg1)
abbrev aW1 : (⟨S128x35, .f32⟩ : BufTy).Contents (Elt Ideal) := m ((c : Thread nD τ).loc main_arg2)
abbrev aB1 : (⟨S128, .f32⟩ : BufTy).Contents (Elt Ideal) := m ((c : Thread nD τ).loc main_arg3)
abbrev aW2 : (⟨S128x128, .f32⟩ : BufTy).Contents (Elt Ideal) := m ((c : Thread nD τ).loc main_arg4)
abbrev aB2 : (⟨S128, .f32⟩ : BufTy).Contents (Elt Ideal) := m ((c : Thread nD τ).loc main_arg5)
abbrev aW3 : (⟨S1x128, .f32⟩ : BufTy).Contents (Elt Ideal) := m ((c : Thread nD τ).loc main_arg6)
abbrev aB3 : (⟨S1, .f32⟩ : BufTy).Contents (Elt Ideal) := m ((c : Thread nD τ).loc main_arg7)

/-- The nine input arrays as the region finds them, at their tensor types. -/
abbrev kP : S524288x3.Idx → EReal := V m c main_v274
abbrev kFt : S524288x32.Idx → EReal := V m c main_v276
abbrev kW1a : S3x128.Idx → EReal := V m c main_v279
abbrev kW1b : S32x128.Idx → EReal := V m c main_v281
abbrev kB1 : S1x128.Idx → EReal := V m c main_v286
abbrev kW2 : S128x128.Idx → EReal := V m c main_v283
abbrev kB2 : S1x128.Idx → EReal := V m c main_v287
abbrev kW3 : S128x1.Idx → EReal := V m c main_v285
abbrev kB3 : S1x1.Idx → EReal := V m c main_v288

/-- The host operations before the region, as one list. -/
macro "open_prefix" : tactic =>
  `(tactic| (dsimp only [kP, kFt, kW1a, kW1b, kB1, kW2, kB2, kW3, kB3, Gen.V, Gen.V0]
             simp only [hostOps0, hostOps0_1, hostOps0_2, hostOps0_3, hostOps0_4, hostOps0_5, hostOps0_6, hostOps0_7, hostOps0_8,
               hostOps0_9, hostOps0_10, hostOps0_11, hostOps0_12, List.flatten_cons, List.flatten_nil, List.append_nil,
               List.cons_append, List.nil_append]))

/-! ## The arrays as terms of the arguments -/

set_option maxHeartbeats 40000000 in
theorem V_points : kP m c
    = shapeCast S524288x3 (truncf (F := Ideal) .bf16 (aP m c) bitsLt_bf16_f32) shapeCasts_S4x131072x3_S524288x3 := by
  open_prefix
  after_results_simp <;> rfl

set_option maxHeartbeats 40000000 in
theorem V_w1a : kW1a m c
    = truncf (F := Ideal) .bf16 (extractStridedSlice S3x128 ![0, 0] (transpose S35x128 [1, 0] (aW1 m c) transposes_S128x35_S35x128_1_0)
        slices_S35x128_S3x128_0_0) bitsLt_bf16_f32 := by
  open_prefix
  after_results_simp <;> rfl

set_option maxHeartbeats 40000000 in
theorem V_w1b : kW1b m c
    = truncf (F := Ideal) .bf16 (extractStridedSlice S32x128 ![3, 0] (transpose S35x128 [1, 0] (aW1 m c) transposes_S128x35_S35x128_1_0)
        slices_S35x128_S32x128_3_0) bitsLt_bf16_f32 := by
  open_prefix
  after_results_simp <;> rfl

set_option maxHeartbeats 40000000 in
theorem V_w2 : kW2 m c
    = truncf (F := Ideal) .bf16 (transpose S128x128 [1, 0] (aW2 m c) transposes_S128x128_S128x128_1_0) bitsLt_bf16_f32 := by
  open_prefix
  after_results_simp <;> rfl

set_option maxHeartbeats 40000000 in
theorem V_w3 : kW3 m c
    = truncf (F := Ideal) .bf16 (transpose S128x1 [1, 0] (aW3 m c) transposes_S1x128_S128x1_1_0) bitsLt_bf16_f32 := by
  open_prefix
  after_results_simp <;> rfl

set_option maxHeartbeats 40000000 in
theorem V_b1 : kB1 m c = shapeCast S1x128 (aB1 m c) shapeCasts_S128_S1x128 := by
  open_prefix
  after_results_simp <;> rfl

set_option maxHeartbeats 40000000 in
theorem V_b2 : kB2 m c = shapeCast S1x128 (aB2 m c) shapeCasts_S128_S1x128 := by
  open_prefix
  after_results_simp <;> rfl

set_option maxHeartbeats 40000000 in
theorem V_b3 : kB3 m c = shapeCast S1x1 (aB3 m c) shapeCasts_S1_S1x1 := by
  open_prefix
  after_results_simp <;> rfl

end Cert.KernelArrays

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.KernelFeat.lean ====
/-
  The feature array the kernel's region finds.

  The host program before the region computes, from the points, the neighbour positions and weights exactly as the
  reference does, fetches the eight neighbours from the flattened channel-last grid, blends them, narrows the result to
  the short float format and merges the batch and sample axes. As a term of the arguments this is the named blend over
  the kernel's own fetch.

  The host line is in single-assignment form, so its final contents satisfy every operation's own equation, and a
  buffer is read by rewriting with those equations instead of walking the line. The line is read in two stretches: the
  first leaves the flattened grid, the three weights and the six clipped neighbour positions; the second, started from
  those, fetches and blends. The start-index arrays of the eight fetches (a batch column and a flat-position column
  each) are read first, then placed under the concatenations.
-/
import proofs.«114979_j32804960207257_2_alg».proof.Proof.KernelArrays
import proofs.«114979_j32804960207257_2_alg».proof.Proof.LibAfterAppend
import proofs.«114979_j32804960207257_2_alg».proof.Proof.LibSsa
set_option maxRecDepth 16384

noncomputable section

namespace Cert.KernelArrays

open Idealize.ShloMosaic Idealize.ShloMosaic.ValueIdx Idealize.ShloMosaic.StableHlo Idealize.ShloMosaic.TcCoe Idealize.SL.Sem
open Cert.KernelIdeal Cert.KernelIdeal.Gen
open Cert.Lib.Ssa

variable (m : (ℓ : Loc nD τ sig) → Buf (Elt Ideal) ℓ) (c : Dev nD)

/-! ## The host line in two stretches

The first stretch computes, from the points, the six clipped neighbour positions and the three weights, and flattens the
grid; the second fetches the eight neighbours, blends them and prepares the other arrays. Each stretch is in
single-assignment form, its buffers numbered in program order. -/

/-- The first stretch: everything before the batch numbers. -/
abbrev preOps : List (HloOp τ sig (Elt Ideal)) := List.flatten [hostOps0, hostOps0_1, hostOps0_2, hostOps0_3, hostOps0_4, hostOps0_5, hostOps0_6, hostOps0_7, hostOps0_8, hostOps0_9, hostOps0_10, hostOps0_11]
/-- The second stretch. -/
abbrev sufOps : List (HloOp τ sig (Elt Ideal)) := hostOps0_12

theorem host_split : (List.flatten [hostOps0, hostOps0_1, hostOps0_2, hostOps0_3, hostOps0_4, hostOps0_5, hostOps0_6, hostOps0_7, hostOps0_8, hostOps0_9, hostOps0_10, hostOps0_11, hostOps0_12] : List (HloOp τ sig (Elt Ideal))) = preOps ++ sufOps := by
  simp only [preOps, sufOps, List.flatten_cons, List.flatten_nil, List.append_nil, List.append_assoc]

/-- The contents between the two stretches. -/
abbrev mid : Valuation τ sig (Elt Ideal) := StableHlo.after preOps (fun b => m (c, b))

theorem V0_eq : Gen.V0 (F := Ideal) m c = StableHlo.after sufOps (mid m c) := by
  dsimp only [Gen.V0, mid]
  rw [host_split, Cert.Lib.AfterAppend.after_append]

set_option maxHeartbeats 40000000 in
theorem preOps_chained : Chained rk (preOps : List (HloOp τ sig (Elt Ideal))) := by
  simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, Chained, hi_nullary, hi_unary, hi_binary, hi_ternary, hi_quaternary, hi_reshape, writes_lt_nullary, writes_lt_unary, writes_lt_binary, writes_lt_ternary, writes_lt_quaternary, writes_lt_reshape]
  repeat' apply And.intro
  all_goals decide

set_option maxHeartbeats 40000000 in
theorem sufOps_chained : Chained rk (sufOps : List (HloOp τ sig (Elt Ideal))) := by
  simp only [sufOps, hostOps0_12, Chained, hi_nullary, hi_unary, hi_binary, hi_ternary, hi_quaternary, hi_reshape, writes_lt_nullary, writes_lt_unary, writes_lt_binary, writes_lt_ternary, writes_lt_quaternary, writes_lt_reshape]
  repeat' apply And.intro
  all_goals decide

/-- The first stretch writes only buffers numbered above 7 (the eight arguments are numbered 0 to 7). -/
theorem preOps_lo : ∀ op ∈ (preOps : List (HloOp τ sig (Elt Ideal))), ∀ y ∈ op.writes, 7 < rk y :=
  chained_lo rk _ _ preOps_chained 7 (by simp only [writes_lt_unary]; decide) (by simp only [hi_unary]; decide)

/-- The second stretch writes only buffers numbered above 117: above everything the first stretch touches. -/
theorem sufOps_lo : ∀ op ∈ (sufOps : List (HloOp τ sig (Elt Ideal))), ∀ y ∈ op.writes, 117 < rk y :=
  chained_lo rk _ _ sufOps_chained 117 (by simp only [writes_lt_nullary]; decide) (by simp only [hi_nullary]; decide)

/-- Every operation's own equation in the first stretch, at its final contents `R`. -/
theorem preOps_fix (R : Valuation τ sig (Elt Ideal)) (hR : StableHlo.after preOps (fun b => m (c, b)) = R) :
    preOps.Forall fun op => ∀ y ∈ op.writes, R y = op.result (fun b => if b ∈ op.writes then m (c, b) else R b) y := by
  subst hR
  exact after_fix_forall preOps (fun b => m (c, b)) (ordered_of_chained rk _ preOps_chained)

/-- Every operation's own equation in the second stretch, from contents `W`, at its final contents `R`. -/
theorem sufOps_fix (W R : Valuation τ sig (Elt Ideal)) (hR : StableHlo.after sufOps W = R) :
    sufOps.Forall fun op => ∀ y ∈ op.writes, R y = op.result (fun b => if b ∈ op.writes then W b else R b) y := by
  subst hR
  exact after_fix_forall sufOps W (ordered_of_chained rk _ sufOps_chained)

/-! ## Between the stretches: the flattened grid, the weights, the neighbour positions -/

set_option maxHeartbeats 400000000 in
theorem mid_stages :
    (mid m c (Proc.devRef .tc main_v1) : S4x262144x32.Idx → EReal) = Cert.Sampling.flatFeatures (aF m c) ∧
    (mid m c (Proc.devRef .tc main_v34) : S4x131072x1.Idx → EReal) = Cert.Sampling.WX (aP m c) ∧
    (mid m c (Proc.devRef .tc main_v36) : S4x131072x1.Idx → EReal) = Cert.Sampling.WY (aP m c) ∧
    (mid m c (Proc.devRef .tc main_v38) : S4x131072x1.Idx → EReal) = Cert.Sampling.WZ (aP m c) ∧
    (mid m c (Proc.devRef .tc main_v40) : S4x131072.Idx → BitVec 32) = Cert.Sampling.X0 (aP m c) ∧
    (mid m c (Proc.devRef .tc main_v43) : S4x131072.Idx → BitVec 32) = Cert.Sampling.X1 (aP m c) ∧
    (mid m c (Proc.devRef .tc main_v45) : S4x131072.Idx → BitVec 32) = Cert.Sampling.Y0 (aP m c) ∧
    (mid m c (Proc.devRef .tc main_v48) : S4x131072.Idx → BitVec 32) = Cert.Sampling.Y1 (aP m c) ∧
    (mid m c (Proc.devRef .tc main_v50) : S4x131072.Idx → BitVec 32) = Cert.Sampling.Z0 (aP m c) ∧
    (mid m c (Proc.devRef .tc main_v53) : S4x131072.Idx → BitVec 32) = Cert.Sampling.Z1 (aP m c) := by
  have ha0 : mid m c (Proc.devRef .tc main_arg0) = m (c, Proc.devRef .tc main_arg0) :=
    after_of_rank_le rk _ 7 preOps_lo _ _ (by decide)
  have ha1 : mid m c (Proc.devRef .tc main_arg1) = m (c, Proc.devRef .tc main_arg1) :=
    after_of_rank_le rk _ 7 preOps_lo _ _ (by decide)
  dsimp only [mid] at ha0 ha1 ⊢
  generalize hR : StableHlo.after preOps (fun b => m (c, b)) = R at ha0 ha1 ⊢
  have hfix := preOps_fix m c R hR
  simp (config := {decide := true}) only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, List.Forall, nullary_fix_iff, unary_fix_iff, binary_fix_iff, ternary_fix_iff, quaternary_fix_iff, reshape_fix_iff] at hfix
  refine ⟨?_, ?_, ?_, ?_, ?_, ?_, ?_, ?_, ?_, ?_⟩ <;> (simp only [hfix, ha0, ha1]; rfl)

set_option maxHeartbeats 400000000 in
theorem V_feat : kFt m c
    = shapeCast S524288x32 (truncf (F := Ideal) .bf16 (Cert.Sampling.sampled (Cert.Sampling.gatherFlat (aF m c)) (aP m c)) bitsLt_bf16_f32)
        shapeCasts_S4x131072x32_S524288x32 := by
  obtain ⟨s1, s34, s36, s38, s40, s43, s45, s48, s50, s53⟩ := mid_stages m c
  -- the second stretch leaves those ten buffers alone
  have u := fun (b : DevRef τ sig) (hb : rk b ≤ 117) => after_of_rank_le rk sufOps 117 sufOps_lo (mid m c) b hb
  have u1 := u (Proc.devRef .tc main_v1) (by decide)
  have u34 := u (Proc.devRef .tc main_v34) (by decide)
  have u36 := u (Proc.devRef .tc main_v36) (by decide)
  have u38 := u (Proc.devRef .tc main_v38) (by decide)
  have u40 := u (Proc.devRef .tc main_v40) (by decide)
  have u43 := u (Proc.devRef .tc main_v43) (by decide)
  have u45 := u (Proc.devRef .tc main_v45) (by decide)
  have u48 := u (Proc.devRef .tc main_v48) (by decide)
  have u50 := u (Proc.devRef .tc main_v50) (by decide)
  have u53 := u (Proc.devRef .tc main_v53) (by decide)
  rw [s1] at u1; rw [s34] at u34; rw [s36] at u36; rw [s38] at u38; rw [s40] at u40; rw [s43] at u43
  rw [s45] at u45; rw [s48] at u48; rw [s50] at u50; rw [s53] at u53
  clear u s1 s34 s36 s38 s40 s43 s45 s48 s50 s53
  dsimp only [kFt, Gen.V]
  rw [V0_eq]
  generalize hW : mid m c = W at *
  generalize hR : StableHlo.after sufOps W = R at *
  have hfix := sufOps_fix W R hR
  simp (config := {decide := true}) only [sufOps, hostOps0_12, List.Forall, nullary_fix_iff, unary_fix_iff, binary_fix_iff, ternary_fix_iff, quaternary_fix_iff, reshape_fix_iff] at hfix
  -- the sixteen start-index columns: the batch column and the wrapped flat position of each of the eight fetches
  have c73 : (R (Proc.devRef .tc main_v73) : S4x131072x1.Idx → BitVec 32) = Cert.Sampling.batchCol := by
    simp only [hfix]; rfl
  have c74 : (R (Proc.devRef .tc main_v74) : S4x131072x1.Idx → BitVec 32)
      = Cert.Sampling.col (Cert.Sampling.wrap 262144#32 (Cert.Sampling.linear (Cert.Sampling.Z0 (aP m c)) (Cert.Sampling.Y0 (aP m c)) (Cert.Sampling.X0 (aP m c)))) := by
    simp only [hfix, u50, u45, u40]; rfl
  have c98 : (R (Proc.devRef .tc main_v98) : S4x131072x1.Idx → BitVec 32) = Cert.Sampling.batchCol := by
    simp only [hfix]; rfl
  have c99 : (R (Proc.devRef .tc main_v99) : S4x131072x1.Idx → BitVec 32)
      = Cert.Sampling.col (Cert.Sampling.wrap 262144#32 (Cert.Sampling.linear (Cert.Sampling.Z0 (aP m c)) (Cert.Sampling.Y0 (aP m c)) (Cert.Sampling.X1 (aP m c)))) := by
    simp only [hfix, u50, u45, u43]; rfl
  have c122 : (R (Proc.devRef .tc main_v122) : S4x131072x1.Idx → BitVec 32) = Cert.Sampling.batchCol := by
    simp only [hfix]; rfl
  have c123 : (R (Proc.devRef .tc main_v123) : S4x131072x1.Idx → BitVec 32)
      = Cert.Sampling.col (Cert.Sampling.wrap 262144#32 (Cert.Sampling.linear (Cert.Sampling.Z0 (aP m c)) (Cert.Sampling.Y1 (aP m c)) (Cert.Sampling.X0 (aP m c)))) := by
    simp only [hfix, u50, u48, u40]; rfl
  have c147 : (R (Proc.devRef .tc main_v147) : S4x131072x1.Idx → BitVec 32) = Cert.Sampling.batchCol := by
    simp only [hfix]; rfl
  have c148 : (R (Proc.devRef .tc main_v148) : S4x131072x1.Idx → BitVec 32)
      = Cert.Sampling.col (Cert.Sampling.wrap 262144#32 (Cert.Sampling.linear (Cert.Sampling.Z0 (aP m c)) (Cert.Sampling.Y1 (aP m c)) (Cert.Sampling.X1 (aP m c)))) := by
    simp only [hfix, u50, u48, u43]; rfl
  have c171 : (R (Proc.devRef .tc main_v171) : S4x131072x1.Idx → BitVec 32) = Cert.Sampling.batchCol := by
    simp only [hfix]; rfl
  have c172 : (R (Proc.devRef .tc main_v172) : S4x131072x1.Idx → BitVec 32)
      = Cert.Sampling.col (Cert.Sampling.wrap 262144#32 (Cert.Sampling.linear (Cert.Sampling.Z1 (aP m c)) (Cert.Sampling.Y0 (aP m c)) (Cert.Sampling.X0 (aP m c)))) := by
    simp only [hfix, u53, u45, u40]; rfl
  have c196 : (R (Proc.devRef .tc main_v196) : S4x131072x1.Idx → BitVec 32) = Cert.Sampling.batchCol := by
    simp only [hfix]; rfl
  have c197 : (R (Proc.devRef .tc main_v197) : S4x131072x1.Idx → BitVec 32)
      = Cert.Sampling.col (Cert.Sampling.wrap 262144#32 (Cert.Sampling.linear (Cert.Sampling.Z1 (aP m c)) (Cert.Sampling.Y0 (aP m c)) (Cert.Sampling.X1 (aP m c)))) := by
    simp only [hfix, u53, u45, u43]; rfl
  have c220 : (R (Proc.devRef .tc main_v220) : S4x131072x1.Idx → BitVec 32) = Cert.Sampling.batchCol := by
    simp only [hfix]; rfl
  have c221 : (R (Proc.devRef .tc main_v221) : S4x131072x1.Idx → BitVec 32)
      = Cert.Sampling.col (Cert.Sampling.wrap 262144#32 (Cert.Sampling.linear (Cert.Sampling.Z1 (aP m c)) (Cert.Sampling.Y1 (aP m c)) (Cert.Sampling.X0 (aP m c)))) := by
    simp only [hfix, u53, u48, u40]; rfl
  have c245 : (R (Proc.devRef .tc main_v245) : S4x131072x1.Idx → BitVec 32) = Cert.Sampling.batchCol := by
    simp only [hfix]; rfl
  have c246 : (R (Proc.devRef .tc main_v246) : S4x131072x1.Idx → BitVec 32)
      = Cert.Sampling.col (Cert.Sampling.wrap 262144#32 (Cert.Sampling.linear (Cert.Sampling.Z1 (aP m c)) (Cert.Sampling.Y1 (aP m c)) (Cert.Sampling.X1 (aP m c)))) := by
    simp only [hfix, u53, u48, u43]; rfl
  simp only [hfix, u1, u34, u36, u38]
  rw [c73, c74, c98, c99, c122, c123, c147, c148, c171, c172, c196, c197, c220, c221, c245, c246]
  rfl

end Cert.KernelArrays

end
-- ==== Proof.KernelInputs.lean ====
/-
  The kernel's input arrays read at an index, in the arguments' own coordinates.

  Row 131072 · b + n of the merged point and feature arrays is sample (b, n) (narrowing to the short float format is the
  identity at the exact values); the transposed and cut weight arrays read the weight matrices with the two coordinates
  exchanged, the channel rows starting at column 3 of the first matrix; a bias row reads its vector.
-/
import proofs.«114979_j32804960207257_2_alg».proof.Proof.KernelArrays
import proofs.«114979_j32804960207257_2_alg».proof.Proof.KernelFeat

noncomputable section

namespace Cert.KernelArrays

open Idealize.ShloMosaic Idealize.ShloMosaic.ValueIdx Idealize.ShloMosaic.StableHlo Idealize.ShloMosaic.TcCoe Idealize.SL.Sem
open Cert.KernelIdeal Cert.KernelIdeal.Gen
open Cert.Lib.MergeRows (flatRow)

variable (m : (ℓ : Loc nD τ sig) → Buf (Elt Ideal) ℓ) (c : Dev nD)

/-- The 524288 rows are the 4 batches of 131072 samples. -/
theorem rows_eq : (524288 : Nat) = 4 * 131072 := by norm_num

theorem points_row (b : Fin 4) (n : Fin 131072) (d : Fin 3) :
    kP m c (ix2 (flatRow rows_eq b n) d) = aP m c (ix3 b n d) := by
  rw [V_points]
  exact Cert.Lib.MergeRows.merge_apply rows_eq (truncf (F := Ideal) .bf16 (aP m c) bitsLt_bf16_f32) shapeCasts_S4x131072x3_S524288x3 b n d

theorem feat_row (b : Fin 4) (n : Fin 131072) (ch : Fin 32) :
    kFt m c (ix2 (flatRow rows_eq b n) ch)
      = Cert.Sampling.sampled (Cert.Sampling.gatherFlat (aF m c)) (aP m c) (ix3 b n ch) := by
  rw [V_feat]
  exact Cert.Lib.MergeRows.merge_apply rows_eq
    (truncf (F := Ideal) .bf16 (Cert.Sampling.sampled (Cert.Sampling.gatherFlat (aF m c)) (aP m c)) bitsLt_bf16_f32)
    shapeCasts_S4x131072x32_S524288x32 b n ch

theorem w1a_apply (d : Fin 3) (h : Fin 128) :
    kW1a m c (ix2 d h) = aW1 m c (ix2 h (Fin.castAdd 32 d)) := by
  rw [V_w1a]
  show extractStridedSlice S3x128 ![0, 0] (transpose S35x128 [1, 0] (aW1 m c) transposes_S128x35_S35x128_1_0)
    slices_S35x128_S3x128_0_0 (ix2 d h) = _
  refine (extractStridedSlice_apply ![0, 0] _ slices_S35x128_S3x128_0_0 (ix2 d h) (ix2 (Fin.castAdd 32 d) h) fun a => ?_).trans ?_
  · match a with
    | ⟨0, _⟩ => show d.val = 0 + d.val; omega
    | ⟨1, _⟩ => show h.val = 0 + h.val; omega
  · exact Cert.Lib.MergeRows.transpose_apply (aW1 m c) transposes_S128x35_S35x128_1_0 (Fin.castAdd 32 d) h

theorem w1b_apply (ch : Fin 32) (h : Fin 128) :
    kW1b m c (ix2 ch h) = aW1 m c (ix2 h (Fin.natAdd 3 ch)) := by
  rw [V_w1b]
  show extractStridedSlice S32x128 ![3, 0] (transpose S35x128 [1, 0] (aW1 m c) transposes_S128x35_S35x128_1_0)
    slices_S35x128_S32x128_3_0 (ix2 ch h) = _
  refine (extractStridedSlice_apply ![3, 0] _ slices_S35x128_S32x128_3_0 (ix2 ch h) (ix2 (Fin.natAdd 3 ch) h) fun a => ?_).trans ?_
  · match a with
    | ⟨0, _⟩ => show 3 + ch.val = 3 + ch.val; rfl
    | ⟨1, _⟩ => show h.val = 0 + h.val; omega
  · exact Cert.Lib.MergeRows.transpose_apply (aW1 m c) transposes_S128x35_S35x128_1_0 (Fin.natAdd 3 ch) h

theorem w2_apply (h g : Fin 128) :
    kW2 m c (ix2 h g) = aW2 m c (ix2 g h) := by
  rw [V_w2]
  exact Cert.Lib.MergeRows.transpose_apply (aW2 m c) transposes_S128x128_S128x128_1_0 h g

theorem w3_apply (g : Fin 128) :
    kW3 m c (ix2 g (0 : Fin 1)) = aW3 m c (ix2 (0 : Fin 1) g) := by
  rw [V_w3]
  exact Cert.Lib.MergeRows.transpose_apply (aW3 m c) transposes_S1x128_S128x1_1_0 g (0 : Fin 1)

theorem b1_apply (h : Fin 128) : kB1 m c (ix2 (0 : Fin 1) h) = aB1 m c (ix1 h) := by
  rw [V_b1]
  exact Cert.Lib.MergeRows.row_apply (aB1 m c) shapeCasts_S128_S1x128 h

theorem b2_apply (g : Fin 128) : kB2 m c (ix2 (0 : Fin 1) g) = aB2 m c (ix1 g) := by
  rw [V_b2]
  exact Cert.Lib.MergeRows.row_apply (aB2 m c) shapeCasts_S128_S1x128 g

theorem b3_apply : kB3 m c (ix2 (0 : Fin 1) (0 : Fin 1)) = aB3 m c (ix1 (0 : Fin 1)) := by
  rw [V_b3]
  exact Cert.Lib.MergeRows.row_apply (aB3 m c) shapeCasts_S1_S1x1 (0 : Fin 1)

end Cert.KernelArrays

end
-- ==== Proof.RefMlp.lean ====
/-
  The reference's last stretch is the perceptron of each sample.

  After the feature vectors are sampled, the reference joins each sample's three coordinates and thirty-two channels into
  one vector of thirty-five, takes it against the 128 rows of the first weight matrix, adds the bias, keeps the positive
  part, and repeats with the second weight matrix and with the output row. Read at sample (b, n): the sum over the joined
  axis splits into the first three positions (the coordinates) and the other thirty-two (the channels), since a sum over
  Fin (3 + 32) is the sum over Fin 3 plus the sum over Fin 32; the rest is the perceptron as written, the weight matrices
  read row by unit.
-/
import proofs.«114979_j32804960207257_2_alg».proof.Proof.RefReadP
import proofs.«114979_j32804960207257_2_alg».proof.Proof.MlpSpec
import Idealize.ShloMosaic.Lib.Pipeline.Value
import Idealize.ShloMosaic.Lib.ValueIdx
import Idealize.ShloMosaic.PureOps.Ideal.Laws

noncomputable section

namespace Cert.RefMlp

open Idealize.ShloMosaic Idealize.ShloMosaic.ValueIdx Cert.ReferenceIdeal Cert.ReferenceIdeal.ReadP
open Cert.ReferenceIdeal.Facts₀ Cert.ReferenceIdeal.Facts
open scoped BigOperators

/-- The joined vector at a coordinate position is the point's coordinate. -/
theorem joined_left (feat : FVec Ideal S4x131072x32 .f32) (p : FVec Ideal S4x131072x3 .f32)
    (b : Fin 4) (n : Fin 131072) (d : Fin 3) :
    concatenate S4x131072x35 2 [⟨S4x131072x3, p⟩, ⟨S4x131072x32, feat⟩] concatenates_S4x131072x3_S4x131072x32_S4x131072x35_d2
      (ix3 b n (Fin.castAdd 32 d)) = p (ix3 b n d) :=
  concatenate_pair_apply_left (t := S4x131072x35) (s₁ := S4x131072x3) (s₂ := S4x131072x32) 2 p feat
    concatenates_S4x131072x3_S4x131072x32_S4x131072x35_d2 (ix3 b n (Fin.castAdd 32 d)) rfl (ix3 b n d) fun a => by
    match a with
    | ⟨0, _⟩ => rfl
    | ⟨1, _⟩ => rfl
    | ⟨2, _⟩ => rfl

/-- The joined vector at a channel position is the sampled feature's channel. -/
theorem joined_right (feat : FVec Ideal S4x131072x32 .f32) (p : FVec Ideal S4x131072x3 .f32)
    (b : Fin 4) (n : Fin 131072) (ch : Fin 32) :
    concatenate S4x131072x35 2 [⟨S4x131072x3, p⟩, ⟨S4x131072x32, feat⟩] concatenates_S4x131072x3_S4x131072x32_S4x131072x35_d2
      (ix3 b n (Fin.natAdd 3 ch)) = feat (ix3 b n ch) :=
  concatenate_pair_apply_right (t := S4x131072x35) (s₁ := S4x131072x3) (s₂ := S4x131072x32) 2 p feat
    concatenates_S4x131072x3_S4x131072x32_S4x131072x35_d2 (ix3 b n (Fin.natAdd 3 ch)) rfl rfl (ix3 b n ch)
    (fun a ha => by
      match a, ha with
      | ⟨0, _⟩, _ => rfl
      | ⟨1, _⟩, _ => rfl
      | ⟨2, _⟩, ha => exact absurd (Fin.ext rfl) ha)
    (by show ch.val + 3 = 3 + ch.val; omega)

/-- A sum over the thirty-five joined positions is the sum over the three coordinates plus the sum over the channels. -/
theorem sum35 (f : Fin 35 → EReal) :
    ∑ k : Fin 35, f k = ∑ d : Fin 3, f (Fin.castAdd 32 d) + ∑ ch : Fin 32, f (Fin.natAdd 3 ch) :=
  Fin.sum_univ_add (a := 3) (b := 32) f

theorem lidx320 (b : Fin 4) (n : Fin 131072) (h : Fin 128) (k : Fin 35) :
    lidx_main_v320 (ix3 b n h) k = ix3 b n k := by
  funext a; match a with | ⟨0, _⟩ => rfl | ⟨1, _⟩ => rfl | ⟨2, _⟩ => rfl
theorem ridx320 (b : Fin 4) (n : Fin 131072) (h : Fin 128) (k : Fin 35) :
    ridx_main_v320 (ix3 b n h) k = ix2 h k := by
  funext a; match a with | ⟨0, _⟩ => rfl | ⟨1, _⟩ => rfl
theorem lidx325 (b : Fin 4) (n : Fin 131072) (g : Fin 128) (k : Fin 128) :
    lidx_main_v325 (ix3 b n g) k = ix3 b n k := by
  funext a; match a with | ⟨0, _⟩ => rfl | ⟨1, _⟩ => rfl | ⟨2, _⟩ => rfl
theorem ridx325 (b : Fin 4) (n : Fin 131072) (g : Fin 128) (k : Fin 128) :
    ridx_main_v325 (ix3 b n g) k = ix2 g k := by
  funext a; match a with | ⟨0, _⟩ => rfl | ⟨1, _⟩ => rfl
theorem lidx330 (b : Fin 4) (n : Fin 131072) (k : Fin 128) :
    lidx_main_v330 (ix3 b n (0 : Fin 1)) k = ix3 b n k := by
  funext a; match a with | ⟨0, _⟩ => rfl | ⟨1, _⟩ => rfl | ⟨2, _⟩ => rfl
theorem ridx330 (b : Fin 4) (n : Fin 131072) (k : Fin 128) :
    ridx_main_v330 (ix3 b n (0 : Fin 1)) k = ix2 (0 : Fin 1) k := by
  funext a; match a with | ⟨0, _⟩ => rfl | ⟨1, _⟩ => rfl

/-- The bias of the first two layers, broadcast over the samples, read at unit h. -/
theorem bias322 (x3 : FVec Ideal S128 .f32) (b : Fin 4) (n : Fin 131072) (h : Fin 128) :
    val_main_v322 (F := Ideal) x3 (ix3 b n h) = x3 (ix1 h) := by
  rw [val_main_v322_apply, val_main_v321_apply]
  exact congrArg x3 (funext fun a => match a with | ⟨0, _⟩ => rfl)
theorem bias327 (x5 : FVec Ideal S128 .f32) (b : Fin 4) (n : Fin 131072) (g : Fin 128) :
    val_main_v327 (F := Ideal) x5 (ix3 b n g) = x5 (ix1 g) := by
  rw [val_main_v327_apply, val_main_v326_apply]
  exact congrArg x5 (funext fun a => match a with | ⟨0, _⟩ => rfl)
theorem bias332 (x7 : FVec Ideal S1 .f32) (b : Fin 4) (n : Fin 131072) :
    val_main_v332 (F := Ideal) x7 (ix3 b n (0 : Fin 1)) = x7 (ix1 (0 : Fin 1)) := by
  rw [val_main_v332_apply, val_main_v331_apply]
  exact congrArg x7 (funext fun a => match a with | ⟨0, _⟩ => rfl)

/-- The zero the positive part compares with. -/
theorem zero324 (i : S4x131072x128.Idx) : val_main_call6_v0 (F := Ideal) i = 0 := by
  rw [val_main_call6_v0_apply, val_main_call6_cst_apply]
  exact Ideal.ofBits_zero_f32
theorem zero329 (i : S4x131072x128.Idx) : val_main_call7_v0 (F := Ideal) i = 0 := by
  rw [val_main_call7_v0_apply, val_main_call7_cst_apply]
  exact Ideal.ofBits_zero_f32

/-- The first layer at sample (b, n), unit h. -/
theorem layer1_apply (x0 : FVec Ideal S4x32x64x64x64 .f32) (p : FVec Ideal S4x131072x3 .f32) (W1 : FVec Ideal S128x35 .f32)
    (b1 : FVec Ideal S128 .f32) (b : Fin 4) (n : Fin 131072) (h : Fin 128) :
    val_main_v324 (F := Ideal) x0 p W1 b1 (ix3 b n h)
      = Cert.Mlp.layer1 (fun d => p (ix3 b n d)) (fun ch => val_main_v318 (F := Ideal) x0 p (ix3 b n ch))
          (fun d h => W1 (ix2 h (Fin.castAdd 32 d))) (fun ch h => W1 (ix2 h (Fin.natAdd 3 ch))) (fun h => b1 (ix1 h)) h := by
  have e3 : ∀ d : Fin 3, val_main_v319 (F := Ideal) x0 p (lidx_main_v320 (ix3 b n h) (Fin.castAdd 32 d))
      * W1 (ridx_main_v320 (ix3 b n h) (Fin.castAdd 32 d)) = p (ix3 b n d) * W1 (ix2 h (Fin.castAdd 32 d)) := fun d => by
    rw [lidx320, ridx320]
    unfold val_main_v319
    rw [joined_left]
  have e32 : ∀ ch : Fin 32, val_main_v319 (F := Ideal) x0 p (lidx_main_v320 (ix3 b n h) (Fin.natAdd 3 ch))
      * W1 (ridx_main_v320 (ix3 b n h) (Fin.natAdd 3 ch))
      = val_main_v318 (F := Ideal) x0 p (ix3 b n ch) * W1 (ix2 h (Fin.natAdd 3 ch)) := fun ch => by
    rw [lidx320, ridx320]
    unfold val_main_v319
    rw [joined_right]
  rw [val_main_v324_apply, val_main_v323_apply, val_main_v320_apply, bias322, zero324, sum35,
    Finset.sum_congr rfl (fun d _ => e3 d), Finset.sum_congr rfl (fun ch _ => e32 ch)]
  rfl

/-- The second layer at sample (b, n), unit g. -/
theorem layer2_apply (x0 : FVec Ideal S4x32x64x64x64 .f32) (p : FVec Ideal S4x131072x3 .f32) (W1 : FVec Ideal S128x35 .f32)
    (b1 : FVec Ideal S128 .f32) (W2 : FVec Ideal S128x128 .f32) (b2 : FVec Ideal S128 .f32) (b : Fin 4) (n : Fin 131072) (g : Fin 128) :
    val_main_v329 (F := Ideal) x0 p W1 b1 W2 b2 (ix3 b n g)
      = Cert.Mlp.layer2 (fun h => val_main_v324 (F := Ideal) x0 p W1 b1 (ix3 b n h)) (fun h g => W2 (ix2 g h)) (fun g => b2 (ix1 g)) g := by
  have e : ∀ k : Fin 128, val_main_v324 (F := Ideal) x0 p W1 b1 (lidx_main_v325 (ix3 b n g) k) * W2 (ridx_main_v325 (ix3 b n g) k)
      = val_main_v324 (F := Ideal) x0 p W1 b1 (ix3 b n k) * W2 (ix2 g k) := fun k => by rw [lidx325, ridx325]
  rw [val_main_v329_apply, val_main_v328_apply, val_main_v325_apply, bias327, zero329, Finset.sum_congr rfl (fun k _ => e k)]
  rfl

/-- The reference's result at sample (b, n) is the perceptron of the sample's coordinates and sampled channels. -/
theorem result_apply (x0 : FVec Ideal S4x32x64x64x64 .f32) (p : FVec Ideal S4x131072x3 .f32) (W1 : FVec Ideal S128x35 .f32)
    (b1 : FVec Ideal S128 .f32) (W2 : FVec Ideal S128x128 .f32) (b2 : FVec Ideal S128 .f32) (W3 : FVec Ideal S1x128 .f32)
    (b3 : FVec Ideal S1 .f32) (b : Fin 4) (n : Fin 131072) :
    val_main_v333 (F := Ideal) x0 p W1 b1 W2 b2 W3 b3 (ix3 b n (0 : Fin 1))
      = Cert.Mlp.mlp (fun d => p (ix3 b n d)) (fun ch => val_main_v318 (F := Ideal) x0 p (ix3 b n ch))
          (fun d h => W1 (ix2 h (Fin.castAdd 32 d))) (fun ch h => W1 (ix2 h (Fin.natAdd 3 ch))) (fun h => b1 (ix1 h))
          (fun h g => W2 (ix2 g h)) (fun g => b2 (ix1 g)) (fun g => W3 (ix2 (0 : Fin 1) g)) (b3 (ix1 (0 : Fin 1))) := by
  have e : ∀ k : Fin 128, val_main_v329 (F := Ideal) x0 p W1 b1 W2 b2 (lidx_main_v330 (ix3 b n (0 : Fin 1)) k)
        * W3 (ridx_main_v330 (ix3 b n (0 : Fin 1)) k)
      = Cert.Mlp.layer2 (Cert.Mlp.layer1 (fun d => p (ix3 b n d)) (fun ch => val_main_v318 (F := Ideal) x0 p (ix3 b n ch))
          (fun d h => W1 (ix2 h (Fin.castAdd 32 d))) (fun ch h => W1 (ix2 h (Fin.natAdd 3 ch))) (fun h => b1 (ix1 h)))
          (fun h g => W2 (ix2 g h)) (fun g => b2 (ix1 g)) k * W3 (ix2 (0 : Fin 1) k) := fun k => by
    rw [lidx330, ridx330, layer2_apply]
    have hl : (fun h => val_main_v324 (F := Ideal) x0 p W1 b1 (ix3 b n h))
        = Cert.Mlp.layer1 (fun d => p (ix3 b n d)) (fun ch => val_main_v318 (F := Ideal) x0 p (ix3 b n ch))
          (fun d h => W1 (ix2 h (Fin.castAdd 32 d))) (fun ch h => W1 (ix2 h (Fin.natAdd 3 ch))) (fun h => b1 (ix1 h)) :=
      funext fun h => layer1_apply x0 p W1 b1 b n h
    rw [hl]
  rw [val_main_v333_apply, val_main_v330_apply, bias332, Finset.sum_congr rfl (fun k _ => e k)]
  rfl

end Cert.RefMlp

end
-- ==== Proof.GatherLayout.lean ====
/-
  A feature grid f of shape [4, 32, 64, 64, 64] (batch, channel, z, y, x) is moved to channel-last
  [4, 64, 64, 64, 32] by the transpose with permutation [0, 2, 3, 4, 1] and flattened to [4, 262144, 32].
  Gathering row (b, z * 4096 + y * 64 + x) of the flat array with a two-component index (batch, linear position)
  gives, channel by channel, what gathering f itself gives with a four-component index (batch, z, y, x) whose
  slice keeps the whole channel axis.

  The proof reads both gathers at a result index (b, n, c): each operand coordinate is the clamped start on a
  collapsed axis of the start index map and the offset coordinate c on the kept axis; the flat side then goes
  through the reshape (equal row-major positions) and the transpose (coordinates permuted), and the clamps
  disappear by the bounds on the coordinates.
-/
import Idealize.ShloMosaic.Lib.Pipeline.Value
import Idealize.ShloMosaic.Lib.ValueIdx

open Idealize.ShloMosaic Idealize.ShloMosaic.ValueIdx

namespace Cert.GatherLayout

/-! ## A gather's operand coordinate, axis by axis (any dimension numbers) -/

section Generic
variable {s si t : Shape} (d : GatherDims s si t)

/-- On an axis the start index map names, the start is the named component, read signed and clamped. -/
theorem start_of_mem {w : Nat} (j : t.Idx) (idx : IVec si w) (a : Fin s.rank) (ha : a ∈ d.startIndexMap)
    (k : si.Idx) (hk : d.siIdx j ⟨d.startIndexMap.idxOf a, List.idxOf_lt_length_iff.2 ha⟩ = k) :
    d.start j idx a = min (idx k).toInt.toNat (s.size a - d.sliceSizes a) := by
  unfold GatherDims.start
  rw [dif_pos ha, hk]

/-- On an axis the start index map does not name, the start is 0. -/
theorem start_of_not_mem {w : Nat} (j : t.Idx) (idx : IVec si w) (a : Fin s.rank) (ha : a ∉ d.startIndexMap) :
    d.start j idx a = 0 := by
  unfold GatherDims.start
  rw [dif_neg ha]

/-- A collapsed, non-batching axis of the start index map: the operand coordinate is the clamped start. -/
theorem coord_collapsed {w : Nat} (j : t.Idx) (idx : IVec si w) (a : Fin s.rank) (ha : a ∈ d.startIndexMap)
    (hc : a ∈ d.collapsedSliceDims) (hb : a ∉ d.operandBatchingDims)
    (k : si.Idx) (hk : d.siIdx j ⟨d.startIndexMap.idxOf a, List.idxOf_lt_length_iff.2 ha⟩ = k) :
    (d.operandIdx j idx a).val = min (idx k).toInt.toNat (s.size a - d.sliceSizes a) := by
  show d.start j idx a + d.batchCoord j a + d.offCoord j a = _
  rw [d.batchCoord_eq_zero j a hb, d.offCoord_eq_zero j a (fun h => ((d.mem_sKept a).1 h).1 hc),
    start_of_mem d j idx a ha k hk]
  omega

/-- A kept axis outside the start index map: the operand coordinate is the offset coordinate. -/
theorem coord_offset {w : Nat} (j : t.Idx) (idx : IVec si w) (a : Fin s.rank) (ha : a ∉ d.startIndexMap)
    (hb : a ∉ d.operandBatchingDims) :
    (d.operandIdx j idx a).val = d.offCoord j a := by
  show d.start j idx a + d.batchCoord j a + d.offCoord j a = _
  rw [d.batchCoord_eq_zero j a hb, start_of_not_mem d j idx a ha]
  omega

end Generic

/-! ## The shapes and the two gathers' dimension numbers -/

abbrev SF : Shape := ⟨5, ![4, 32, 64, 64, 64]⟩
abbrev SFt : Shape := ⟨5, ![4, 64, 64, 64, 32]⟩
abbrev SFl : Shape := ⟨3, ![4, 262144, 32]⟩
abbrev SI2 : Shape := ⟨3, ![4, 131072, 2]⟩
abbrev SI4 : Shape := ⟨3, ![4, 131072, 4]⟩
abbrev SO : Shape := ⟨3, ![4, 131072, 32]⟩

/-- The gather of rows of the flat array: start index (batch, linear position), the whole channel row kept. -/
abbrev dimsFlat (wf : GatherDims.WF SFl SI2 SO [2] [0, 1] [] [0, 1] [] 2 ![1, 1, 32]) : GatherDims SFl SI2 SO :=
  { offsetDims := [2], collapsedSliceDims := [0, 1], operandBatchingDims := [], startIndicesBatchingDims := [],
    startIndexMap := [0, 1], indexVectorDim := 2, sliceSizes := ![1, 1, 32], wf := wf }

/-- The gather of the grid itself: start index (batch, z, y, x), the whole channel axis kept. -/
abbrev dimsGrid (wf : GatherDims.WF SF SI4 SO [2] [0, 2, 3, 4] [] [0, 2, 3, 4] [] 2 ![1, 32, 1, 1, 1]) :
    GatherDims SF SI4 SO :=
  { offsetDims := [2], collapsedSliceDims := [0, 2, 3, 4], operandBatchingDims := [], startIndicesBatchingDims := [],
    startIndexMap := [0, 2, 3, 4], indexVectorDim := 2, sliceSizes := ![1, 32, 1, 1, 1], wf := wf }

/-! ## The flat gather's operand index at (b, n, c) -/

section Flat
variable (wf : GatherDims.WF SFl SI2 SO [2] [0, 1] [] [0, 1] [] 2 ![1, 1, 32]) (IK : IVec SI2 32)
  (b : Fin 4) (n : Fin 131072) (c : Fin 32)

theorem flat_coord0 :
    ((dimsFlat wf).operandIdx (ix3 b n c) IK (0 : Fin 3)).val = min (IK (ix3 b n (0 : Fin 2))).toInt.toNat 3 :=
  coord_collapsed (dimsFlat wf) (ix3 b n c) IK (0 : Fin 3)
    (show (0 : Fin 3) ∈ ([0, 1] : List (Fin 3)) by decide)
    (show (0 : Fin 3) ∈ ([0, 1] : List (Fin 3)) by decide) List.not_mem_nil (ix3 b n (0 : Fin 2))
    (by funext a; refine Fin.ext ?_
        match a with
        | ⟨0, _⟩ => rfl
        | ⟨1, _⟩ => rfl
        | ⟨2, _⟩ => rfl)

theorem flat_coord1 :
    ((dimsFlat wf).operandIdx (ix3 b n c) IK (1 : Fin 3)).val = min (IK (ix3 b n (1 : Fin 2))).toInt.toNat 262143 :=
  coord_collapsed (dimsFlat wf) (ix3 b n c) IK (1 : Fin 3)
    (show (1 : Fin 3) ∈ ([0, 1] : List (Fin 3)) by decide)
    (show (1 : Fin 3) ∈ ([0, 1] : List (Fin 3)) by decide) List.not_mem_nil (ix3 b n (1 : Fin 2))
    (by funext a; refine Fin.ext ?_
        match a with
        | ⟨0, _⟩ => rfl
        | ⟨1, _⟩ => rfl
        | ⟨2, _⟩ => rfl)

theorem flat_coord2 : ((dimsFlat wf).operandIdx (ix3 b n c) IK (2 : Fin 3)).val = c.val := by
  rw [coord_offset (dimsFlat wf) (ix3 b n c) IK (2 : Fin 3)
    (show (2 : Fin 3) ∉ ([0, 1] : List (Fin 3)) by decide) List.not_mem_nil]
  have hk : (2 : Fin 3) ∈ (dimsFlat wf).sKept :=
    ((dimsFlat wf).mem_sKept (2 : Fin 3)).2
      ⟨show (2 : Fin 3) ∉ ([0, 1] : List (Fin 3)) by decide, List.not_mem_nil⟩
  unfold GatherDims.offCoord
  rw [dif_pos hk]
  rfl

end Flat

/-! ## The grid gather's operand index at (b, n, c) -/

section Grid
variable (wf : GatherDims.WF SF SI4 SO [2] [0, 2, 3, 4] [] [0, 2, 3, 4] [] 2 ![1, 32, 1, 1, 1]) (IR : IVec SI4 32)
  (b : Fin 4) (n : Fin 131072) (c : Fin 32)

theorem grid_coord0 :
    ((dimsGrid wf).operandIdx (ix3 b n c) IR (0 : Fin 5)).val = min (IR (ix3 b n (0 : Fin 4))).toInt.toNat 3 :=
  coord_collapsed (dimsGrid wf) (ix3 b n c) IR (0 : Fin 5)
    (show (0 : Fin 5) ∈ ([0, 2, 3, 4] : List (Fin 5)) by decide)
    (show (0 : Fin 5) ∈ ([0, 2, 3, 4] : List (Fin 5)) by decide) List.not_mem_nil (ix3 b n (0 : Fin 4))
    (by funext a; refine Fin.ext ?_
        match a with
        | ⟨0, _⟩ => rfl
        | ⟨1, _⟩ => rfl
        | ⟨2, _⟩ => rfl)

theorem grid_coord2 :
    ((dimsGrid wf).operandIdx (ix3 b n c) IR (2 : Fin 5)).val = min (IR (ix3 b n (1 : Fin 4))).toInt.toNat 63 :=
  coord_collapsed (dimsGrid wf) (ix3 b n c) IR (2 : Fin 5)
    (show (2 : Fin 5) ∈ ([0, 2, 3, 4] : List (Fin 5)) by decide)
    (show (2 : Fin 5) ∈ ([0, 2, 3, 4] : List (Fin 5)) by decide) List.not_mem_nil (ix3 b n (1 : Fin 4))
    (by funext a; refine Fin.ext ?_
        match a with
        | ⟨0, _⟩ => rfl
        | ⟨1, _⟩ => rfl
        | ⟨2, _⟩ => rfl)

theorem grid_coord3 :
    ((dimsGrid wf).operandIdx (ix3 b n c) IR (3 : Fin 5)).val = min (IR (ix3 b n (2 : Fin 4))).toInt.toNat 63 :=
  coord_collapsed (dimsGrid wf) (ix3 b n c) IR (3 : Fin 5)
    (show (3 : Fin 5) ∈ ([0, 2, 3, 4] : List (Fin 5)) by decide)
    (show (3 : Fin 5) ∈ ([0, 2, 3, 4] : List (Fin 5)) by decide) List.not_mem_nil (ix3 b n (2 : Fin 4))
    (by funext a; refine Fin.ext ?_
        match a with
        | ⟨0, _⟩ => rfl
        | ⟨1, _⟩ => rfl
        | ⟨2, _⟩ => rfl)

theorem grid_coord4 :
    ((dimsGrid wf).operandIdx (ix3 b n c) IR (4 : Fin 5)).val = min (IR (ix3 b n (3 : Fin 4))).toInt.toNat 63 :=
  coord_collapsed (dimsGrid wf) (ix3 b n c) IR (4 : Fin 5)
    (show (4 : Fin 5) ∈ ([0, 2, 3, 4] : List (Fin 5)) by decide)
    (show (4 : Fin 5) ∈ ([0, 2, 3, 4] : List (Fin 5)) by decide) List.not_mem_nil (ix3 b n (3 : Fin 4))
    (by funext a; refine Fin.ext ?_
        match a with
        | ⟨0, _⟩ => rfl
        | ⟨1, _⟩ => rfl
        | ⟨2, _⟩ => rfl)

theorem grid_coord1 : ((dimsGrid wf).operandIdx (ix3 b n c) IR (1 : Fin 5)).val = c.val := by
  rw [coord_offset (dimsGrid wf) (ix3 b n c) IR (1 : Fin 5)
    (show (1 : Fin 5) ∉ ([0, 2, 3, 4] : List (Fin 5)) by decide) List.not_mem_nil]
  have hk : (1 : Fin 5) ∈ (dimsGrid wf).sKept :=
    ((dimsGrid wf).mem_sKept (1 : Fin 5)).2
      ⟨show (1 : Fin 5) ∉ ([0, 2, 3, 4] : List (Fin 5)) by decide, List.not_mem_nil⟩
  unfold GatherDims.offCoord
  rw [dif_pos hk]
  rfl

end Grid

/-! ## The two gathers agree -/

/-- Gathering rows of the channel-last, flattened grid at (batch, z * 4096 + y * 64 + x) is gathering the grid at
    (batch, z, y, x), when the grid coordinates are within [0, 63] (so no clamp acts on them, nor on the linear
    position) and the two batch components agree. -/
theorem gather_flat_eq_grid {α : Type} (f : SF.Idx → α)
    (wfK : GatherDims.WF SFl SI2 SO [2] [0, 1] [] [0, 1] [] 2 ![1, 1, 32])
    (wfR : GatherDims.WF SF SI4 SO [2] [0, 2, 3, 4] [] [0, 2, 3, 4] [] 2 ![1, 32, 1, 1, 1])
    (hT : SF.Transposes [0, 2, 3, 4, 1] SFt) (hC : SFt.ShapeCasts SFl) (IK : IVec SI2 32) (IR : IVec SI4 32)
    (hb : ∀ (b : Fin 4) (n : Fin 131072),
      (IK (ix3 b n (0 : Fin 2))).toInt.toNat = (IR (ix3 b n (0 : Fin 4))).toInt.toNat)
    (hz : ∀ (b : Fin 4) (n : Fin 131072), (IR (ix3 b n (1 : Fin 4))).toInt.toNat ≤ 63)
    (hy : ∀ (b : Fin 4) (n : Fin 131072), (IR (ix3 b n (2 : Fin 4))).toInt.toNat ≤ 63)
    (hx : ∀ (b : Fin 4) (n : Fin 131072), (IR (ix3 b n (3 : Fin 4))).toInt.toNat ≤ 63)
    (hl : ∀ (b : Fin 4) (n : Fin 131072),
      (IK (ix3 b n (1 : Fin 2))).toInt.toNat
        = (IR (ix3 b n (1 : Fin 4))).toInt.toNat * 4096 + (IR (ix3 b n (2 : Fin 4))).toInt.toNat * 64
          + (IR (ix3 b n (3 : Fin 4))).toInt.toNat) :
    Host.gather (dimsFlat wfK) (shapeCast SFl (transpose SFt [0, 2, 3, 4, 1] f hT) hC) IK
      = Host.gather (dimsGrid wfR) f IR := by
  funext j
  obtain ⟨b, n, c, rfl⟩ : ∃ (b : Fin 4) (n : Fin 131072) (c : Fin 32), j = ix3 b n c :=
    ⟨j 0, j 1, j 2, eq_ix3 j⟩
  unfold Host.gather
  -- the coordinates of the two operand indices
  have e0 := flat_coord0 wfK IK b n c
  have e1 := flat_coord1 wfK IK b n c
  have e2 := flat_coord2 wfK IK b n c
  have g0 := grid_coord0 wfR IR b n c
  have g1 := grid_coord1 wfR IR b n c
  have g2 := grid_coord2 wfR IR b n c
  have g3 := grid_coord3 wfR IR b n c
  have g4 := grid_coord4 wfR IR b n c
  have hb' := hb b n
  have hz' := hz b n
  have hy' := hy b n
  have hx' := hx b n
  have hl' := hl b n
  generalize (dimsFlat wfK).operandIdx (ix3 b n c) IK = p at e0 e1 e2 ⊢
  generalize (dimsGrid wfR).operandIdx (ix3 b n c) IR = q at g0 g1 g2 g3 g4 ⊢
  -- the reshape: equal row-major positions; then the transpose: coordinates permuted
  refine (shapeCast_apply _ hC p
    (ix5 (q (0 : Fin 5) : Fin 4) (q (2 : Fin 5) : Fin 64) (q (3 : Fin 5) : Fin 64) (q (4 : Fin 5) : Fin 64)
      (q (1 : Fin 5) : Fin 32)) ?_).trans ?_
  · rw [Shape.rowMajor_val_five, Shape.rowMajor_val_three]
    show ((((q (0 : Fin 5)).val * 64 + (q (2 : Fin 5)).val) * 64 + (q (3 : Fin 5)).val) * 64
        + (q (4 : Fin 5)).val) * 32 + (q (1 : Fin 5)).val
      = ((p (0 : Fin 3)).val * 262144 + (p (1 : Fin 3)).val) * 32 + (p (2 : Fin 3)).val
    omega
  · refine transpose_apply _ f hT _ q (fun a => ?_)
    match a with
    | ⟨0, _⟩ => rfl
    | ⟨1, _⟩ => rfl
    | ⟨2, _⟩ => rfl
    | ⟨3, _⟩ => rfl
    | ⟨4, _⟩ => rfl

end Cert.GatherLayout
-- ==== Proof.IndexWords.lean ====
/-
  Facts about 32-bit index words: a signed clip to [0, 63], the wrap of a negative index doing nothing
  to a non-negative word, the linear position z * 4096 + y * 64 + x of three clipped coordinates read as
  a natural number, and the batch number 0..3 as a word.
-/
import Idealize.ShloMosaic.Lib.ValueIdx

namespace Cert.IndexWords

open Idealize.ShloMosaic

theorem toInt_zero32 : (0#32 : BitVec 32).toInt = 0 := by decide
theorem toInt_63 : (63#32 : BitVec 32).toInt = 63 := by decide

/-- A word whose signed reading lies in [0, 63] has that unsigned reading too. -/
theorem toNat_of_bounds (z : BitVec 32) (h0 : 0 ≤ z.toInt) (h1 : z.toInt ≤ 63) :
    z.toNat ≤ 63 ∧ z.toInt = (z.toNat : Int) := by
  have h := BitVec.toInt_eq_toNat_cond z
  have hlt := z.isLt
  split_ifs at h <;> omega

/-- (a) signed max with 0, then signed min with 63: the result reads in [0, 63]. -/
theorem clip_bounds (v : BitVec 32) :
    0 ≤ (IntOp.minsi 63#32 (IntOp.maxsi 0#32 v)).toInt ∧
      (IntOp.minsi 63#32 (IntOp.maxsi 0#32 v)).toInt ≤ 63 := by
  unfold IntOp.minsi IntOp.maxsi
  simp only [BitVec.slt, decide_eq_true_eq]
  split_ifs with h1 h2 h2
  · rw [toInt_63]; omega
  · rw [toInt_zero32]; omega
  · rw [toInt_63]; omega
  · rw [toInt_zero32] at h1; rw [toInt_63] at h2; omega

/-- (b) the wrap of a negative index leaves a non-negative word alone. -/
theorem wrap_nonneg (v N : BitVec 32) (h : 0 ≤ v.toInt) :
    Scalar.select (IntOp.cmpi .slt v 0#32) (IntOp.addi v N) v = v := by
  have hn : ¬ v.toInt < (0#32 : BitVec 32).toInt := by rw [toInt_zero32]; omega
  have hs : v.slt 0#32 = false := by simp only [BitVec.slt, decide_eq_false_iff_not]; exact hn
  simp [Scalar.select, IntOp.cmpi, hs]

/-- (c) the linear position of three coordinates in [0, 63], as a word: no wrap happens. -/
theorem linear_toInt (z y x : BitVec 32)
    (hz0 : 0 ≤ z.toInt) (hz1 : z.toInt ≤ 63) (hy0 : 0 ≤ y.toInt) (hy1 : y.toInt ≤ 63)
    (hx0 : 0 ≤ x.toInt) (hx1 : x.toInt ≤ 63) :
    (IntOp.addi (IntOp.addi (IntOp.muli z 4096#32) (IntOp.muli y 64#32)) x).toInt
      = z.toInt * 4096 + y.toInt * 64 + x.toInt := by
  obtain ⟨hzn, hze⟩ := toNat_of_bounds z hz0 hz1
  obtain ⟨hyn, hye⟩ := toNat_of_bounds y hy0 hy1
  obtain ⟨hxn, hxe⟩ := toNat_of_bounds x hx0 hx1
  unfold IntOp.addi IntOp.muli
  have hN : ((z * 4096#32 + y * 64#32) + x).toNat = z.toNat * 4096 + y.toNat * 64 + x.toNat := by
    rw [BitVec.toNat_add, BitVec.toNat_add, BitVec.toNat_mul, BitVec.toNat_mul]
    have e1 : (4096#32 : BitVec 32).toNat = 4096 := by decide
    have e2 : (64#32 : BitVec 32).toNat = 64 := by decide
    rw [e1, e2]
    omega
  have h := BitVec.toInt_eq_toNat_cond ((z * 4096#32 + y * 64#32) + x)
  rw [hN] at h
  rw [h, hze, hye, hxe]
  split_ifs with hc
  · push_cast; ring
  · exfalso; omega

theorem linear_nonneg (z y x : BitVec 32)
    (hz0 : 0 ≤ z.toInt) (hz1 : z.toInt ≤ 63) (hy0 : 0 ≤ y.toInt) (hy1 : y.toInt ≤ 63)
    (hx0 : 0 ≤ x.toInt) (hx1 : x.toInt ≤ 63) :
    0 ≤ (IntOp.addi (IntOp.addi (IntOp.muli z 4096#32) (IntOp.muli y 64#32)) x).toInt := by
  rw [linear_toInt z y x hz0 hz1 hy0 hy1 hx0 hx1]; omega

theorem linear_toNat (z y x : BitVec 32)
    (hz0 : 0 ≤ z.toInt) (hz1 : z.toInt ≤ 63) (hy0 : 0 ≤ y.toInt) (hy1 : y.toInt ≤ 63)
    (hx0 : 0 ≤ x.toInt) (hx1 : x.toInt ≤ 63) :
    (IntOp.addi (IntOp.addi (IntOp.muli z 4096#32) (IntOp.muli y 64#32)) x).toInt.toNat
      = z.toInt.toNat * 4096 + y.toInt.toNat * 64 + x.toInt.toNat := by
  rw [linear_toInt z y x hz0 hz1 hy0 hy1 hx0 hx1]; omega

/-- (d) the batch number as a word. -/
theorem iota_batch (b : Fin 4) :
    0 ≤ (BitVec.ofNat 32 b.val).toInt ∧ (BitVec.ofNat 32 b.val).toInt.toNat = b.val := by
  revert b; decide

end Cert.IndexWords
-- ==== Proof.SamplingEq.lean ====
/-
  The two fetches of a neighbouring grid vector agree.

  The reference reads the grid [4, 32, 64, 64, 64] at (batch, z, y, x); the kernel reads the channel-last, flattened
  grid [4, 262144, 32] at (batch, z * 4096 + y * 64 + x). When z, y, x are words in 0 … 63 (clipped coordinates), the
  wrap of a negative component does nothing to either start index, the linear position does not overflow, and the
  two gathers read the same elements.

  First the small readings: a clipped word lies in 0 … 63; a splat constant, a column, a wrapped word and the linear
  position read at an index; the start-index arrays read component by component. Then the five conditions of the
  layout lemma, and the equality.
-/
import proofs.«114979_j32804960207257_2_alg».proof.Proof.SamplingDefs
import proofs.«114979_j32804960207257_2_alg».proof.Proof.GatherLayout
import proofs.«114979_j32804960207257_2_alg».proof.Proof.IndexWords
import Idealize.ShloMosaic.Lib.Pipeline.Value
import Idealize.ShloMosaic.Lib.ValueIdx

noncomputable section

namespace Cert.Sampling

open Idealize.ShloMosaic Idealize.ShloMosaic.ValueIdx Cert.ReferenceIdeal Cert.ReferenceIdeal.Facts₀ Cert.ReferenceIdeal.Facts

/-! ## Word operations on arrays, read at an index (definitional) -/

theorem minsi_apply {s : Shape} {w : Nat} (x y : IVec s w) (i : s.Idx) : minsi x y i = IntOp.minsi (x i) (y i) := rfl
theorem maxsi_apply {s : Shape} {w : Nat} (x y : IVec s w) (i : s.Idx) : maxsi x y i = IntOp.maxsi (x i) (y i) := rfl
theorem addi_apply {s : Shape} {w : Nat} (x y : IVec s w) (i : s.Idx) : addi x y i = IntOp.addi (x i) (y i) := rfl
theorem muli_apply {s : Shape} {w : Nat} (x y : IVec s w) (i : s.Idx) : muli x y i = IntOp.muli (x i) (y i) := rfl
theorem cmpi_apply {s : Shape} {w : Nat} (p : CmpIPredicate) (x y : IVec s w) (i : s.Idx) :
    cmpi p x y i = IntOp.cmpi p (x i) (y i) := rfl

/-- A scalar constant spread over the sample array reads the constant everywhere. -/
theorem splat_apply (c : BitVec 32) (i : S4x131072.Idx) :
    broadcastInDim S4x131072 ![] bcast_S_S4x131072 (constantI S_ 32 c) i = c :=
  broadcastInDim_apply _ bcast_S_S4x131072 (constantI S_ 32 c) i (fun a => a.elim0) (fun a => a.elim0)

/-! ## (A) a clipped word lies in 0 … 63 -/

theorem clip_apply (u : IVec S4x131072 32) (i : S4x131072.Idx) :
    clip u i = IntOp.minsi 63#32 (IntOp.maxsi 0#32 (u i)) := by
  unfold clip
  rw [minsi_apply, maxsi_apply]
  show IntOp.minsi (broadcastInDim S4x131072 ![] bcast_S_S4x131072 (constantI S_ 32 63#32) i)
      (IntOp.maxsi (broadcastInDim S4x131072 ![] bcast_S_S4x131072 (constantI S_ 32 0#32) i) (u i)) = _
  rw [splat_apply, splat_apply]

theorem clip_bounds (u : IVec S4x131072 32) (i : S4x131072.Idx) :
    0 ≤ (clip u i).toInt ∧ (clip u i).toInt ≤ 63 := by
  rw [clip_apply]
  exact Cert.IndexWords.clip_bounds (u i)

/-! ## The pieces of the start indices, read at an index -/

/-- A component column at (b, n, 0) is the component at (b, n). -/
theorem col_apply (u : IVec S4x131072 32) (b : Fin 4) (n : Fin 131072) :
    col u (ix3 b n (0 : Fin 1)) = u (ix2 b n) := by
  unfold col
  exact broadcastInDim_apply _ bcast_S4x131072_S4x131072x1_0_1 u (ix3 b n (0 : Fin 1)) (ix2 b n)
    (fun a => match a with
      | ⟨0, _⟩ => rfl
      | ⟨1, _⟩ => rfl)

/-- The wrap of a negative component, at an index. -/
theorem wrap_apply (N : BitVec 32) (u : IVec S4x131072 32) (i : S4x131072.Idx) :
    wrap N u i = Scalar.select (IntOp.cmpi .slt (u i) 0#32) (IntOp.addi (u i) N) (u i) := by
  unfold wrap
  rw [select_apply, cmpi_apply, addi_apply, splat_apply, splat_apply]

/-- A non-negative component is not wrapped. -/
theorem wrap_of_nonneg (N : BitVec 32) (u : IVec S4x131072 32) (i : S4x131072.Idx) (h : 0 ≤ (u i).toInt) :
    wrap N u i = u i := by
  rw [wrap_apply]
  exact Cert.IndexWords.wrap_nonneg (u i) N h

/-- The linear position, at an index. -/
theorem linear_apply (Z Y X : IVec S4x131072 32) (i : S4x131072.Idx) :
    linear Z Y X i = IntOp.addi (IntOp.addi (IntOp.muli (Z i) 4096#32) (IntOp.muli (Y i) 64#32)) (X i) := by
  unfold linear
  rw [addi_apply, addi_apply, muli_apply, muli_apply, splat_apply, splat_apply]

/-! ## The reference's start indices, component by component -/

section Components
variable (Z Y X : IVec S4x131072 32) (b : Fin 4) (n : Fin 131072)

theorem gridIdx_apply0 : gridIdx Z Y X (ix3 b n (0 : Fin 4)) = batchCol (ix3 b n (0 : Fin 1)) := by
  unfold gridIdx
  exact concatenate_apply_piece _ _ _ (ix3 b n (0 : Fin 4)) 0 (by show (0 : Nat) < 4; omega) S4x131072x1 batchCol rfl rfl
    0 rfl (ix3 b n (0 : Fin 1))
    (fun a ha => match a, ha with
      | ⟨0, _⟩, _ => rfl
      | ⟨1, _⟩, _ => rfl
      | ⟨2, _⟩, ha => absurd (Fin.ext rfl) ha)
    rfl

theorem gridIdx_apply1 : gridIdx Z Y X (ix3 b n (1 : Fin 4)) = col (wrap 64#32 Z) (ix3 b n (0 : Fin 1)) := by
  unfold gridIdx
  exact concatenate_apply_piece _ _ _ (ix3 b n (1 : Fin 4)) 1 (by show (1 : Nat) < 4; omega) S4x131072x1
    (col (wrap 64#32 Z)) rfl rfl 1 rfl (ix3 b n (0 : Fin 1))
    (fun a ha => match a, ha with
      | ⟨0, _⟩, _ => rfl
      | ⟨1, _⟩, _ => rfl
      | ⟨2, _⟩, ha => absurd (Fin.ext rfl) ha)
    rfl

theorem gridIdx_apply2 : gridIdx Z Y X (ix3 b n (2 : Fin 4)) = col (wrap 64#32 Y) (ix3 b n (0 : Fin 1)) := by
  unfold gridIdx
  exact concatenate_apply_piece _ _ _ (ix3 b n (2 : Fin 4)) 2 (by show (2 : Nat) < 4; omega) S4x131072x1
    (col (wrap 64#32 Y)) rfl rfl 2 rfl (ix3 b n (0 : Fin 1))
    (fun a ha => match a, ha with
      | ⟨0, _⟩, _ => rfl
      | ⟨1, _⟩, _ => rfl
      | ⟨2, _⟩, ha => absurd (Fin.ext rfl) ha)
    rfl

theorem gridIdx_apply3 : gridIdx Z Y X (ix3 b n (3 : Fin 4)) = col (wrap 64#32 X) (ix3 b n (0 : Fin 1)) := by
  unfold gridIdx
  exact concatenate_apply_piece _ _ _ (ix3 b n (3 : Fin 4)) 3 (by show (3 : Nat) < 4; omega) S4x131072x1
    (col (wrap 64#32 X)) rfl rfl 3 rfl (ix3 b n (0 : Fin 1))
    (fun a ha => match a, ha with
      | ⟨0, _⟩, _ => rfl
      | ⟨1, _⟩, _ => rfl
      | ⟨2, _⟩, ha => absurd (Fin.ext rfl) ha)
    rfl

/-! ## The kernel's start indices, component by component -/

theorem flatIdx_apply0 : flatIdx Z Y X (ix3 b n (0 : Fin 2)) = batchCol (ix3 b n (0 : Fin 1)) := by
  unfold flatIdx
  exact concatenate_apply_piece _ _ _ (ix3 b n (0 : Fin 2)) 0 (by show (0 : Nat) < 2; omega) S4x131072x1 batchCol rfl rfl
    0 rfl (ix3 b n (0 : Fin 1))
    (fun a ha => match a, ha with
      | ⟨0, _⟩, _ => rfl
      | ⟨1, _⟩, _ => rfl
      | ⟨2, _⟩, ha => absurd (Fin.ext rfl) ha)
    rfl

theorem flatIdx_apply1 :
    flatIdx Z Y X (ix3 b n (1 : Fin 2)) = col (wrap 262144#32 (linear Z Y X)) (ix3 b n (0 : Fin 1)) := by
  unfold flatIdx
  exact concatenate_apply_piece _ _ _ (ix3 b n (1 : Fin 2)) 1 (by show (1 : Nat) < 2; omega) S4x131072x1
    (col (wrap 262144#32 (linear Z Y X))) rfl rfl 1 rfl (ix3 b n (0 : Fin 1))
    (fun a ha => match a, ha with
      | ⟨0, _⟩, _ => rfl
      | ⟨1, _⟩, _ => rfl
      | ⟨2, _⟩, ha => absurd (Fin.ext rfl) ha)
    rfl

end Components

/-! ## (B) the two fetches agree -/

/-- A grid component of the reference's start index is the clipped word itself. -/
theorem grid_component (u : IVec S4x131072 32) (b : Fin 4) (n : Fin 131072) (h : 0 ≤ (u (ix2 b n)).toInt) :
    col (wrap 64#32 u) (ix3 b n (0 : Fin 1)) = u (ix2 b n) := by
  rw [col_apply, wrap_of_nonneg _ _ _ h]

theorem gatherFlat_eq_gatherGrid (f : FVec Ideal S4x32x64x64x64 .f32) (Z Y X : IVec S4x131072 32)
    (hZ : ∀ i, 0 ≤ (Z i).toInt ∧ (Z i).toInt ≤ 63) (hY : ∀ i, 0 ≤ (Y i).toInt ∧ (Y i).toInt ≤ 63)
    (hX : ∀ i, 0 ≤ (X i).toInt ∧ (X i).toInt ≤ 63) :
    gatherFlat f Z Y X = gatherGrid f Z Y X := by
  have hz : ∀ (b : Fin 4) (n : Fin 131072), gridIdx Z Y X (ix3 b n (1 : Fin 4)) = Z (ix2 b n) := fun b n => by
    rw [gridIdx_apply1, grid_component Z b n (hZ _).1]
  have hy : ∀ (b : Fin 4) (n : Fin 131072), gridIdx Z Y X (ix3 b n (2 : Fin 4)) = Y (ix2 b n) := fun b n => by
    rw [gridIdx_apply2, grid_component Y b n (hY _).1]
  have hx : ∀ (b : Fin 4) (n : Fin 131072), gridIdx Z Y X (ix3 b n (3 : Fin 4)) = X (ix2 b n) := fun b n => by
    rw [gridIdx_apply3, grid_component X b n (hX _).1]
  have hl : ∀ (b : Fin 4) (n : Fin 131072), flatIdx Z Y X (ix3 b n (1 : Fin 2))
      = IntOp.addi (IntOp.addi (IntOp.muli (Z (ix2 b n)) 4096#32) (IntOp.muli (Y (ix2 b n)) 64#32)) (X (ix2 b n)) :=
    fun b n => by
      have hn : 0 ≤ (linear Z Y X (ix2 b n)).toInt := by
        rw [linear_apply]
        exact Cert.IndexWords.linear_nonneg _ _ _ (hZ _).1 (hZ _).2 (hY _).1 (hY _).2 (hX _).1 (hX _).2
      rw [flatIdx_apply1, col_apply, wrap_of_nonneg _ _ _ hn, linear_apply]
  have le63 : ∀ v : BitVec 32, 0 ≤ v.toInt → v.toInt ≤ 63 → v.toInt.toNat ≤ 63 := fun v h0 h1 => by omega
  unfold gatherFlat gatherGrid flatFeatures
  refine Cert.GatherLayout.gather_flat_eq_grid f _ _ _ _ (flatIdx Z Y X) (gridIdx Z Y X) ?_ ?_ ?_ ?_ ?_
  · intro b n
    rw [flatIdx_apply0, gridIdx_apply0]
  · intro b n
    rw [hz]; exact le63 _ (hZ _).1 (hZ _).2
  · intro b n
    rw [hy]; exact le63 _ (hY _).1 (hY _).2
  · intro b n
    rw [hx]; exact le63 _ (hX _).1 (hX _).2
  · intro b n
    rw [hl, hz, hy, hx]
    exact Cert.IndexWords.linear_toNat _ _ _ (hZ _).1 (hZ _).2 (hY _).1 (hY _).2 (hX _).1 (hX _).2

end Cert.Sampling

end
-- ==== Proof.Bridge.lean ====
/-
  The two programs compute one function.

  Per sample (b, n) both results are the perceptron of the sample's coordinates and of its trilinearly sampled features,
  over the same weights. The kernel's sampled features use the flattened channel-last grid and the reference's the grid
  itself; the two fetches agree because every neighbour position is a clipped word, so the flat position z · 4096 + y · 64 + x
  names exactly grid cell (z, y, x). The kernel splits the first layer's sum over the thirty-five inputs into the three
  coordinates and the thirty-two channels; a sum over Fin (3 + 32) is the sum of the two parts.
-/
import proofs.«114979_j32804960207257_2_alg».proof.Proof.KernelBlocks
import proofs.«114979_j32804960207257_2_alg».proof.Proof.KernelInputs
import proofs.«114979_j32804960207257_2_alg».proof.Proof.RefMlp
import proofs.«114979_j32804960207257_2_alg».proof.Proof.SamplingEq
import proofs.«114979_j32804960207257_2_alg».proof.Proof.SamplingRef
import proofs.«114979_j32804960207257_2_alg».proof.Proof.RefRunFast
import proofs.«114979_j32804960207257_2_alg».proof.Defs
import proofs.«114979_j32804960207257_2_alg».proof.Proof.Gen.Pre_finite_inputs

noncomputable section

namespace Cert.Bridge

open Idealize.ShloMosaic Idealize.ShloMosaic.ValueIdx Idealize.ShloMosaic.TcCoe Idealize.SL.Sem
open Cert.Lib.MergeRows (flatRow)

/-- The two fetches give the same sampled features: every neighbour position is a clipped word. -/
theorem sampled_eq (f : FVec Ideal Cert.ReferenceIdeal.S4x32x64x64x64 .f32) (p : FVec Ideal Cert.ReferenceIdeal.S4x131072x3 .f32) :
    Cert.Sampling.sampled (Cert.Sampling.gatherFlat f) p = Cert.Sampling.sampled (Cert.Sampling.gatherGrid f) p := by
  have hX0 : ∀ i, 0 ≤ (Cert.Sampling.X0 p i).toInt ∧ (Cert.Sampling.X0 p i).toInt ≤ 63 := fun i => by
    rw [Cert.Sampling.X0_clip]; exact Cert.Sampling.clip_bounds _ i
  have hX1 : ∀ i, 0 ≤ (Cert.Sampling.X1 p i).toInt ∧ (Cert.Sampling.X1 p i).toInt ≤ 63 := fun i => by
    rw [Cert.Sampling.X1_clip]; exact Cert.Sampling.clip_bounds _ i
  have hY0 : ∀ i, 0 ≤ (Cert.Sampling.Y0 p i).toInt ∧ (Cert.Sampling.Y0 p i).toInt ≤ 63 := fun i => by
    rw [Cert.Sampling.Y0_clip]; exact Cert.Sampling.clip_bounds _ i
  have hY1 : ∀ i, 0 ≤ (Cert.Sampling.Y1 p i).toInt ∧ (Cert.Sampling.Y1 p i).toInt ≤ 63 := fun i => by
    rw [Cert.Sampling.Y1_clip]; exact Cert.Sampling.clip_bounds _ i
  have hZ0 : ∀ i, 0 ≤ (Cert.Sampling.Z0 p i).toInt ∧ (Cert.Sampling.Z0 p i).toInt ≤ 63 := fun i => by
    rw [Cert.Sampling.Z0_clip]; exact Cert.Sampling.clip_bounds _ i
  have hZ1 : ∀ i, 0 ≤ (Cert.Sampling.Z1 p i).toInt ∧ (Cert.Sampling.Z1 p i).toInt ≤ 63 := fun i => by
    rw [Cert.Sampling.Z1_clip]; exact Cert.Sampling.clip_bounds _ i
  unfold Cert.Sampling.sampled
  rw [Cert.Sampling.gatherFlat_eq_gatherGrid f _ _ _ hZ0 hY0 hX0, Cert.Sampling.gatherFlat_eq_gatherGrid f _ _ _ hZ0 hY0 hX1,
    Cert.Sampling.gatherFlat_eq_gatherGrid f _ _ _ hZ0 hY1 hX0, Cert.Sampling.gatherFlat_eq_gatherGrid f _ _ _ hZ0 hY1 hX1,
    Cert.Sampling.gatherFlat_eq_gatherGrid f _ _ _ hZ1 hY0 hX0, Cert.Sampling.gatherFlat_eq_gatherGrid f _ _ _ hZ1 hY0 hX1,
    Cert.Sampling.gatherFlat_eq_gatherGrid f _ _ _ hZ1 hY1 hX0, Cert.Sampling.gatherFlat_eq_gatherGrid f _ _ _ hZ1 hY1 hX1]

/-- The perceptron of equal data is equal. -/
theorem mlp_congr {pt pt' : Fin 3 → EReal} {ft ft' : Fin 32 → EReal} {A A' : Fin 3 → Fin 128 → EReal}
    {B B' : Fin 32 → Fin 128 → EReal} {b1 b1' : Fin 128 → EReal} {W W' : Fin 128 → Fin 128 → EReal}
    {b2 b2' : Fin 128 → EReal} {w w' : Fin 128 → EReal} {b3 b3' : EReal}
    (h1 : pt = pt') (h2 : ft = ft') (h3 : A = A') (h4 : B = B') (h5 : b1 = b1') (h6 : W = W') (h7 : b2 = b2') (h8 : w = w')
    (h9 : b3 = b3') : Cert.Mlp.mlp pt ft A B b1 W b2 w b3 = Cert.Mlp.mlp pt' ft' A' B' b1' W' b2' w' b3' := by
  subst h1 h2 h3 h4 h5 h6 h7 h8 h9; rfl

section Kernel

open Cert.KernelIdeal Cert.KernelIdeal.Gen Cert.KernelArrays

variable (m : (ℓ : Loc nD τ sig) → Buf (Elt Ideal) ℓ) (c : Dev nD)

/-- The kernel's result for sample (b, n): the perceptron of the sample, over the arguments. -/
theorem kernel_row (b : Fin 4) (n : Fin 131072) :
    Cert.KernelBlocks.rowOut m c (flatRow rows_eq b n)
      = Cert.Mlp.mlp (fun d => aP m c (ix3 b n d))
          (fun ch => Cert.Sampling.sampled (Cert.Sampling.gatherGrid (aF m c)) (aP m c) (ix3 b n ch))
          (fun d h => aW1 m c (ix2 h (Fin.castAdd 32 d))) (fun ch h => aW1 m c (ix2 h (Fin.natAdd 3 ch)))
          (fun h => aB1 m c (ix1 h)) (fun h g => aW2 m c (ix2 g h)) (fun g => aB2 m c (ix1 g))
          (fun g => aW3 m c (ix2 (0 : Fin 1) g)) (aB3 m c (ix1 (0 : Fin 1))) := by
  have e1 : (fun d => kP m c (ix2 (flatRow rows_eq b n) d)) = fun d => aP m c (ix3 b n d) := funext (points_row m c b n)
  have e2 : (fun ch => kFt m c (ix2 (flatRow rows_eq b n) ch))
      = fun ch => Cert.Sampling.sampled (Cert.Sampling.gatherGrid (aF m c)) (aP m c) (ix3 b n ch) := by
    rw [← sampled_eq]; exact funext (feat_row m c b n)
  have e3 : (fun d h => kW1a m c (ix2 d h)) = fun d h => aW1 m c (ix2 h (Fin.castAdd 32 d)) :=
    funext fun d => funext (w1a_apply m c d)
  have e4 : (fun ch h => kW1b m c (ix2 ch h)) = fun ch h => aW1 m c (ix2 h (Fin.natAdd 3 ch)) :=
    funext fun ch => funext (w1b_apply m c ch)
  have e5 : (fun h => kB1 m c (ix2 (0 : Fin 1) h)) = fun h => aB1 m c (ix1 h) := funext (b1_apply m c)
  have e6 : (fun h g => kW2 m c (ix2 h g)) = fun h g => aW2 m c (ix2 g h) := funext fun h => funext (w2_apply m c h)
  have e7 : (fun g => kB2 m c (ix2 (0 : Fin 1) g)) = fun g => aB2 m c (ix1 g) := funext (b2_apply m c)
  have e8 : (fun g => kW3 m c (ix2 g (0 : Fin 1))) = fun g => aW3 m c (ix2 (0 : Fin 1) g) := funext (w3_apply m c)
  have e9 : kB3 m c (ix2 (0 : Fin 1) (0 : Fin 1)) = aB3 m c (ix1 (0 : Fin 1)) := b3_apply m c
  exact mlp_congr e1 e2 e3 e4 e5 e6 e7 e8 e9

end Kernel

/-! ## The algebraic claim -/

/-- A rank-3 index whose last axis has one position. -/
theorem idx_unit_last (i : Cert.KernelIdeal.S4x131072x1.Idx) : i = ix3 (i 0) (i 1) (0 : Fin 1) := by
  funext a
  match a with
  | ⟨0, _⟩ => rfl
  | ⟨1, _⟩ => rfl
  | ⟨2, h⟩ => exact Fin.ext (Nat.lt_one_iff.mp (i ⟨2, h⟩).isLt)

/-- Run from memories agreeing on the arguments, the two idealized programs end with equal results: the points returned as
    they were, and per sample the perceptron of the sample over the same weights. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => (fun i : Cert.KernelIdeal.S4x131072x1.Idx =>
      Cert.KernelBlocks.rowOut m c (flatRow (a := 4) (b := 131072) rfl (i 0) (i 1))), ?_, ?_⟩
  · exact (θ_run Cert.KernelIdeal.defs _ _).mono (fun r h c => ⟨(h c).2.2.1, (h c).1, (h c).2⟩) (Cert.KernelBlocks.run m ρ)
  · refine (θ_run Cert.ReferenceIdeal.defs _ _).mono (fun r h c => ⟨?_, ?_, (h c).2.2⟩) (Cert.ReferenceIdeal.RunFast.run m' ρ')
    · exact ((h c).1).trans (hagree c).2.1
    · refine ((h c).2.1).trans ?_
      rw [(hagree c).1, (hagree c).2.1, (hagree c).2.2.1, (hagree c).2.2.2.1, (hagree c).2.2.2.2.1, (hagree c).2.2.2.2.2.1,
        (hagree c).2.2.2.2.2.2.1, (hagree c).2.2.2.2.2.2.2]
      funext i
      rw [idx_unit_last i]
      refine (Cert.RefMlp.result_apply _ _ _ _ _ _ _ _ (i 0) (i 1)).trans ?_
      rw [Cert.Sampling.ref_sampled]
      exact (kernel_row m c (i 0) (i 1)).symm

end Cert.Bridge

end
-- ==== Proof.lean ====
/-
  The certificate of the sampled-feature perceptron kernel against its reference.

  The three frames: the kernel's at the word level and at the exact values are the generated frame certificates; the
  reference has no kernel, and its frame is its run with the result dropped. The kernel's idealization rewrote nothing, so
  there is nothing to preserve. The algebraic claim is Cert.Bridge.algebraic: both programs return the points unchanged and,
  per sample, the three-layer perceptron of the sample's coordinates and trilinearly sampled features.
-/
import proofs.«114979_j32804960207257_2_alg».proof.Defs
import proofs.«114979_j32804960207257_2_alg».proof.Proof.Gen.Kernel
import proofs.«114979_j32804960207257_2_alg».proof.Proof.Gen.Kernel.Skeleton
import proofs.«114979_j32804960207257_2_alg».proof.Proof.Gen.Kernel.Launch
import proofs.«114979_j32804960207257_2_alg».proof.Proof.Gen.Kernel.Points
import proofs.«114979_j32804960207257_2_alg».proof.Proof.Gen.Kernel.Frame
import proofs.«114979_j32804960207257_2_alg».proof.Proof.Gen.KernelIdeal
import proofs.«114979_j32804960207257_2_alg».proof.Proof.Gen.KernelIdeal.Skeleton
import proofs.«114979_j32804960207257_2_alg».proof.Proof.Gen.KernelIdeal.Launch
import proofs.«114979_j32804960207257_2_alg».proof.Proof.Gen.KernelIdeal.Points
import proofs.«114979_j32804960207257_2_alg».proof.Proof.Gen.KernelIdeal.Frame
import proofs.«114979_j32804960207257_2_alg».proof.Proof.Gen.ReferenceIdeal
import proofs.«114979_j32804960207257_2_alg».proof.Proof.Gen.Pre_finite_inputs
import proofs.«114979_j32804960207257_2_alg».proof.Proof.RefRunFast
import proofs.«114979_j32804960207257_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.RunFast.run m ρ)

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, Cert.Bridge.algebraic⟩

end Cert.Proof

end
